-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S400000 : Shape := ⟨1, ![400000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg21 : FVec F S128x128 .f32) (main_arg22 : FVec F S128 .f32) (main_arg23 : FVec F S128x1 .f32) (main_arg24 : FVec F S1 .f32) (main_v63 : IVec S_ 1) (main_v67 : IVec S_ 1) : IVec S_ 1 :=
  let main_v68 : IVec S_ 1 := andi main_v63 main_v67
  let main_v69 : FVec F S128x128 .f32 := Host.absf main_arg21
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg22
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg23
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg24
  let main_cst_32 : FVec F S_ .f32 := constant S_ .f32 0x7F800000#32
  fn_part5 (F := F) main_v83 main_v84 main_cst_32

def fn_part3 {F : FTy → Type} [FloatOps F] (main_arg18 : FVec F S128 .f32) (main_arg19 : FVec F S128x128 .f32) (main_arg20 : FVec F S128 .f32) (main_arg21 : FVec F S128x128 .f32) (main_arg22 : FVec F S128 .f32) (main_arg23 : FVec F S128x1 .f32) (main_arg24 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg18
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg19
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg20
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg21 main_arg22 main_arg23 main_arg24 main_v63 main_v67

def fn_part2 {F : FTy → Type} [FloatOps F] (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x1 .f32) (main_arg24 : FVec F S1 .f32) (main_v33 : IVec S_ 1) : IVec S_ 1 :=
  let main_v34 : FVec F S128 .f32 := Host.absf main_arg14
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg15
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg16
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg17
  let main_cst_18 : FVec F S_ .f32 := constant S_ .f32 0x7F800000#32
  let main_v50 : FVec F S128x128 .f32 := broadcastInDim S128x128 ![] bcast_S_S128x128 main_cst_18
  fn_part3 (F := F) main_arg18 main_arg19 main_arg20 main_arg21 main_arg22 main_arg23 main_arg24 main_v48 main_v49 main_v50

def fn_part1 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x1 .f32) (main_arg24 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg11
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg12
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg13
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg14 main_arg15 main_arg16 main_arg17 main_arg18 main_arg19 main_arg20 main_arg21 main_arg22 main_arg23 main_arg24 main_v33

def fn {F : FTy → Type} [FloatOps F] (main_arg0 : FVec F S50000x128 .f32) (main_arg1 : FVec F S50000x128 .f32) (main_arg2 : IVec S800000 32) (main_arg3 : IVec S800000 32) (main_arg4 : IVec S400000 32) (main_arg5 : IVec S400000 32) (main_arg6 : IVec S400000 32) (main_arg7 : IVec S400000 32) (main_arg8 : IVec S50000 32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x1 .f32) (main_arg24 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg9
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg10
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S800000 : Shape := ⟨1, ![800000]⟩
abbrev S400000 : Shape := ⟨1, ![400000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S800000x1 : Shape := ⟨2, ![800000, 1]⟩
abbrev S50000x1 : Shape := ⟨2, ![50000, 1]⟩
abbrev S400000x1 : Shape := ⟨2, ![400000, 1]⟩
abbrev S800000x128 : Shape := ⟨2, ![800000, 128]⟩
abbrev S400000x128 : Shape := ⟨2, ![400000, 128]⟩
abbrev S1x128 : Shape := ⟨2, ![1, 128]⟩
abbrev S2000x128 : Shape := ⟨2, ![2000, 128]⟩
abbrev S2000x1 : Shape := ⟨2, ![2000, 1]⟩
abbrev S16x128 : Shape := ⟨2, ![16, 128]⟩
abbrev S16 : Shape := ⟨1, ![16]⟩
abbrev S16x1 : Shape := ⟨2, ![16, 1]⟩
abbrev S1x1 : Shape := ⟨2, ![1, 1]⟩

abbrev nBuf : Space → Nat
  | .hbm => 216
  | .vmem => 46
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S400000, .i32⟩
  | 5 => ⟨S400000, .i32⟩
  | 6 => ⟨S400000, .i32⟩
  | 7 => ⟨S400000, .i32⟩
  | 8 => ⟨S50000, .i32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x1, .f32⟩
  | 24 => ⟨S1, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S_, .f32⟩
  | 47 => ⟨S50000, .f32⟩
  | 48 => ⟨S50000, .f32⟩
  | 49 => ⟨S_, .f32⟩
  | 50 => ⟨S50000, .f32⟩
  | 51 => ⟨S50000, .f32⟩
  | 52 => ⟨S50000x1, .f32⟩
  | 53 => ⟨S_, .f32⟩
  | 54 => ⟨S400000, .f32⟩
  | 55 => ⟨S_, .f32⟩
  | 56 => ⟨S50000, .f32⟩
  | 57 => ⟨S400000x1, .i32⟩
  | 58 => ⟨S50000, .f32⟩
  | 59 => ⟨S_, .f32⟩
  | 60 => ⟨S_, .f32⟩
  | 61 => ⟨S50000, .f32⟩
  | 62 => ⟨S50000, .f32⟩
  | 63 => ⟨S_, .f32⟩
  | 64 => ⟨S50000, .f32⟩
  | 65 => ⟨S50000, .f32⟩
  | 66 => ⟨S50000x1, .f32⟩
  | 67 => ⟨S_, .f32⟩
  | 68 => ⟨S400000, .f32⟩
  | 69 => ⟨S_, .f32⟩
  | 70 => ⟨S50000, .f32⟩
  | 71 => ⟨S400000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S_, .f32⟩
  | 78 => ⟨S50000, .f32⟩
  | 79 => ⟨S50000, .f32⟩
  | 80 => ⟨S50000x1, .f32⟩
  | 81 => ⟨S_, .f32⟩
  | 82 => ⟨S400000, .f32⟩
  | 83 => ⟨S_, .f32⟩
  | 84 => ⟨S50000, .f32⟩
  | 85 => ⟨S400000x1, .i32⟩
  | 86 => ⟨S50000, .f32⟩
  | 87 => ⟨S_, .f32⟩
  | 88 => ⟨S_, .f32⟩
  | 89 => ⟨S50000, .f32⟩
  | 90 => ⟨S50000, .f32⟩
  | 91 => ⟨S_, .f32⟩
  | 92 => ⟨S50000, .f32⟩
  | 93 => ⟨S50000, .f32⟩
  | 94 => ⟨S50000x1, .f32⟩
  | 95 => ⟨S_, .f32⟩
  | 96 => ⟨S400000, .f32⟩
  | 97 => ⟨S_, .f32⟩
  | 98 => ⟨S50000, .f32⟩
  | 99 => ⟨S400000x1, .i32⟩
  | 100 => ⟨S50000, .f32⟩
  | 101 => ⟨S_, .f32⟩
  | 102 => ⟨S_, .f32⟩
  | 103 => ⟨S50000, .f32⟩
  | 104 => ⟨S50000, .f32⟩
  | 105 => ⟨S_, .f32⟩
  | 106 => ⟨S50000, .f32⟩
  | 107 => ⟨S50000, .f32⟩
  | 108 => ⟨S50000x1, .f32⟩
  | 109 => ⟨S50000x128, .f32⟩
  | 110 => ⟨S50000x128, .f32⟩
  | 111 => ⟨S50000x128, .bf16⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .bf16⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .bf16⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x128, .bf16⟩
  | 10 => ⟨S400000x128, .f32⟩
  | 11 => ⟨S_, .f32⟩
  | 12 => ⟨S50000x128, .f32⟩
  | 13 => ⟨S400000x1, .i32⟩
  | 14 => ⟨S50000x128, .f32⟩
  | 15 => ⟨S50000x128, .f32⟩
  | 16 => ⟨S50000x128, .f32⟩
  | 17 => ⟨S50000x128, .bf16⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .bf16⟩
  | 27 => ⟨S400000x128, .f32⟩
  | 28 => ⟨S_, .f32⟩
  | 29 => ⟨S50000x128, .f32⟩
  | 30 => ⟨S400000x1, .i32⟩
  | 31 => ⟨S50000x128, .f32⟩
  | 32 => ⟨S1x128, .f32⟩
  | 33 => ⟨S1x128, .f32⟩
  | 34 => ⟨S1x128, .f32⟩
  | 35 => ⟨S50000x128, .bf16⟩
  | 36 => ⟨S50000x128, .bf16⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .bf16⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .bf16⟩
  | 60 => ⟨S400000x128, .f32⟩
  | 61 => ⟨S_, .f32⟩
  | 62 => ⟨S50000x128, .f32⟩
  | 63 => ⟨S400000x1, .i32⟩
  | 64 => ⟨S50000x128, .f32⟩
  | 65 => ⟨S1x128, .f32⟩
  | 66 => ⟨S1x128, .f32⟩
  | 67 => ⟨S50000x128, .f32⟩
  | 68 => ⟨S_, .f32⟩
  | 69 => ⟨S16x128, .f32⟩
  | 70 => ⟨S50000x1, .i32⟩
  | 71 => ⟨S16x128, .f32⟩
  | 72 => ⟨S_, .f32⟩
  | 73 => ⟨S50000, .f32⟩
  | 74 => ⟨S_, .f32⟩
  | 75 => ⟨S16, .f32⟩
  | 76 => ⟨S50000x1, .i32⟩
  | 77 => ⟨S16, .f32⟩
  | 78 => ⟨S_, .f32⟩
  | 79 => ⟨S_, .f32⟩
  | 80 => ⟨S16, .f32⟩
  | 81 => ⟨S16, .f32⟩
  | 82 => ⟨S16x1, .f32⟩
  | 83 => ⟨S16x128, .f32⟩
  | 84 => ⟨S16x128, .f32⟩
  | 85 => ⟨S1x128, .f32⟩
  | 86 => ⟨S1x1, .f32⟩
  | 87 => ⟨S16x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S1x128, .f32⟩
  | .local _ .vmem, ⟨18, _⟩ => ⟨S2000x1, .f32⟩
  | .local _ .vmem, ⟨19, _⟩ => ⟨S2000x1, .f32⟩
  | .local _ .vmem, ⟨20, _⟩ => ⟨S2000x1, .f32⟩
  | .local _ .vmem, ⟨21, _⟩ => ⟨S2000x1, .f32⟩
  | .local _ .vmem, ⟨22, _⟩ => ⟨S2000x128, .bf16⟩
  | .local _ .vmem, ⟨23, _⟩ => ⟨S2000x128, .bf16⟩
  | .local _ .vmem, ⟨24, _⟩ => ⟨S2000x128, .bf16⟩
  | .local _ .vmem, ⟨25, _⟩ => ⟨S2000x128, .bf16⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x1, .f32⟩
  | .local _ .vmem, ⟨35, _⟩ => ⟨S2000x1, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S16x128, .f32⟩
  | .local _ .vmem, ⟨41, _⟩ => ⟨S128x128, .f32⟩
  | .local _ .vmem, ⟨42, _⟩ => ⟨S1x128, .f32⟩
  | .local _ .vmem, ⟨43, _⟩ => ⟨S128x1, .f32⟩
  | .local _ .vmem, ⟨44, _⟩ => ⟨S1x1, .f32⟩
  | .local _ .vmem, ⟨45, _⟩ => ⟨S16x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v4 : Ref sig .tc := ⟨.hbm, 34, rfl⟩
abbrev main_cst_2 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_3 : Ref sig .tc := ⟨.hbm, 39, rfl⟩
abbrev main_v8 : Ref sig .tc := ⟨.hbm, 40, rfl⟩
abbrev main_cst_4 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v12 : Ref sig .tc := ⟨.hbm, 48, rfl⟩
abbrev main_cst_6 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_7 : Ref sig .tc := ⟨.hbm, 53, rfl⟩
abbrev main_v16 : Ref sig .tc := ⟨.hbm, 54, rfl⟩
abbrev main_cst_8 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_9 : Ref sig .tc := ⟨.hbm, 59, rfl⟩
abbrev main_call2_v0 : Ref sig .tc := ⟨.hbm, 60, rfl⟩
abbrev main_call2_v1 : Ref sig .tc := ⟨.hbm, 61, rfl⟩
abbrev main_v20 : Ref sig .tc := ⟨.hbm, 62, rfl⟩
abbrev main_cst_10 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_11 : Ref sig .tc := ⟨.hbm, 67, rfl⟩
abbrev main_v24 : Ref sig .tc := ⟨.hbm, 68, rfl⟩
abbrev main_cst_12 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_13 : Ref sig .tc := ⟨.hbm, 73, rfl⟩
abbrev main_call3_v0 : Ref sig .tc := ⟨.hbm, 74, rfl⟩
abbrev main_call3_v1 : Ref sig .tc := ⟨.hbm, 75, rfl⟩
abbrev main_v28 : Ref sig .tc := ⟨.hbm, 76, rfl⟩
abbrev main_cst_14 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_15 : Ref sig .tc := ⟨.hbm, 81, rfl⟩
abbrev main_v32 : Ref sig .tc := ⟨.hbm, 82, rfl⟩
abbrev main_cst_16 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_17 : Ref sig .tc := ⟨.hbm, 87, rfl⟩
abbrev main_call4_v0 : Ref sig .tc := ⟨.hbm, 88, rfl⟩
abbrev main_call4_v1 : Ref sig .tc := ⟨.hbm, 89, rfl⟩
abbrev main_v36 : Ref sig .tc := ⟨.hbm, 90, rfl⟩
abbrev main_cst_18 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_19 : Ref sig .tc := ⟨.hbm, 95, rfl⟩
abbrev main_v40 : Ref sig .tc := ⟨.hbm, 96, rfl⟩
abbrev main_cst_20 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_21 : Ref sig .tc := ⟨.hbm, 101, rfl⟩
abbrev main_call5_v0 : Ref sig .tc := ⟨.hbm, 102, rfl⟩
abbrev main_call5_v1 : Ref sig .tc := ⟨.hbm, 103, rfl⟩
abbrev main_v44 : Ref sig .tc := ⟨.hbm, 104, rfl⟩
abbrev main_cst_22 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_c : Ref sig .tc := ⟨.hbm, 112, rfl⟩
abbrev main_v51 : Ref sig .tc := ⟨.hbm, 113, rfl⟩
abbrev main_v52 : Ref sig .tc := ⟨.hbm, 114, rfl⟩
abbrev main_c_23 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_cst_24 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_c_25 : Ref sig .tc := ⟨.hbm, 129, rfl⟩
abbrev main_v65 : Ref sig .tc := ⟨.hbm, 130, rfl⟩
abbrev main_v66 : Ref sig .tc := ⟨.hbm, 131, rfl⟩
abbrev main_c_26 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_27 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_c_28 : Ref sig .tc := ⟨.hbm, 146, rfl⟩
abbrev main_v79 : Ref sig .tc := ⟨.hbm, 147, rfl⟩
abbrev main_v80 : Ref sig .tc := ⟨.hbm, 148, rfl⟩
abbrev main_c_29 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_cst_30 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93_0 : Ref sig .tc := ⟨.hbm, 163, rfl⟩
abbrev main_v93_1 : Ref sig .tc := ⟨.hbm, 164, rfl⟩
abbrev main_c_31 : Ref sig .tc := ⟨.hbm, 165, rfl⟩
abbrev main_v94 : Ref sig .tc := ⟨.hbm, 166, rfl⟩
abbrev main_v95 : Ref sig .tc := ⟨.hbm, 167, rfl⟩
abbrev main_c_32 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_cst_33 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_c_34 : Ref sig .tc := ⟨.hbm, 179, rfl⟩
abbrev main_v105 : Ref sig .tc := ⟨.hbm, 180, rfl⟩
abbrev main_v106 : Ref sig .tc := ⟨.hbm, 181, rfl⟩
abbrev main_c_35 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_36 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_cst_37 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_cst_38 : Ref sig .tc := ⟨.hbm, 200, rfl⟩
abbrev main_v122 : Ref sig .tc := ⟨.hbm, 201, rfl⟩
abbrev main_cst_39 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_cst_40 : Ref sig .tc := ⟨.hbm, 206, rfl⟩
abbrev main_call6_v0 : Ref sig .tc := ⟨.hbm, 207, rfl⟩
abbrev main_call6_v1 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg8_1 : Ref sig .tc := ⟨.vmem, 39, rfl⟩
abbrev cc2_stg0_0 : Ref sig .tc := ⟨.vmem, 40, rfl⟩
abbrev cc2_stg1_0 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem7_0 : DmaSem sig := 37
abbrev cc1_sem8_0 : DmaSem sig := 38
abbrev cc1_sem8_1 : DmaSem sig := 39
abbrev cc2_sem0_0 : DmaSem sig := 40
abbrev cc2_sem1_0 : DmaSem sig := 41
abbrev cc2_sem2_0 : DmaSem sig := 42
abbrev cc2_sem3_0 : DmaSem sig := 43
abbrev cc2_sem4_0 : DmaSem sig := 44
abbrev cc2_sem5_0 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S16x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S400000 : S_.BroadcastsInDim S400000 (![] : Fin 0 → Fin S400000.rank)
  bcast_S400000_S400000x1_0 : S400000.BroadcastsInDim S400000x1 (![0] : Fin 1 → Fin S400000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S16x128 : S_.BroadcastsInDim S16x128 (![] : Fin 0 → Fin S16x128.rank)
  bcast_S50000_S50000x1_0 : S50000.BroadcastsInDim S50000x1 (![0] : Fin 1 → Fin S50000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  shapeCasts_S1_S1x1 : S1.ShapeCasts S1x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S16x128 : S1x128.Broadcasts S16x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16x1 : S1x1.Broadcasts S16x1
  inb_S16x1_S16x1_0_0 : ∀ a, (![0, 0] : Fin 2 → Nat) a + S16x1.size a ≤ S16x1.size a
  h_S16x1 : 0 < S16x1.numel
  scatter_S50000_S800000x1_S800000_n_0_0_1_wf : ScatterDims.WF S50000 S800000x1 S800000 [] [0] [0] 1
  scatter_S50000_S400000x1_S400000_n_0_0_1_wf : ScatterDims.WF S50000 S400000x1 S400000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x128_S2000x128_1_0_0_1_n_n_wf : DotDims.WF S2000x128 S128x128 S2000x128 [1] [0] [0] [1] [] []
  scatter_S16x128_S50000x1_S50000x128_1_0_0_1_wf : ScatterDims.WF S16x128 S50000x1 S50000x128 [1] [0] [0] 1
  scatter_S16_S50000x1_S50000_n_0_0_1_wf : ScatterDims.WF S16 S50000x1 S50000 [] [0] [0] 1
  dot_S16x128_S128x128_S16x128_1_0_0_1_n_n_wf : DotDims.WF S16x128 S128x128 S16x128 [1] [0] [0] [1] [] []
  dot_S16x128_S128x1_S16x1_1_0_0_1_n_n_wf : DotDims.WF S16x128 S128x1 S16x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S50000x1.size a
  hwx0_9 : ∀ i : grid0.Coords, EltTy.bits .f32 = 32 ∨ (Rect.block (s := S50000x1) S2000x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S50000x1.size a
  hwx0_12 : ∀ i : grid0.Coords, EltTy.bits .f32 = 32 ∨ (Rect.block (s := S50000x1) S2000x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x1.size a ≤ S50000x1.size a
  hwx0_13 : ∀ i : grid0.Coords, EltTy.bits .f32 = 32 ∨ (Rect.block (s := S50000x1) S2000x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S50000x128.size a
  hwx0_14 : ∀ i : grid0.Coords, EltTy.bits .bf16 = 32 ∨ (Rect.block (s := S50000x128) S2000x128.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S50000x128.size a
  hwx0_15 : ∀ i : grid0.Coords, EltTy.bits .bf16 = 32 ∨ (Rect.block (s := S50000x128) S2000x128.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16x128.size a ≤ S16x128.size a
  hwx2_0 : ∀ i : grid2.Coords, EltTy.bits .f32 = 32 ∨ (Rect.block (s := S16x128) S16x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x1.size a ≤ S16x1.size a
  hwx2_5 : ∀ i : grid2.Coords, EltTy.bits .f32 = 32 ∨ (Rect.block (s := S16x1) S16x1.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x1_S16x1_1_0_0_1_n_n : DotDims S16x128 S128x1 S16x1 where
  lhsContracting := [1]
  rhsContracting := [0]
  lhsNonContracting := [0]
  rhsNonContracting := [1]
  lhsBatch := []
  rhsBatch := []
  wf := dot_S16x128_S128x1_S16x1_1_0_0_1_n_n_wf

abbrev win0_0 : Pipeline.Window sig grid0 :=
  Pipeline.Window.ofSpec (Memref.whole main_v61) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v90) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v75) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v91) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v89) S2000x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v47) S2000x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v92) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S2000x1.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v23) S2000x1.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v93_0) S2000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v93_1) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v104) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v116) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v115) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg17) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v117) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v118) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v129) S16x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg21) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v130) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg23) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v131) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v132) S16x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S400000 : Shape := ⟨1, ![400000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S400000x1 : Shape := ⟨2, ![400000, 1]⟩
abbrev S400000x128 : Shape := ⟨2, ![400000, 128]⟩
abbrev S16x128 : Shape := ⟨2, ![16, 128]⟩
abbrev S16 : Shape := ⟨1, ![16]⟩
abbrev S16x1 : Shape := ⟨2, ![16, 1]⟩
abbrev S1x1 : Shape := ⟨2, ![1, 1]⟩

abbrev nBuf : Space → Nat
  | .hbm => 358
  | .vmem => 0
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S400000, .i32⟩
  | 5 => ⟨S400000, .i32⟩
  | 6 => ⟨S400000, .i32⟩
  | 7 => ⟨S400000, .i32⟩
  | 8 => ⟨S50000, .i32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x1, .f32⟩
  | 24 => ⟨S1, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S_, .f32⟩
  | 33 => ⟨S50000, .f32⟩
  | 34 => ⟨S50000, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S_, .f32⟩
  | 43 => ⟨S50000, .f32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S400000, .f32⟩
  | 76 => ⟨S_, .f32⟩
  | 77 => ⟨S50000, .f32⟩
  | 78 => ⟨S400000x1, .i32⟩
  | 79 => ⟨S50000, .f32⟩
  | 80 => ⟨S_, .f32⟩
  | 81 => ⟨S_, .f32⟩
  | 82 => ⟨S50000, .f32⟩
  | 83 => ⟨S50000, .f32⟩
  | 84 => ⟨S_, .f32⟩
  | 85 => ⟨S400000, .f32⟩
  | 86 => ⟨S_, .f32⟩
  | 87 => ⟨S50000, .f32⟩
  | 88 => ⟨S400000x1, .i32⟩
  | 89 => ⟨S50000, .f32⟩
  | 90 => ⟨S_, .f32⟩
  | 91 => ⟨S_, .f32⟩
  | 92 => ⟨S50000, .f32⟩
  | 93 => ⟨S50000, .f32⟩
  | 94 => ⟨S_, .f32⟩
  | 95 => ⟨S50000, .f32⟩
  | 96 => ⟨S50000, .f32⟩
  | 97 => ⟨S50000x1, .f32⟩
  | 98 => ⟨S50000x128, .f32⟩
  | 99 => ⟨S50000x128, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S400000x128, .f32⟩
  | 109 => ⟨S_, .f32⟩
  | 110 => ⟨S50000x128, .f32⟩
  | 111 => ⟨S400000x1, .i32⟩
  | 112 => ⟨S50000x128, .f32⟩
  | 113 => ⟨S_, .f32⟩
  | 114 => ⟨S50000, .f32⟩
  | 115 => ⟨S50000, .f32⟩
  | 116 => ⟨S50000x1, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S400000, .f32⟩
  | 126 => ⟨S_, .f32⟩
  | 127 => ⟨S50000, .f32⟩
  | _ => ⟨S50000x128, .f32⟩

abbrev hbmTy0_1 (i : Nat) : BufTy := match i % 128 with
  | 0 => ⟨S400000x1, .i32⟩
  | 1 => ⟨S50000, .f32⟩
  | 2 => ⟨S_, .f32⟩
  | 3 => ⟨S_, .f32⟩
  | 4 => ⟨S50000, .f32⟩
  | 5 => ⟨S50000, .f32⟩
  | 6 => ⟨S_, .f32⟩
  | 7 => ⟨S400000, .f32⟩
  | 8 => ⟨S_, .f32⟩
  | 9 => ⟨S50000, .f32⟩
  | 10 => ⟨S400000x1, .i32⟩
  | 11 => ⟨S50000, .f32⟩
  | 12 => ⟨S_, .f32⟩
  | 13 => ⟨S_, .f32⟩
  | 14 => ⟨S50000, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x128, .f32⟩
  | 21 => ⟨S50000x128, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x128, .f32⟩
  | 31 => ⟨S_, .f32⟩
  | 32 => ⟨S50000x128, .f32⟩
  | 33 => ⟨S400000x1, .i32⟩
  | 34 => ⟨S50000x128, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .f32⟩
  | 52 => ⟨S800000, .f32⟩
  | 53 => ⟨S_, .f32⟩
  | 54 => ⟨S50000, .f32⟩
  | 55 => ⟨S800000x1, .i32⟩
  | 56 => ⟨S50000, .f32⟩
  | 57 => ⟨S_, .f32⟩
  | 58 => ⟨S_, .f32⟩
  | 59 => ⟨S50000, .f32⟩
  | 60 => ⟨S50000, .f32⟩
  | 61 => ⟨S_, .f32⟩
  | 62 => ⟨S800000, .f32⟩
  | 63 => ⟨S_, .f32⟩
  | 64 => ⟨S50000, .f32⟩
  | 65 => ⟨S800000x1, .i32⟩
  | 66 => ⟨S50000, .f32⟩
  | 67 => ⟨S_, .f32⟩
  | 68 => ⟨S_, .f32⟩
  | 69 => ⟨S50000, .f32⟩
  | 70 => ⟨S50000, .f32⟩
  | 71 => ⟨S_, .f32⟩
  | 72 => ⟨S50000, .f32⟩
  | 73 => ⟨S50000, .f32⟩
  | 74 => ⟨S50000x1, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S50000, .f32⟩
  | 92 => ⟨S50000, .f32⟩
  | 93 => ⟨S50000x1, .f32⟩
  | 94 => ⟨S50000x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S400000, .f32⟩
  | 102 => ⟨S_, .f32⟩
  | 103 => ⟨S50000, .f32⟩
  | 104 => ⟨S400000x1, .i32⟩
  | 105 => ⟨S50000, .f32⟩
  | 106 => ⟨S_, .f32⟩
  | 107 => ⟨S_, .f32⟩
  | 108 => ⟨S50000, .f32⟩
  | 109 => ⟨S50000, .f32⟩
  | 110 => ⟨S_, .f32⟩
  | 111 => ⟨S400000, .f32⟩
  | 112 => ⟨S_, .f32⟩
  | 113 => ⟨S50000, .f32⟩
  | 114 => ⟨S400000x1, .i32⟩
  | 115 => ⟨S50000, .f32⟩
  | 116 => ⟨S_, .f32⟩
  | 117 => ⟨S_, .f32⟩
  | 118 => ⟨S50000, .f32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x128, .f32⟩
  | 125 => ⟨S50000x128, .f32⟩
  | 126 => ⟨S_, .i32⟩
  | 127 => ⟨S400000, .i32⟩
  | _ => ⟨S50000x128, .f32⟩

abbrev hbmTy0_2 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x128, .f32⟩
  | 7 => ⟨S_, .f32⟩
  | 8 => ⟨S50000x128, .f32⟩
  | 9 => ⟨S400000x1, .i32⟩
  | 10 => ⟨S50000x128, .f32⟩
  | 11 => ⟨S_, .f32⟩
  | 12 => ⟨S50000, .f32⟩
  | 13 => ⟨S50000, .f32⟩
  | 14 => ⟨S50000x1, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S400000, .f32⟩
  | 24 => ⟨S_, .f32⟩
  | 25 => ⟨S50000, .f32⟩
  | 26 => ⟨S400000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S400000, .f32⟩
  | 34 => ⟨S_, .f32⟩
  | 35 => ⟨S50000, .f32⟩
  | 36 => ⟨S400000x1, .i32⟩
  | 37 => ⟨S50000, .f32⟩
  | 38 => ⟨S_, .f32⟩
  | 39 => ⟨S_, .f32⟩
  | 40 => ⟨S50000, .f32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x128, .f32⟩
  | 57 => ⟨S_, .f32⟩
  | 58 => ⟨S50000x128, .f32⟩
  | 59 => ⟨S400000x1, .i32⟩
  | 60 => ⟨S50000x128, .f32⟩
  | 61 => ⟨S_, .f32⟩
  | 62 => ⟨S50000, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .f32⟩
  | 75 => ⟨S16x128, .f32⟩
  | 76 => ⟨S50000x1, .i32⟩
  | 77 => ⟨S16x128, .f32⟩
  | 78 => ⟨S_, .f32⟩
  | 79 => ⟨S50000, .f32⟩
  | 80 => ⟨S_, .f32⟩
  | 81 => ⟨S16, .f32⟩
  | 82 => ⟨S50000x1, .i32⟩
  | 83 => ⟨S16, .f32⟩
  | 84 => ⟨S_, .f32⟩
  | 85 => ⟨S_, .f32⟩
  | 86 => ⟨S16, .f32⟩
  | 87 => ⟨S16, .f32⟩
  | 88 => ⟨S16x1, .f32⟩
  | 89 => ⟨S16x128, .f32⟩
  | 90 => ⟨S16x128, .f32⟩
  | 91 => ⟨S16x128, .f32⟩
  | 92 => ⟨S1x128, .f32⟩
  | 93 => ⟨S16x128, .f32⟩
  | 94 => ⟨S16x128, .f32⟩
  | 95 => ⟨S_, .f32⟩
  | 96 => ⟨S16x128, .f32⟩
  | 97 => ⟨S16x128, .f32⟩
  | 98 => ⟨S16x1, .f32⟩
  | 99 => ⟨S1x1, .f32⟩
  | 100 => ⟨S16x1, .f32⟩
  | 101 => ⟨S16x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v4 : Ref sig .tc := ⟨.hbm, 34, rfl⟩
abbrev main_cst_2 : Ref sig .tc := ⟨.hbm, 35, rfl⟩
abbrev main_v5 : Ref sig .tc := ⟨.hbm, 36, rfl⟩
abbrev main_cst_3 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v9 : Ref sig .tc := ⟨.hbm, 44, rfl⟩
abbrev main_cst_5 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c : Ref sig .tc := ⟨.hbm, 51, rfl⟩
abbrev main_v15 : Ref sig .tc := ⟨.hbm, 52, rfl⟩
abbrev main_v16 : Ref sig .tc := ⟨.hbm, 53, rfl⟩
abbrev main_c_6 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_7 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_8 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_9 : Ref sig .tc := ⟨.hbm, 74, rfl⟩
abbrev main_v34 : Ref sig .tc := ⟨.hbm, 75, rfl⟩
abbrev main_cst_10 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_v38 : Ref sig .tc := ⟨.hbm, 83, rfl⟩
abbrev main_cst_12 : Ref sig .tc := ⟨.hbm, 84, rfl⟩
abbrev main_v39 : Ref sig .tc := ⟨.hbm, 85, rfl⟩
abbrev main_cst_13 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v43 : Ref sig .tc := ⟨.hbm, 93, rfl⟩
abbrev main_cst_15 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_16 : Ref sig .tc := ⟨.hbm, 100, rfl⟩
abbrev main_v49 : Ref sig .tc := ⟨.hbm, 101, rfl⟩
abbrev main_v50 : Ref sig .tc := ⟨.hbm, 102, rfl⟩
abbrev main_c_17 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_18 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_19 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_20 : Ref sig .tc := ⟨.hbm, 124, rfl⟩
abbrev main_v69 : Ref sig .tc := ⟨.hbm, 125, rfl⟩
abbrev main_cst_21 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_22 : Ref sig .tc := ⟨.hbm, 130, rfl⟩
abbrev main_call4_v0 : Ref sig .tc := ⟨.hbm, 131, rfl⟩
abbrev main_call4_v1 : Ref sig .tc := ⟨.hbm, 132, rfl⟩
abbrev main_v73 : Ref sig .tc := ⟨.hbm, 133, rfl⟩
abbrev main_cst_23 : Ref sig .tc := ⟨.hbm, 134, rfl⟩
abbrev main_v74 : Ref sig .tc := ⟨.hbm, 135, rfl⟩
abbrev main_cst_24 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_25 : Ref sig .tc := ⟨.hbm, 140, rfl⟩
abbrev main_call5_v0 : Ref sig .tc := ⟨.hbm, 141, rfl⟩
abbrev main_call5_v1 : Ref sig .tc := ⟨.hbm, 142, rfl⟩
abbrev main_v78 : Ref sig .tc := ⟨.hbm, 143, rfl⟩
abbrev main_cst_26 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_c_27 : Ref sig .tc := ⟨.hbm, 150, rfl⟩
abbrev main_v84 : Ref sig .tc := ⟨.hbm, 151, rfl⟩
abbrev main_v85 : Ref sig .tc := ⟨.hbm, 152, rfl⟩
abbrev main_c_28 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_cst_29 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_30 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_call6_cst : Ref sig .tc := ⟨.hbm, 173, rfl⟩
abbrev main_call6_v0 : Ref sig .tc := ⟨.hbm, 174, rfl⟩
abbrev main_v103 : Ref sig .tc := ⟨.hbm, 175, rfl⟩
abbrev main_call7_cst : Ref sig .tc := ⟨.hbm, 176, rfl⟩
abbrev main_call7_v0 : Ref sig .tc := ⟨.hbm, 177, rfl⟩
abbrev main_v104 : Ref sig .tc := ⟨.hbm, 178, rfl⟩
abbrev main_cst_31 : Ref sig .tc := ⟨.hbm, 179, rfl⟩
abbrev main_v105 : Ref sig .tc := ⟨.hbm, 180, rfl⟩
abbrev main_cst_32 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_cst_33 : Ref sig .tc := ⟨.hbm, 185, rfl⟩
abbrev main_call8_v0 : Ref sig .tc := ⟨.hbm, 186, rfl⟩
abbrev main_call8_v1 : Ref sig .tc := ⟨.hbm, 187, rfl⟩
abbrev main_v109 : Ref sig .tc := ⟨.hbm, 188, rfl⟩
abbrev main_cst_34 : Ref sig .tc := ⟨.hbm, 189, rfl⟩
abbrev main_v110 : Ref sig .tc := ⟨.hbm, 190, rfl⟩
abbrev main_cst_35 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_cst_36 : Ref sig .tc := ⟨.hbm, 195, rfl⟩
abbrev main_call9_v0 : Ref sig .tc := ⟨.hbm, 196, rfl⟩
abbrev main_call9_v1 : Ref sig .tc := ⟨.hbm, 197, rfl⟩
abbrev main_v114 : Ref sig .tc := ⟨.hbm, 198, rfl⟩
abbrev main_cst_37 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_c_38 : Ref sig .tc := ⟨.hbm, 205, rfl⟩
abbrev main_v120 : Ref sig .tc := ⟨.hbm, 206, rfl⟩
abbrev main_v121 : Ref sig .tc := ⟨.hbm, 207, rfl⟩
abbrev main_c_39 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_cst_40 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_cst_41 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_cst_42 : Ref sig .tc := ⟨.hbm, 228, rfl⟩
abbrev main_v139 : Ref sig .tc := ⟨.hbm, 229, rfl⟩
abbrev main_cst_43 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_cst_44 : Ref sig .tc := ⟨.hbm, 234, rfl⟩
abbrev main_call10_v0 : Ref sig .tc := ⟨.hbm, 235, rfl⟩
abbrev main_call10_v1 : Ref sig .tc := ⟨.hbm, 236, rfl⟩
abbrev main_v143 : Ref sig .tc := ⟨.hbm, 237, rfl⟩
abbrev main_cst_45 : Ref sig .tc := ⟨.hbm, 238, rfl⟩
abbrev main_v144 : Ref sig .tc := ⟨.hbm, 239, rfl⟩
abbrev main_cst_46 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_cst_47 : Ref sig .tc := ⟨.hbm, 244, rfl⟩
abbrev main_call11_v0 : Ref sig .tc := ⟨.hbm, 245, rfl⟩
abbrev main_call11_v1 : Ref sig .tc := ⟨.hbm, 246, rfl⟩
abbrev main_v148 : Ref sig .tc := ⟨.hbm, 247, rfl⟩
abbrev main_cst_48 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_c_49 : Ref sig .tc := ⟨.hbm, 254, rfl⟩
abbrev main_v154 : Ref sig .tc := ⟨.hbm, 255, rfl⟩
abbrev main_v155 : Ref sig .tc := ⟨.hbm, 256, rfl⟩
abbrev main_c_50 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_cst_51 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_cst_52 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_cst_53 : Ref sig .tc := ⟨.hbm, 278, rfl⟩
abbrev main_v174 : Ref sig .tc := ⟨.hbm, 279, rfl⟩
abbrev main_cst_54 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_cst_55 : Ref sig .tc := ⟨.hbm, 284, rfl⟩
abbrev main_call12_v0 : Ref sig .tc := ⟨.hbm, 285, rfl⟩
abbrev main_call12_v1 : Ref sig .tc := ⟨.hbm, 286, rfl⟩
abbrev main_v178 : Ref sig .tc := ⟨.hbm, 287, rfl⟩
abbrev main_cst_56 : Ref sig .tc := ⟨.hbm, 288, rfl⟩
abbrev main_v179 : Ref sig .tc := ⟨.hbm, 289, rfl⟩
abbrev main_cst_57 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_cst_58 : Ref sig .tc := ⟨.hbm, 294, rfl⟩
abbrev main_call13_v0 : Ref sig .tc := ⟨.hbm, 295, rfl⟩
abbrev main_call13_v1 : Ref sig .tc := ⟨.hbm, 296, rfl⟩
abbrev main_v183 : Ref sig .tc := ⟨.hbm, 297, rfl⟩
abbrev main_cst_59 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_c_60 : Ref sig .tc := ⟨.hbm, 304, rfl⟩
abbrev main_v189 : Ref sig .tc := ⟨.hbm, 305, rfl⟩
abbrev main_v190 : Ref sig .tc := ⟨.hbm, 306, rfl⟩
abbrev main_c_61 : Ref sig .tc := ⟨.hbm, 307, rfl⟩
abbrev main_v191 : Ref sig .tc := ⟨.hbm, 308, rfl⟩
abbrev main_v192 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_cst_62 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_cst_63 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_call14_cst : Ref sig .tc := ⟨.hbm, 327, rfl⟩
abbrev main_call14_v0 : Ref sig .tc := ⟨.hbm, 328, rfl⟩
abbrev main_v208 : Ref sig .tc := ⟨.hbm, 329, rfl⟩
abbrev main_cst_64 : Ref sig .tc := ⟨.hbm, 330, rfl⟩
abbrev main_v209 : Ref sig .tc := ⟨.hbm, 331, rfl⟩
abbrev main_v210 : Ref sig .tc := ⟨.hbm, 332, rfl⟩
abbrev main_v211 : Ref sig .tc := ⟨.hbm, 333, rfl⟩
abbrev main_cst_65 : Ref sig .tc := ⟨.hbm, 334, rfl⟩
abbrev main_v212 : Ref sig .tc := ⟨.hbm, 335, rfl⟩
abbrev main_cst_66 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_cst_67 : Ref sig .tc := ⟨.hbm, 340, rfl⟩
abbrev main_call15_v0 : Ref sig .tc := ⟨.hbm, 341, rfl⟩
abbrev main_call15_v1 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_v223 : Ref sig .tc := ⟨.hbm, 350, rfl⟩
abbrev main_call16_cst : Ref sig .tc := ⟨.hbm, 351, rfl⟩
abbrev main_call16_v0 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S16x128 : S_.BroadcastsInDim S16x128 (![] : Fin 0 → Fin S16x128.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S1x128_S16x128_0_1 : S1x128.BroadcastsInDim S16x128 (![0, 1] : Fin 2 → Fin S16x128.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S50000_S400000x1_S400000_n_0_0_1_wf : ScatterDims.WF S50000 S400000x1 S400000 [] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S16x128_S50000x1_S50000x128_1_0_0_1_wf : ScatterDims.WF S16x128 S50000x1 S50000x128 [1] [0] [0] 1
  scatter_S16_S50000x1_S50000_n_0_0_1_wf : ScatterDims.WF S16 S50000x1 S50000 [] [0] [0] 1
  dot_S16x128_S128x128_S16x128_1_0_0_1_n_n_wf : DotDims.WF S16x128 S128x128 S16x128 [1] [0] [0] [1] [] []
  dot_S16x128_S128x1_S16x1_1_0_0_1_n_n_wf : DotDims.WF S16x128 S128x1 S16x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x1_S16x1_1_0_0_1_n_n : DotDims S16x128 S128x1 S16x1 where
  lhsContracting := [1]
  rhsContracting := [0]
  lhsNonContracting := [0]
  rhsNonContracting := [1]
  lhsBatch := []
  rhsBatch := []
  wf := dot_S16x128_S128x1_S16x1_1_0_0_1_n_n_wf

class Facts : Prop extends Facts₀ where

variable [Facts]
-- ==== Proof.KernelRun.lean ====
import proofs.«119022_j89644557402629_2_alg».proof.Proof.Gen.KernelIdeal.Frame
import Idealize.ShloMosaic.PureOps.Ideal
import Idealize.ShloMosaic.PureOps.Ideal.Laws

/-! The kernel program's run at the exact reals, with what the result buffer holds at the end.

Every weakly fair execution of the program from a memory with zero counters terminates without a fault; at the
end each argument array is as launched, and the result array holds the last boundary's contents at its
reference: the contents the last region's write-backs leave, a function of the launch memory alone. -/

set_option maxRecDepth 16384

noncomputable section

namespace Cert.KernelIdeal.Glue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the program: termination without a fault, the arguments as launched, and the result array at the
    last boundary's contents. -/
theorem run_result : θ_run defs (onTc (τ := τ) (main (F := Ideal))) ⟨m, fun _ => 0, ρ⟩ (fun r => ∀ c : Dev nD,
      r.2.mem ((c.tc : Thread nD τ).loc main_v132) = W20 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v132 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c),
       (h c _ (mem_uc main_arg23 (by decide))).trans (W20_main_arg23 m ρ c),
       (h c _ (mem_uc main_arg24 (by decide))).trans (W20_main_arg24 m ρ c)⟩)

end Cert.KernelIdeal.Glue

end
-- ==== Proof.KernelHost.lean ====
import proofs.«119022_j89644557402629_2_alg».proof.Proof.Gen.KernelIdeal.Frame
import proofs.«119022_j89644557402629_2_alg».proof.Proof.RefReadP
import Idealize.ShloMosaic.PureOps.Ideal
import Idealize.ShloMosaic.PureOps.Ideal.Laws
import Idealize.ShloMosaic.Lib.StableHlo.Run
import Idealize.ShloMosaic.Lib.Pipeline.Value

/-! What each region of the kernel program finds in its input arrays, in the reference program's terms.

Between the launch and each region the kernel program runs host operations: scatters and gathers along the edge
lists, clips, powers, broadcasts, reshapes. Operation by operation they are the reference program's, applied to
the same arguments; at the exact reals a change of float format is the identity. So each array a region reads
holds a stage of the reference program at the launch arguments. -/

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

/-! ## Two spellings of one layout change

Viewing a vector as a one-column matrix, or as a one-row matrix, is written in one program as a reshape and in the
other as a broadcast along the new unit axis. Both read the vector at the one coordinate that is not on the unit
axis, so they are the same array. -/

section Layout
variable {α : Type}

/-- A vector of `n` entries as an `n × 1` column: the reshape and the broadcast along axis 0 agree. -/
theorem shapeCast_col_eq_broadcastInDim {n : Nat} (hn : n ≠ 1) (x : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ x h = broadcastInDim ⟨2, ![n, 1]⟩ ![0] h' x := by
  funext j
  have hj1 : (j 1).val < 1 := (j 1).isLt
  have hj0 : (j 0).val < n := (j 0).isLt
  let k : (⟨1, ![n]⟩ : Shape).Idx := fun a => match a with
    | ⟨0, _⟩ => ⟨(j 0).val, hj0⟩
  rw [shapeCast_apply x h j k (by
        rw [Shape.rowMajor_val_one, Shape.rowMajor_val_two]
        show (j 0).val = (j 0).val * 1 + (j 1).val
        omega),
      broadcastInDim_apply _ h' x j k (fun a => match a with
        | ⟨0, _⟩ => by show (j 0).val = if n = 1 then 0 else (j 0).val; rw [if_neg hn])]

/-- A vector of `n` entries as a `1 × n` row: the reshape and the broadcast along axis 1 agree. -/
theorem shapeCast_row_eq_broadcastInDim {n : Nat} (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  have hj0 : (j 0).val < 1 := (j 0).isLt
  have hj1 : (j 1).val < n := (j 1).isLt
  let k : (⟨1, ![n]⟩ : Shape).Idx := fun a => match a with
    | ⟨0, _⟩ => ⟨(j 1).val, hj1⟩
  rw [shapeCast_apply x h j k (by
        rw [Shape.rowMajor_val_one, Shape.rowMajor_val_two]
        show (j 1).val = (j 0).val * n + (j 1).val
        have : (j 0).val = 0 := by omega
        rw [this]; omega),
      broadcastInDim_apply _ h' x j k (fun a => match a with
        | ⟨0, _⟩ => by
          show (j 1).val = if n = 1 then 0 else (j 1).val
          by_cases h1 : n = 1
          · rw [if_pos h1]; omega
          · rw [if_neg h1])]

end Layout

variable (m : (ℓ : Loc nD τ sig) → Buf (Elt Ideal) ℓ) (ρ : Dev nD → PrngReg) (c : Dev nD)

/-! ## What each stretch of host operations leaves alone

A stretch rewrites the buffers its operations produce and no other: for each stretch, the references it writes,
and the boundary contents after it, read at any other reference, as the contents before it. -/

/-- The references `hostOps0` writes. -/
abbrev wr_0 : List (Ref sig .tc) := [main_cst, main_v0, main_cst_0, main_v1, main_v2, main_v3, main_cst_1]
theorem wr_0_sub : (hostOps0 : List (HloOp τ sig (Elt Ideal))).Forall fun op => op.writes ⊆ ((wr_0).map (Proc.devRef (τ := τ) .tc)).toFinset := by
  simp only [hostOps0, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W1_of (r : Ref sig .tc) (h : r ∉ wr_0) : W1 m ρ c (Proc.devRef .tc r) = W0 m ρ c (Proc.devRef .tc r) :=
  StableHlo.after_of_writes_sub hostOps0 _ wr_0_sub h

/-- The references `hostOps0_1` writes. -/
abbrev wr_0_1 : List (Ref sig .tc) := [main_call0_v0, main_call0_v1, main_v4]
theorem wr_0_1_sub : (hostOps0_1 : List (HloOp τ sig (Elt Ideal))).Forall fun op => op.writes ⊆ ((wr_0_1).map (Proc.devRef (τ := τ) .tc)).toFinset := by
  simp only [hostOps0_1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W2_of (r : Ref sig .tc) (h : r ∉ wr_0_1) : W2 m ρ c (Proc.devRef .tc r) = W1 m ρ c (Proc.devRef .tc r) :=
  StableHlo.after_of_writes_sub hostOps0_1 _ wr_0_1_sub h

/-- The references `hostOps0_2` writes. -/
abbrev wr_0_2 : List (Ref sig .tc) := [main_cst_2, main_v5, main_v6, main_v7, main_cst_3, main_v8, main_cst_4, main_v9, main_v10, main_v11, main_cst_5]
theorem wr_0_2_sub : (hostOps0_2 : List (HloOp τ sig (Elt Ideal))).Forall fun op => op.writes ⊆ ((wr_0_2).map (Proc.devRef (τ := τ) .tc)).toFinset := by
  simp only [hostOps0_2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W3_of (r : Ref sig .tc) (h : r ∉ wr_0_2) : W3 m ρ c (Proc.devRef .tc r) = W2 m ρ c (Proc.devRef .tc r) :=
  StableHlo.after_of_writes_sub hostOps0_2 _ wr_0_2_sub h

/-- The references `hostOps0_3` writes. -/
abbrev wr_0_3 : List (Ref sig .tc) := [main_call1_v0, main_call1_v1, main_v12]
theorem wr_0_3_sub : (hostOps0_3 : List (HloOp τ sig (Elt Ideal))).Forall fun op => op.writes ⊆ ((wr_0_3).map (Proc.devRef (τ := τ) .tc)).toFinset := by
  simp only [hostOps0_3, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W4_of (r : Ref sig .tc) (h : r ∉ wr_0_3) : W4 m ρ c (Proc.devRef .tc r) = W3 m ρ c (Proc.devRef .tc r) :=
  StableHlo.after_of_writes_sub hostOps0_3 _ wr_0_3_sub h

/-- The references `hostOps0_4` writes. -/
abbrev wr_0_4 : List (Ref sig .tc) := [main_cst_6, main_v13, main_v14, main_v15, main_cst_7, main_v16, main_cst_8, main_v17, main_v18, main_v19, main_cst_9]
theorem wr_0_4_sub : (hostOps0_4 : List (HloOp τ sig (Elt Ideal))).Forall fun op => op.writes ⊆ ((wr_0_4).map (Proc.devRef (τ := τ) .tc)).toFinset := by
  simp only [hostOps0_4, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W5_of (r : Ref sig .tc) (h : r ∉ wr_0_4) : W5 m ρ c (Proc.devRef .tc r) = W4 m ρ c (Proc.devRef .tc r) :=
  StableHlo.after_of_writes_sub hostOps0_4 _ wr_0_4_sub h

/-- The references `hostOps0_5` writes. -/
abbrev wr_0_5 : List (Ref sig .tc) := [main_call2_v0, main_call2_v1, main_v20]
theorem wr_0_5_sub : (hostOps0_5 : List (HloOp τ sig (Elt Ideal))).Forall fun op => op.writes ⊆ ((wr_0_5).map (Proc.devRef (τ := τ) .tc)).toFinset := by
  simp only [hostOps0_5, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W6_of (r : Ref sig .tc) (h : r ∉ wr_0_5) : W6 m ρ c (Proc.devRef .tc r) = W5 m ρ c (Proc.devRef .tc r) :=
  StableHlo.after_of_writes_sub hostOps0_5 _ wr_0_5_sub h

/-- The references `hostOps0_6` writes. -/
abbrev wr_0_6 : List (Ref sig .tc) := [main_cst_10, main_v21, main_v22, main_v23, main_cst_11, main_v24, main_cst_12, main_v25, main_v26, main_v27, main_cst_13]
theorem wr_0_6_sub : (hostOps0_6 : List (HloOp τ sig (Elt Ideal))).Forall fun op => op.writes ⊆ ((wr_0_6).map (Proc.devRef (τ := τ) .tc)).toFinset := by
  simp only [hostOps0_6, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W7_of (r : Ref sig .tc) (h : r ∉ wr_0_6) : W7 m ρ c (Proc.devRef .tc r) = W6 m ρ c (Proc.devRef .tc r) :=
  StableHlo.after_of_writes_sub hostOps0_6 _ wr_0_6_sub h

/-- The references `hostOps0_7` writes. -/
abbrev wr_0_7 : List (Ref sig .tc) := [main_call3_v0, main_call3_v1, main_v28]
theorem wr_0_7_sub : (hostOps0_7 : List (HloOp τ sig (Elt Ideal))).Forall fun op => op.writes ⊆ ((wr_0_7).map (Proc.devRef (τ := τ) .tc)).toFinset := by
  simp only [hostOps0_7, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W8_of (r : Ref sig .tc) (h : r ∉ wr_0_7) : W8 m ρ c (Proc.devRef .tc r) = W7 m ρ c (Proc.devRef .tc r) :=
  StableHlo.after_of_writes_sub hostOps0_7 _ wr_0_7_sub h

/-- The references `hostOps0_8` writes. -/
abbrev wr_0_8 : List (Ref sig .tc) := [main_cst_14, main_v29, main_v30, main_v31, main_cst_15, main_v32, main_cst_16, main_v33, main_v34, main_v35, main_cst_17]
theorem wr_0_8_sub : (hostOps0_8 : List (HloOp τ sig (Elt Ideal))).Forall fun op => op.writes ⊆ ((wr_0_8).map (Proc.devRef (τ := τ) .tc)).toFinset := by
  simp only [hostOps0_8, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W9_of (r : Ref sig .tc) (h : r ∉ wr_0_8) : W9 m ρ c (Proc.devRef .tc r) = W8 m ρ c (Proc.devRef .tc r) :=
  StableHlo.after_of_writes_sub hostOps0_8 _ wr_0_8_sub h

/-- The references `hostOps0_9` writes. -/
abbrev wr_0_9 : List (Ref sig .tc) := [main_call4_v0, main_call4_v1, main_v36]
theorem wr_0_9_sub : (hostOps0_9 : List (HloOp τ sig (Elt Ideal))).Forall fun op => op.writes ⊆ ((wr_0_9).map (Proc.devRef (τ := τ) .tc)).toFinset := by
  simp only [hostOps0_9, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W10_of (r : Ref sig .tc) (h : r ∉ wr_0_9) : W10 m ρ c (Proc.devRef .tc r) = W9 m ρ c (Proc.devRef .tc r) :=
  StableHlo.after_of_writes_sub hostOps0_9 _ wr_0_9_sub h

/-- The references `hostOps0_10` writes. -/
abbrev wr_0_10 : List (Ref sig .tc) := [main_cst_18, main_v37, main_v38, main_v39, main_cst_19, main_v40, main_cst_20, main_v41, main_v42, main_v43, main_cst_21]
theorem wr_0_10_sub : (hostOps0_10 : List (HloOp τ sig (Elt Ideal))).Forall fun op => op.writes ⊆ ((wr_0_10).map (Proc.devRef (τ := τ) .tc)).toFinset := by
  simp only [hostOps0_10, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W11_of (r : Ref sig .tc) (h : r ∉ wr_0_10) : W11 m ρ c (Proc.devRef .tc r) = W10 m ρ c (Proc.devRef .tc r) :=
  StableHlo.after_of_writes_sub hostOps0_10 _ wr_0_10_sub h

/-- The references `hostOps0_11` writes. -/
abbrev wr_0_11 : List (Ref sig .tc) := [main_call5_v0, main_call5_v1, main_v44]
theorem wr_0_11_sub : (hostOps0_11 : List (HloOp τ sig (Elt Ideal))).Forall fun op => op.writes ⊆ ((wr_0_11).map (Proc.devRef (τ := τ) .tc)).toFinset := by
  simp only [hostOps0_11, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W12_of (r : Ref sig .tc) (h : r ∉ wr_0_11) : W12 m ρ c (Proc.devRef .tc r) = W11 m ρ c (Proc.devRef .tc r) :=
  StableHlo.after_of_writes_sub hostOps0_11 _ wr_0_11_sub h

/-- The references `hostOps0_12` writes. -/
abbrev wr_0_12 : List (Ref sig .tc) := [main_cst_22, main_v45, main_v46, main_v47, main_v48, main_v49, main_v50, main_c, main_v51, main_v52, main_c_23, main_v53, main_v54, main_v55, main_v56, main_v57, main_v58, main_cst_24, main_v59, main_v60, main_v61, main_v62, main_v63, main_v64, main_c_25, main_v65, main_v66, main_c_26, main_v67, main_v68, main_v69, main_v70, main_v71, main_v72, main_cst_27, main_v73, main_v74, main_v75, main_v76, main_v77, main_v78, main_c_28, main_v79, main_v80, main_c_29, main_v81, main_v82, main_v83, main_v84, main_v85, main_v86, main_cst_30, main_v87, main_v88, main_v89, main_v90, main_v91, main_v92]
theorem wr_0_12_sub : (hostOps0_12 : List (HloOp τ sig (Elt Ideal))).Forall fun op => op.writes ⊆ ((wr_0_12).map (Proc.devRef (τ := τ) .tc)).toFinset := by
  simp only [hostOps0_12, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W13_of (r : Ref sig .tc) (h : r ∉ wr_0_12) : W13 m ρ c (Proc.devRef .tc r) = W12 m ρ c (Proc.devRef .tc r) :=
  StableHlo.after_of_writes_sub hostOps0_12 _ wr_0_12_sub h

/-- The references `hostOps1` writes. -/
abbrev wr_1 : List (Ref sig .tc) := [main_c_31, main_v94, main_v95, main_c_32, main_v96, main_v97, main_v98, main_v99, main_v100, main_v101, main_cst_33, main_v102, main_v103, main_v104, main_c_34, main_v105, main_v106, main_c_35, main_v107, main_v108, main_v109, main_v110, main_v111, main_v112, main_cst_36, main_v113, main_v114, main_v115, main_v116, main_v117]
theorem wr_1_sub : (hostOps1 : List (HloOp τ sig (Elt Ideal))).Forall fun op => op.writes ⊆ ((wr_1).map (Proc.devRef (τ := τ) .tc)).toFinset := by
  simp only [hostOps1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W15_of (r : Ref sig .tc) (h : r ∉ wr_1) : W15 m ρ c (Proc.devRef .tc r) = W14 m ρ c (Proc.devRef .tc r) :=
  StableHlo.after_of_writes_sub hostOps1 _ wr_1_sub h

/-- The references `hostOps2` writes. -/
abbrev wr_2 : List (Ref sig .tc) := [main_cst_37, main_v119, main_v120, main_v121, main_cst_38, main_v122, main_cst_39, main_v123, main_v124, main_v125, main_cst_40]
theorem wr_2_sub : (hostOps2 : List (HloOp τ sig (Elt Ideal))).Forall fun op => op.writes ⊆ ((wr_2).map (Proc.devRef (τ := τ) .tc)).toFinset := by
  simp only [hostOps2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W17_of (r : Ref sig .tc) (h : r ∉ wr_2) : W17 m ρ c (Proc.devRef .tc r) = W16 m ρ c (Proc.devRef .tc r) :=
  StableHlo.after_of_writes_sub hostOps2 _ wr_2_sub h

/-- The references `hostOps2_1` writes. -/
abbrev wr_2_1 : List (Ref sig .tc) := [main_call6_v0, main_call6_v1, main_v126]
theorem wr_2_1_sub : (hostOps2_1 : List (HloOp τ sig (Elt Ideal))).Forall fun op => op.writes ⊆ ((wr_2_1).map (Proc.devRef (τ := τ) .tc)).toFinset := by
  simp only [hostOps2_1, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W18_of (r : Ref sig .tc) (h : r ∉ wr_2_1) : W18 m ρ c (Proc.devRef .tc r) = W17 m ρ c (Proc.devRef .tc r) :=
  StableHlo.after_of_writes_sub hostOps2_1 _ wr_2_1_sub h

/-- The references `hostOps2_2` writes. -/
abbrev wr_2_2 : List (Ref sig .tc) := [main_v127, main_v128, main_v129, main_v130, main_v131]
theorem wr_2_2_sub : (hostOps2_2 : List (HloOp τ sig (Elt Ideal))).Forall fun op => op.writes ⊆ ((wr_2_2).map (Proc.devRef (τ := τ) .tc)).toFinset := by
  simp only [hostOps2_2, List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
theorem W19_of (r : Ref sig .tc) (h : r ∉ wr_2_2) : W19 m ρ c (Proc.devRef .tc r) = W18 m ρ c (Proc.devRef .tc r) :=
  StableHlo.after_of_writes_sub hostOps2_2 _ wr_2_2_sub h

/-! ## The arguments are never written

No host operation and no region writes an argument of the program: at every boundary an argument's buffer holds
the launch contents. -/
theorem W0_arg2 : W0 m ρ c (Proc.devRef .tc main_arg2) = (m ((c.tc : Thread nD τ).loc main_arg2)) :=
  rfl
theorem W2_arg3 : W2 m ρ c (Proc.devRef .tc main_arg3) = (m ((c.tc : Thread nD τ).loc main_arg3)) :=
  (((W2_of m ρ c main_arg3 (by decide)).trans (W1_of m ρ c main_arg3 (by decide)))).trans rfl
theorem W4_arg4 : W4 m ρ c (Proc.devRef .tc main_arg4) = (m ((c.tc : Thread nD τ).loc main_arg4)) :=
  (((W4_of m ρ c main_arg4 (by decide)).trans ((W3_of m ρ c main_arg4 (by decide)).trans ((W2_of m ρ c main_arg4 (by decide)).trans (W1_of m ρ c main_arg4 (by decide)))))).trans rfl
theorem W6_arg5 : W6 m ρ c (Proc.devRef .tc main_arg5) = (m ((c.tc : Thread nD τ).loc main_arg5)) :=
  (((W6_of m ρ c main_arg5 (by decide)).trans ((W5_of m ρ c main_arg5 (by decide)).trans ((W4_of m ρ c main_arg5 (by decide)).trans ((W3_of m ρ c main_arg5 (by decide)).trans ((W2_of m ρ c main_arg5 (by decide)).trans (W1_of m ρ c main_arg5 (by decide)))))))).trans rfl
theorem W8_arg6 : W8 m ρ c (Proc.devRef .tc main_arg6) = (m ((c.tc : Thread nD τ).loc main_arg6)) :=
  (((W8_of m ρ c main_arg6 (by decide)).trans ((W7_of m ρ c main_arg6 (by decide)).trans ((W6_of m ρ c main_arg6 (by decide)).trans ((W5_of m ρ c main_arg6 (by decide)).trans ((W4_of m ρ c main_arg6 (by decide)).trans ((W3_of m ρ c main_arg6 (by decide)).trans ((W2_of m ρ c main_arg6 (by decide)).trans (W1_of m ρ c main_arg6 (by decide)))))))))).trans rfl
theorem W10_arg7 : W10 m ρ c (Proc.devRef .tc main_arg7) = (m ((c.tc : Thread nD τ).loc main_arg7)) :=
  (((W10_of m ρ c main_arg7 (by decide)).trans ((W9_of m ρ c main_arg7 (by decide)).trans ((W8_of m ρ c main_arg7 (by decide)).trans ((W7_of m ρ c main_arg7 (by decide)).trans ((W6_of m ρ c main_arg7 (by decide)).trans ((W5_of m ρ c main_arg7 (by decide)).trans ((W4_of m ρ c main_arg7 (by decide)).trans ((W3_of m ρ c main_arg7 (by decide)).trans ((W2_of m ρ c main_arg7 (by decide)).trans (W1_of m ρ c main_arg7 (by decide)))))))))))).trans rfl
theorem W12_arg0 : W12 m ρ c (Proc.devRef .tc main_arg0) = (m ((c.tc : Thread nD τ).loc main_arg0)) :=
  (((W12_of m ρ c main_arg0 (by decide)).trans ((W11_of m ρ c main_arg0 (by decide)).trans ((W10_of m ρ c main_arg0 (by decide)).trans ((W9_of m ρ c main_arg0 (by decide)).trans ((W8_of m ρ c main_arg0 (by decide)).trans ((W7_of m ρ c main_arg0 (by decide)).trans ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide)))))))))))))).trans rfl
theorem W12_arg2 : W12 m ρ c (Proc.devRef .tc main_arg2) = (m ((c.tc : Thread nD τ).loc main_arg2)) :=
  (((W12_of m ρ c main_arg2 (by decide)).trans ((W11_of m ρ c main_arg2 (by decide)).trans ((W10_of m ρ c main_arg2 (by decide)).trans ((W9_of m ρ c main_arg2 (by decide)).trans ((W8_of m ρ c main_arg2 (by decide)).trans ((W7_of m ρ c main_arg2 (by decide)).trans ((W6_of m ρ c main_arg2 (by decide)).trans ((W5_of m ρ c main_arg2 (by decide)).trans ((W4_of m ρ c main_arg2 (by decide)).trans ((W3_of m ρ c main_arg2 (by decide)).trans ((W2_of m ρ c main_arg2 (by decide)).trans (W1_of m ρ c main_arg2 (by decide)))))))))))))).trans rfl
theorem W12_arg3 : W12 m ρ c (Proc.devRef .tc main_arg3) = (m ((c.tc : Thread nD τ).loc main_arg3)) :=
  (((W12_of m ρ c main_arg3 (by decide)).trans ((W11_of m ρ c main_arg3 (by decide)).trans ((W10_of m ρ c main_arg3 (by decide)).trans ((W9_of m ρ c main_arg3 (by decide)).trans ((W8_of m ρ c main_arg3 (by decide)).trans ((W7_of m ρ c main_arg3 (by decide)).trans ((W6_of m ρ c main_arg3 (by decide)).trans ((W5_of m ρ c main_arg3 (by decide)).trans ((W4_of m ρ c main_arg3 (by decide)).trans ((W3_of m ρ c main_arg3 (by decide)).trans ((W2_of m ρ c main_arg3 (by decide)).trans (W1_of m ρ c main_arg3 (by decide)))))))))))))).trans rfl
theorem W12_arg1 : W12 m ρ c (Proc.devRef .tc main_arg1) = (m ((c.tc : Thread nD τ).loc main_arg1)) :=
  (((W12_of m ρ c main_arg1 (by decide)).trans ((W11_of m ρ c main_arg1 (by decide)).trans ((W10_of m ρ c main_arg1 (by decide)).trans ((W9_of m ρ c main_arg1 (by decide)).trans ((W8_of m ρ c main_arg1 (by decide)).trans ((W7_of m ρ c main_arg1 (by decide)).trans ((W6_of m ρ c main_arg1 (by decide)).trans ((W5_of m ρ c main_arg1 (by decide)).trans ((W4_of m ρ c main_arg1 (by decide)).trans ((W3_of m ρ c main_arg1 (by decide)).trans ((W2_of m ρ c main_arg1 (by decide)).trans (W1_of m ρ c main_arg1 (by decide)))))))))))))).trans rfl
theorem W12_arg4 : W12 m ρ c (Proc.devRef .tc main_arg4) = (m ((c.tc : Thread nD τ).loc main_arg4)) :=
  (((W12_of m ρ c main_arg4 (by decide)).trans ((W11_of m ρ c main_arg4 (by decide)).trans ((W10_of m ρ c main_arg4 (by decide)).trans ((W9_of m ρ c main_arg4 (by decide)).trans ((W8_of m ρ c main_arg4 (by decide)).trans ((W7_of m ρ c main_arg4 (by decide)).trans ((W6_of m ρ c main_arg4 (by decide)).trans ((W5_of m ρ c main_arg4 (by decide)).trans ((W4_of m ρ c main_arg4 (by decide)).trans ((W3_of m ρ c main_arg4 (by decide)).trans ((W2_of m ρ c main_arg4 (by decide)).trans (W1_of m ρ c main_arg4 (by decide)))))))))))))).trans rfl
theorem W12_arg5 : W12 m ρ c (Proc.devRef .tc main_arg5) = (m ((c.tc : Thread nD τ).loc main_arg5)) :=
  (((W12_of m ρ c main_arg5 (by decide)).trans ((W11_of m ρ c main_arg5 (by decide)).trans ((W10_of m ρ c main_arg5 (by decide)).trans ((W9_of m ρ c main_arg5 (by decide)).trans ((W8_of m ρ c main_arg5 (by decide)).trans ((W7_of m ρ c main_arg5 (by decide)).trans ((W6_of m ρ c main_arg5 (by decide)).trans ((W5_of m ρ c main_arg5 (by decide)).trans ((W4_of m ρ c main_arg5 (by decide)).trans ((W3_of m ρ c main_arg5 (by decide)).trans ((W2_of m ρ c main_arg5 (by decide)).trans (W1_of m ρ c main_arg5 (by decide)))))))))))))).trans rfl
theorem W12_arg6 : W12 m ρ c (Proc.devRef .tc main_arg6) = (m ((c.tc : Thread nD τ).loc main_arg6)) :=
  (((W12_of m ρ c main_arg6 (by decide)).trans ((W11_of m ρ c main_arg6 (by decide)).trans ((W10_of m ρ c main_arg6 (by decide)).trans ((W9_of m ρ c main_arg6 (by decide)).trans ((W8_of m ρ c main_arg6 (by decide)).trans ((W7_of m ρ c main_arg6 (by decide)).trans ((W6_of m ρ c main_arg6 (by decide)).trans ((W5_of m ρ c main_arg6 (by decide)).trans ((W4_of m ρ c main_arg6 (by decide)).trans ((W3_of m ρ c main_arg6 (by decide)).trans ((W2_of m ρ c main_arg6 (by decide)).trans (W1_of m ρ c main_arg6 (by decide)))))))))))))).trans rfl
theorem W12_arg7 : W12 m ρ c (Proc.devRef .tc main_arg7) = (m ((c.tc : Thread nD τ).loc main_arg7)) :=
  (((W12_of m ρ c main_arg7 (by decide)).trans ((W11_of m ρ c main_arg7 (by decide)).trans ((W10_of m ρ c main_arg7 (by decide)).trans ((W9_of m ρ c main_arg7 (by decide)).trans ((W8_of m ρ c main_arg7 (by decide)).trans ((W7_of m ρ c main_arg7 (by decide)).trans ((W6_of m ρ c main_arg7 (by decide)).trans ((W5_of m ρ c main_arg7 (by decide)).trans ((W4_of m ρ c main_arg7 (by decide)).trans ((W3_of m ρ c main_arg7 (by decide)).trans ((W2_of m ρ c main_arg7 (by decide)).trans (W1_of m ρ c main_arg7 (by decide)))))))))))))).trans rfl
theorem W13_arg9 : W13 m ρ c (Proc.devRef .tc main_arg9) = (m ((c.tc : Thread nD τ).loc main_arg9)) :=
  (((W13_of m ρ c main_arg9 (by decide)).trans ((W12_of m ρ c main_arg9 (by decide)).trans ((W11_of m ρ c main_arg9 (by decide)).trans ((W10_of m ρ c main_arg9 (by decide)).trans ((W9_of m ρ c main_arg9 (by decide)).trans ((W8_of m ρ c main_arg9 (by decide)).trans ((W7_of m ρ c main_arg9 (by decide)).trans ((W6_of m ρ c main_arg9 (by decide)).trans ((W5_of m ρ c main_arg9 (by decide)).trans ((W4_of m ρ c main_arg9 (by decide)).trans ((W3_of m ρ c main_arg9 (by decide)).trans ((W2_of m ρ c main_arg9 (by decide)).trans (W1_of m ρ c main_arg9 (by decide))))))))))))))).trans rfl
theorem W13_arg11 : W13 m ρ c (Proc.devRef .tc main_arg11) = (m ((c.tc : Thread nD τ).loc main_arg11)) :=
  (((W13_of m ρ c main_arg11 (by decide)).trans ((W12_of m ρ c main_arg11 (by decide)).trans ((W11_of m ρ c main_arg11 (by decide)).trans ((W10_of m ρ c main_arg11 (by decide)).trans ((W9_of m ρ c main_arg11 (by decide)).trans ((W8_of m ρ c main_arg11 (by decide)).trans ((W7_of m ρ c main_arg11 (by decide)).trans ((W6_of m ρ c main_arg11 (by decide)).trans ((W5_of m ρ c main_arg11 (by decide)).trans ((W4_of m ρ c main_arg11 (by decide)).trans ((W3_of m ρ c main_arg11 (by decide)).trans ((W2_of m ρ c main_arg11 (by decide)).trans (W1_of m ρ c main_arg11 (by decide))))))))))))))).trans rfl
theorem W13_arg13 : W13 m ρ c (Proc.devRef .tc main_arg13) = (m ((c.tc : Thread nD τ).loc main_arg13)) :=
  (((W13_of m ρ c main_arg13 (by decide)).trans ((W12_of m ρ c main_arg13 (by decide)).trans ((W11_of m ρ c main_arg13 (by decide)).trans ((W10_of m ρ c main_arg13 (by decide)).trans ((W9_of m ρ c main_arg13 (by decide)).trans ((W8_of m ρ c main_arg13 (by decide)).trans ((W7_of m ρ c main_arg13 (by decide)).trans ((W6_of m ρ c main_arg13 (by decide)).trans ((W5_of m ρ c main_arg13 (by decide)).trans ((W4_of m ρ c main_arg13 (by decide)).trans ((W3_of m ρ c main_arg13 (by decide)).trans ((W2_of m ρ c main_arg13 (by decide)).trans (W1_of m ρ c main_arg13 (by decide))))))))))))))).trans rfl
theorem W12_arg10 : W12 m ρ c (Proc.devRef .tc main_arg10) = (m ((c.tc : Thread nD τ).loc main_arg10)) :=
  (((W12_of m ρ c main_arg10 (by decide)).trans ((W11_of m ρ c main_arg10 (by decide)).trans ((W10_of m ρ c main_arg10 (by decide)).trans ((W9_of m ρ c main_arg10 (by decide)).trans ((W8_of m ρ c main_arg10 (by decide)).trans ((W7_of m ρ c main_arg10 (by decide)).trans ((W6_of m ρ c main_arg10 (by decide)).trans ((W5_of m ρ c main_arg10 (by decide)).trans ((W4_of m ρ c main_arg10 (by decide)).trans ((W3_of m ρ c main_arg10 (by decide)).trans ((W2_of m ρ c main_arg10 (by decide)).trans (W1_of m ρ c main_arg10 (by decide)))))))))))))).trans rfl
theorem W12_arg12 : W12 m ρ c (Proc.devRef .tc main_arg12) = (m ((c.tc : Thread nD τ).loc main_arg12)) :=
  (((W12_of m ρ c main_arg12 (by decide)).trans ((W11_of m ρ c main_arg12 (by decide)).trans ((W10_of m ρ c main_arg12 (by decide)).trans ((W9_of m ρ c main_arg12 (by decide)).trans ((W8_of m ρ c main_arg12 (by decide)).trans ((W7_of m ρ c main_arg12 (by decide)).trans ((W6_of m ρ c main_arg12 (by decide)).trans ((W5_of m ρ c main_arg12 (by decide)).trans ((W4_of m ρ c main_arg12 (by decide)).trans ((W3_of m ρ c main_arg12 (by decide)).trans ((W2_of m ρ c main_arg12 (by decide)).trans (W1_of m ρ c main_arg12 (by decide)))))))))))))).trans rfl
theorem W12_arg14 : W12 m ρ c (Proc.devRef .tc main_arg14) = (m ((c.tc : Thread nD τ).loc main_arg14)) :=
  (((W12_of m ρ c main_arg14 (by decide)).trans ((W11_of m ρ c main_arg14 (by decide)).trans ((W10_of m ρ c main_arg14 (by decide)).trans ((W9_of m ρ c main_arg14 (by decide)).trans ((W8_of m ρ c main_arg14 (by decide)).trans ((W7_of m ρ c main_arg14 (by decide)).trans ((W6_of m ρ c main_arg14 (by decide)).trans ((W5_of m ρ c main_arg14 (by decide)).trans ((W4_of m ρ c main_arg14 (by decide)).trans ((W3_of m ρ c main_arg14 (by decide)).trans ((W2_of m ρ c main_arg14 (by decide)).trans (W1_of m ρ c main_arg14 (by decide)))))))))))))).trans rfl
theorem W14_arg2 : W14 m ρ c (Proc.devRef .tc main_arg2) = (m ((c.tc : Thread nD τ).loc main_arg2)) :=
  (((W14_of_ne m ρ c main_arg2 (by decide)).trans ((W13_of m ρ c main_arg2 (by decide)).trans ((W12_of m ρ c main_arg2 (by decide)).trans ((W11_of m ρ c main_arg2 (by decide)).trans ((W10_of m ρ c main_arg2 (by decide)).trans ((W9_of m ρ c main_arg2 (by decide)).trans ((W8_of m ρ c main_arg2 (by decide)).trans ((W7_of m ρ c main_arg2 (by decide)).trans ((W6_of m ρ c main_arg2 (by decide)).trans ((W5_of m ρ c main_arg2 (by decide)).trans ((W4_of m ρ c main_arg2 (by decide)).trans ((W3_of m ρ c main_arg2 (by decide)).trans ((W2_of m ρ c main_arg2 (by decide)).trans (W1_of m ρ c main_arg2 (by decide)))))))))))))))).trans rfl
theorem W14_arg3 : W14 m ρ c (Proc.devRef .tc main_arg3) = (m ((c.tc : Thread nD τ).loc main_arg3)) :=
  (((W14_of_ne m ρ c main_arg3 (by decide)).trans ((W13_of m ρ c main_arg3 (by decide)).trans ((W12_of m ρ c main_arg3 (by decide)).trans ((W11_of m ρ c main_arg3 (by decide)).trans ((W10_of m ρ c main_arg3 (by decide)).trans ((W9_of m ρ c main_arg3 (by decide)).trans ((W8_of m ρ c main_arg3 (by decide)).trans ((W7_of m ρ c main_arg3 (by decide)).trans ((W6_of m ρ c main_arg3 (by decide)).trans ((W5_of m ρ c main_arg3 (by decide)).trans ((W4_of m ρ c main_arg3 (by decide)).trans ((W3_of m ρ c main_arg3 (by decide)).trans ((W2_of m ρ c main_arg3 (by decide)).trans (W1_of m ρ c main_arg3 (by decide)))))))))))))))).trans rfl
theorem W14_arg4 : W14 m ρ c (Proc.devRef .tc main_arg4) = (m ((c.tc : Thread nD τ).loc main_arg4)) :=
  (((W14_of_ne m ρ c main_arg4 (by decide)).trans ((W13_of m ρ c main_arg4 (by decide)).trans ((W12_of m ρ c main_arg4 (by decide)).trans ((W11_of m ρ c main_arg4 (by decide)).trans ((W10_of m ρ c main_arg4 (by decide)).trans ((W9_of m ρ c main_arg4 (by decide)).trans ((W8_of m ρ c main_arg4 (by decide)).trans ((W7_of m ρ c main_arg4 (by decide)).trans ((W6_of m ρ c main_arg4 (by decide)).trans ((W5_of m ρ c main_arg4 (by decide)).trans ((W4_of m ρ c main_arg4 (by decide)).trans ((W3_of m ρ c main_arg4 (by decide)).trans ((W2_of m ρ c main_arg4 (by decide)).trans (W1_of m ρ c main_arg4 (by decide)))))))))))))))).trans rfl
theorem W14_arg5 : W14 m ρ c (Proc.devRef .tc main_arg5) = (m ((c.tc : Thread nD τ).loc main_arg5)) :=
  (((W14_of_ne m ρ c main_arg5 (by decide)).trans ((W13_of m ρ c main_arg5 (by decide)).trans ((W12_of m ρ c main_arg5 (by decide)).trans ((W11_of m ρ c main_arg5 (by decide)).trans ((W10_of m ρ c main_arg5 (by decide)).trans ((W9_of m ρ c main_arg5 (by decide)).trans ((W8_of m ρ c main_arg5 (by decide)).trans ((W7_of m ρ c main_arg5 (by decide)).trans ((W6_of m ρ c main_arg5 (by decide)).trans ((W5_of m ρ c main_arg5 (by decide)).trans ((W4_of m ρ c main_arg5 (by decide)).trans ((W3_of m ρ c main_arg5 (by decide)).trans ((W2_of m ρ c main_arg5 (by decide)).trans (W1_of m ρ c main_arg5 (by decide)))))))))))))))).trans rfl
theorem W15_arg15 : W15 m ρ c (Proc.devRef .tc main_arg15) = (m ((c.tc : Thread nD τ).loc main_arg15)) :=
  (((W15_of m ρ c main_arg15 (by decide)).trans ((W14_of_ne m ρ c main_arg15 (by decide)).trans ((W13_of m ρ c main_arg15 (by decide)).trans ((W12_of m ρ c main_arg15 (by decide)).trans ((W11_of m ρ c main_arg15 (by decide)).trans ((W10_of m ρ c main_arg15 (by decide)).trans ((W9_of m ρ c main_arg15 (by decide)).trans ((W8_of m ρ c main_arg15 (by decide)).trans ((W7_of m ρ c main_arg15 (by decide)).trans ((W6_of m ρ c main_arg15 (by decide)).trans ((W5_of m ρ c main_arg15 (by decide)).trans ((W4_of m ρ c main_arg15 (by decide)).trans ((W3_of m ρ c main_arg15 (by decide)).trans ((W2_of m ρ c main_arg15 (by decide)).trans (W1_of m ρ c main_arg15 (by decide))))))))))))))))).trans rfl
theorem W15_arg17 : W15 m ρ c (Proc.devRef .tc main_arg17) = (m ((c.tc : Thread nD τ).loc main_arg17)) :=
  (((W15_of m ρ c main_arg17 (by decide)).trans ((W14_of_ne m ρ c main_arg17 (by decide)).trans ((W13_of m ρ c main_arg17 (by decide)).trans ((W12_of m ρ c main_arg17 (by decide)).trans ((W11_of m ρ c main_arg17 (by decide)).trans ((W10_of m ρ c main_arg17 (by decide)).trans ((W9_of m ρ c main_arg17 (by decide)).trans ((W8_of m ρ c main_arg17 (by decide)).trans ((W7_of m ρ c main_arg17 (by decide)).trans ((W6_of m ρ c main_arg17 (by decide)).trans ((W5_of m ρ c main_arg17 (by decide)).trans ((W4_of m ρ c main_arg17 (by decide)).trans ((W3_of m ρ c main_arg17 (by decide)).trans ((W2_of m ρ c main_arg17 (by decide)).trans (W1_of m ρ c main_arg17 (by decide))))))))))))))))).trans rfl
theorem W14_arg16 : W14 m ρ c (Proc.devRef .tc main_arg16) = (m ((c.tc : Thread nD τ).loc main_arg16)) :=
  (((W14_of_ne m ρ c main_arg16 (by decide)).trans ((W13_of m ρ c main_arg16 (by decide)).trans ((W12_of m ρ c main_arg16 (by decide)).trans ((W11_of m ρ c main_arg16 (by decide)).trans ((W10_of m ρ c main_arg16 (by decide)).trans ((W9_of m ρ c main_arg16 (by decide)).trans ((W8_of m ρ c main_arg16 (by decide)).trans ((W7_of m ρ c main_arg16 (by decide)).trans ((W6_of m ρ c main_arg16 (by decide)).trans ((W5_of m ρ c main_arg16 (by decide)).trans ((W4_of m ρ c main_arg16 (by decide)).trans ((W3_of m ρ c main_arg16 (by decide)).trans ((W2_of m ρ c main_arg16 (by decide)).trans (W1_of m ρ c main_arg16 (by decide)))))))))))))))).trans rfl
theorem W14_arg18 : W14 m ρ c (Proc.devRef .tc main_arg18) = (m ((c.tc : Thread nD τ).loc main_arg18)) :=
  (((W14_of_ne m ρ c main_arg18 (by decide)).trans ((W13_of m ρ c main_arg18 (by decide)).trans ((W12_of m ρ c main_arg18 (by decide)).trans ((W11_of m ρ c main_arg18 (by decide)).trans ((W10_of m ρ c main_arg18 (by decide)).trans ((W9_of m ρ c main_arg18 (by decide)).trans ((W8_of m ρ c main_arg18 (by decide)).trans ((W7_of m ρ c main_arg18 (by decide)).trans ((W6_of m ρ c main_arg18 (by decide)).trans ((W5_of m ρ c main_arg18 (by decide)).trans ((W4_of m ρ c main_arg18 (by decide)).trans ((W3_of m ρ c main_arg18 (by decide)).trans ((W2_of m ρ c main_arg18 (by decide)).trans (W1_of m ρ c main_arg18 (by decide)))))))))))))))).trans rfl
theorem W16_arg8 : W16 m ρ c (Proc.devRef .tc main_arg8) = (m ((c.tc : Thread nD τ).loc main_arg8)) :=
  (((W16_of_ne m ρ c main_arg8 (by decide)).trans ((W15_of m ρ c main_arg8 (by decide)).trans ((W14_of_ne m ρ c main_arg8 (by decide)).trans ((W13_of m ρ c main_arg8 (by decide)).trans ((W12_of m ρ c main_arg8 (by decide)).trans ((W11_of m ρ c main_arg8 (by decide)).trans ((W10_of m ρ c main_arg8 (by decide)).trans ((W9_of m ρ c main_arg8 (by decide)).trans ((W8_of m ρ c main_arg8 (by decide)).trans ((W7_of m ρ c main_arg8 (by decide)).trans ((W6_of m ρ c main_arg8 (by decide)).trans ((W5_of m ρ c main_arg8 (by decide)).trans ((W4_of m ρ c main_arg8 (by decide)).trans ((W3_of m ρ c main_arg8 (by decide)).trans ((W2_of m ρ c main_arg8 (by decide)).trans (W1_of m ρ c main_arg8 (by decide)))))))))))))))))).trans rfl
theorem W19_arg21 : W19 m ρ c (Proc.devRef .tc main_arg21) = (m ((c.tc : Thread nD τ).loc main_arg21)) :=
  (((W19_of m ρ c main_arg21 (by decide)).trans ((W18_of m ρ c main_arg21 (by decide)).trans ((W17_of m ρ c main_arg21 (by decide)).trans ((W16_of_ne m ρ c main_arg21 (by decide)).trans ((W15_of m ρ c main_arg21 (by decide)).trans ((W14_of_ne m ρ c main_arg21 (by decide)).trans ((W13_of m ρ c main_arg21 (by decide)).trans ((W12_of m ρ c main_arg21 (by decide)).trans ((W11_of m ρ c main_arg21 (by decide)).trans ((W10_of m ρ c main_arg21 (by decide)).trans ((W9_of m ρ c main_arg21 (by decide)).trans ((W8_of m ρ c main_arg21 (by decide)).trans ((W7_of m ρ c main_arg21 (by decide)).trans ((W6_of m ρ c main_arg21 (by decide)).trans ((W5_of m ρ c main_arg21 (by decide)).trans ((W4_of m ρ c main_arg21 (by decide)).trans ((W3_of m ρ c main_arg21 (by decide)).trans ((W2_of m ρ c main_arg21 (by decide)).trans (W1_of m ρ c main_arg21 (by decide))))))))))))))))))))).trans rfl
theorem W19_arg23 : W19 m ρ c (Proc.devRef .tc main_arg23) = (m ((c.tc : Thread nD τ).loc main_arg23)) :=
  (((W19_of m ρ c main_arg23 (by decide)).trans ((W18_of m ρ c main_arg23 (by decide)).trans ((W17_of m ρ c main_arg23 (by decide)).trans ((W16_of_ne m ρ c main_arg23 (by decide)).trans ((W15_of m ρ c main_arg23 (by decide)).trans ((W14_of_ne m ρ c main_arg23 (by decide)).trans ((W13_of m ρ c main_arg23 (by decide)).trans ((W12_of m ρ c main_arg23 (by decide)).trans ((W11_of m ρ c main_arg23 (by decide)).trans ((W10_of m ρ c main_arg23 (by decide)).trans ((W9_of m ρ c main_arg23 (by decide)).trans ((W8_of m ρ c main_arg23 (by decide)).trans ((W7_of m ρ c main_arg23 (by decide)).trans ((W6_of m ρ c main_arg23 (by decide)).trans ((W5_of m ρ c main_arg23 (by decide)).trans ((W4_of m ρ c main_arg23 (by decide)).trans ((W3_of m ρ c main_arg23 (by decide)).trans ((W2_of m ρ c main_arg23 (by decide)).trans (W1_of m ρ c main_arg23 (by decide))))))))))))))))))))).trans rfl
theorem W18_arg22 : W18 m ρ c (Proc.devRef .tc main_arg22) = (m ((c.tc : Thread nD τ).loc main_arg22)) :=
  (((W18_of m ρ c main_arg22 (by decide)).trans ((W17_of m ρ c main_arg22 (by decide)).trans ((W16_of_ne m ρ c main_arg22 (by decide)).trans ((W15_of m ρ c main_arg22 (by decide)).trans ((W14_of_ne m ρ c main_arg22 (by decide)).trans ((W13_of m ρ c main_arg22 (by decide)).trans ((W12_of m ρ c main_arg22 (by decide)).trans ((W11_of m ρ c main_arg22 (by decide)).trans ((W10_of m ρ c main_arg22 (by decide)).trans ((W9_of m ρ c main_arg22 (by decide)).trans ((W8_of m ρ c main_arg22 (by decide)).trans ((W7_of m ρ c main_arg22 (by decide)).trans ((W6_of m ρ c main_arg22 (by decide)).trans ((W5_of m ρ c main_arg22 (by decide)).trans ((W4_of m ρ c main_arg22 (by decide)).trans ((W3_of m ρ c main_arg22 (by decide)).trans ((W2_of m ρ c main_arg22 (by decide)).trans (W1_of m ρ c main_arg22 (by decide)))))))))))))))))))).trans rfl
theorem W18_arg24 : W18 m ρ c (Proc.devRef .tc main_arg24) = (m ((c.tc : Thread nD τ).loc main_arg24)) :=
  (((W18_of m ρ c main_arg24 (by decide)).trans ((W17_of m ρ c main_arg24 (by decide)).trans ((W16_of_ne m ρ c main_arg24 (by decide)).trans ((W15_of m ρ c main_arg24 (by decide)).trans ((W14_of_ne m ρ c main_arg24 (by decide)).trans ((W13_of m ρ c main_arg24 (by decide)).trans ((W12_of m ρ c main_arg24 (by decide)).trans ((W11_of m ρ c main_arg24 (by decide)).trans ((W10_of m ρ c main_arg24 (by decide)).trans ((W9_of m ρ c main_arg24 (by decide)).trans ((W8_of m ρ c main_arg24 (by decide)).trans ((W7_of m ρ c main_arg24 (by decide)).trans ((W6_of m ρ c main_arg24 (by decide)).trans ((W5_of m ρ c main_arg24 (by decide)).trans ((W4_of m ρ c main_arg24 (by decide)).trans ((W3_of m ρ c main_arg24 (by decide)).trans ((W2_of m ρ c main_arg24 (by decide)).trans (W1_of m ρ c main_arg24 (by decide)))))))))))))))))))).trans rfl

/-! ## A change of float format is the identity at the exact reals -/

theorem extf_ideal {s : Shape} {φ : FTy} (ψ : FTy) (x : FVec Ideal s φ) (h : φ.bits < ψ.bits) : extf ψ x h = x := rfl
theorem truncf_ideal {s : Shape} {φ : FTy} (ψ : FTy) (x : FVec Ideal s φ) (h : ψ.bits < φ.bits) : truncf ψ x h = x := rfl

/-! ## The degree factors

For an index list `x` of edges into the nodes, the program computes, per node, the number of edges that name it,
at least one, to the power −1/2, as a one-column matrix. The kernel program spells the column by a reshape, the
reference by a broadcast along the new axis; stage by stage the two programs apply the same operation to the
same operands. -/

/-- The count of edges naming each node (`arg2`'s list). -/
theorem deg0_count : W1 m ρ c (Proc.devRef .tc main_v3) = Cert.ReferenceIdeal.ReadP.val_main_v3 (F := Ideal) (m ((c.tc : Thread nD τ).loc main_arg2)) := by
  have ea := W0_arg2 m ρ c
  dsimp only [W1]
  generalize W0 m ρ c = V at ea ⊢
  simp only [hostOps0]
  after_results_simp
  rw [ea]
  simp only [Cert.ReferenceIdeal.ReadP.val_main_v3, Cert.ReferenceIdeal.ReadP.val_main_v1, Cert.ReferenceIdeal.ReadP.val_main_v2, Cert.ReferenceIdeal.ReadP.val_main_v0, Cert.ReferenceIdeal.ReadP.val_main_cst_0, Cert.ReferenceIdeal.ReadP.val_main_cst]
  try rfl
/-- The constant one the count is clipped below by. -/
theorem deg0_one : W1 m ρ c (Proc.devRef .tc main_cst_1) = Cert.ReferenceIdeal.ReadP.val_main_cst_1 (F := Ideal) := by
  dsimp only [W1]
  generalize W0 m ρ c = V
  simp only [hostOps0]
  after_results_simp
  try rfl
/-- The count, at least one. -/
theorem deg0_clip : W2 m ρ c (Proc.devRef .tc main_v4) = Cert.ReferenceIdeal.ReadP.val_main_v4 (F := Ideal) (m ((c.tc : Thread nD τ).loc main_arg2)) := by
  have e1 := deg0_count m ρ c
  have e2 := deg0_one m ρ c
  dsimp only [W2]
  generalize W1 m ρ c = V at e1 e2 ⊢
  simp only [hostOps0_1]
  after_results_simp
  simp only [TRef.toBuf, TRef.ofBuf, cast_eq]
  rw [e1, e2]
  simp only [Cert.ReferenceIdeal.ReadP.val_main_v4, Cert.ReferenceIdeal.ReadP.val_main_call0_v1, Cert.ReferenceIdeal.ReadP.val_main_call0_v0]
  try rfl
/-- The factor: the clipped count to the power −1/2, as a column. -/
theorem deg0 : W3 m ρ c (Proc.devRef .tc main_v7) = Cert.ReferenceIdeal.ReadP.val_main_v12 (F := Ideal) (m ((c.tc : Thread nD τ).loc main_arg2)) := by
  have e := deg0_clip m ρ c
  dsimp only [W3]
  generalize W2 m ρ c = V at e ⊢
  simp only [hostOps0_2]
  after_results_simp
  rw [e]
  generalize hX : Host.powf (F := Ideal) _ _ = X
  show shapeCast (⟨2, ![50000, 1]⟩ : Shape) X shapeCasts_S50000_S50000x1 = _
  refine (shapeCast_col_eq_broadcastInDim (n := 50000) (by decide) X _ bcast_S50000_S50000x1_0).trans ?_
  subst hX
  simp only [Cert.ReferenceIdeal.ReadP.val_main_v12, Cert.ReferenceIdeal.ReadP.val_main_v11, Cert.ReferenceIdeal.ReadP.val_main_v10, Cert.ReferenceIdeal.ReadP.val_main_cst_5]
  try rfl

/-- The count of edges naming each node (`arg3`'s list). -/
theorem deg1_count : W3 m ρ c (Proc.devRef .tc main_v11) = Cert.ReferenceIdeal.ReadP.val_main_v8 (F := Ideal) (m ((c.tc : Thread nD τ).loc main_arg3)) := by
  have ea := W2_arg3 m ρ c
  dsimp only [W3]
  generalize W2 m ρ c = V at ea ⊢
  simp only [hostOps0_2]
  after_results_simp
  rw [ea]
  simp only [Cert.ReferenceIdeal.ReadP.val_main_v8, Cert.ReferenceIdeal.ReadP.val_main_v6, Cert.ReferenceIdeal.ReadP.val_main_v7, Cert.ReferenceIdeal.ReadP.val_main_v5, Cert.ReferenceIdeal.ReadP.val_main_cst_3, Cert.ReferenceIdeal.ReadP.val_main_cst_2]
  try rfl
/-- The constant one the count is clipped below by. -/
theorem deg1_one : W3 m ρ c (Proc.devRef .tc main_cst_5) = Cert.ReferenceIdeal.ReadP.val_main_cst_4 (F := Ideal) := by
  dsimp only [W3]
  generalize W2 m ρ c = V
  simp only [hostOps0_2]
  after_results_simp
  try rfl
/-- The count, at least one. -/
theorem deg1_clip : W4 m ρ c (Proc.devRef .tc main_v12) = Cert.ReferenceIdeal.ReadP.val_main_v9 (F := Ideal) (m ((c.tc : Thread nD τ).loc main_arg3)) := by
  have e1 := deg1_count m ρ c
  have e2 := deg1_one m ρ c
  dsimp only [W4]
  generalize W3 m ρ c = V at e1 e2 ⊢
  simp only [hostOps0_3]
  after_results_simp
  simp only [TRef.toBuf, TRef.ofBuf, cast_eq]
  rw [e1, e2]
  simp only [Cert.ReferenceIdeal.ReadP.val_main_v9, Cert.ReferenceIdeal.ReadP.val_main_call1_v1, Cert.ReferenceIdeal.ReadP.val_main_call1_v0]
  try rfl
/-- The factor: the clipped count to the power −1/2, as a column. -/
theorem deg1 : W5 m ρ c (Proc.devRef .tc main_v15) = Cert.ReferenceIdeal.ReadP.val_main_v27 (F := Ideal) (m ((c.tc : Thread nD τ).loc main_arg3)) := by
  have e := deg1_clip m ρ c
  dsimp only [W5]
  generalize W4 m ρ c = V at e ⊢
  simp only [hostOps0_4]
  after_results_simp
  rw [e]
  generalize hX : Host.powf (F := Ideal) _ _ = X
  show shapeCast (⟨2, ![50000, 1]⟩ : Shape) X shapeCasts_S50000_S50000x1 = _
  refine (shapeCast_col_eq_broadcastInDim (n := 50000) (by decide) X _ bcast_S50000_S50000x1_0).trans ?_
  subst hX
  simp only [Cert.ReferenceIdeal.ReadP.val_main_v27, Cert.ReferenceIdeal.ReadP.val_main_v26, Cert.ReferenceIdeal.ReadP.val_main_v25, Cert.ReferenceIdeal.ReadP.val_main_cst_8]
  try rfl

/-- The count of edges naming each node (`arg4`'s list). -/
theorem deg2_count : W5 m ρ c (Proc.devRef .tc main_v19) = Cert.ReferenceIdeal.ReadP.val_main_v37 (F := Ideal) (m ((c.tc : Thread nD τ).loc main_arg4)) := by
  have ea := W4_arg4 m ρ c
  dsimp only [W5]
  generalize W4 m ρ c = V at ea ⊢
  simp only [hostOps0_4]
  after_results_simp
  rw [ea]
  simp only [Cert.ReferenceIdeal.ReadP.val_main_v37, Cert.ReferenceIdeal.ReadP.val_main_v35, Cert.ReferenceIdeal.ReadP.val_main_v36, Cert.ReferenceIdeal.ReadP.val_main_v34, Cert.ReferenceIdeal.ReadP.val_main_cst_10, Cert.ReferenceIdeal.ReadP.val_main_cst_9]
  try rfl
/-- The constant one the count is clipped below by. -/
theorem deg2_one : W5 m ρ c (Proc.devRef .tc main_cst_9) = Cert.ReferenceIdeal.ReadP.val_main_cst_11 (F := Ideal) := by
  dsimp only [W5]
  generalize W4 m ρ c = V
  simp only [hostOps0_4]
  after_results_simp
  try rfl
/-- The count, at least one. -/
theorem deg2_clip : W6 m ρ c (Proc.devRef .tc main_v20) = Cert.ReferenceIdeal.ReadP.val_main_v38 (F := Ideal) (m ((c.tc : Thread nD τ).loc main_arg4)) := by
  have e1 := deg2_count m ρ c
  have e2 := deg2_one m ρ c
  dsimp only [W6]
  generalize W5 m ρ c = V at e1 e2 ⊢
  simp only [hostOps0_5]
  after_results_simp
  simp only [TRef.toBuf, TRef.ofBuf, cast_eq]
  rw [e1, e2]
  simp only [Cert.ReferenceIdeal.ReadP.val_main_v38, Cert.ReferenceIdeal.ReadP.val_main_call2_v1, Cert.ReferenceIdeal.ReadP.val_main_call2_v0]
  try rfl
/-- The factor: the clipped count to the power −1/2, as a column. -/
theorem deg2 : W7 m ρ c (Proc.devRef .tc main_v23) = Cert.ReferenceIdeal.ReadP.val_main_v46 (F := Ideal) (m ((c.tc : Thread nD τ).loc main_arg4)) := by
  have e := deg2_clip m ρ c
  dsimp only [W7]
  generalize W6 m ρ c = V at e ⊢
  simp only [hostOps0_6]
  after_results_simp
  rw [e]
  generalize hX : Host.powf (F := Ideal) _ _ = X
  show shapeCast (⟨2, ![50000, 1]⟩ : Shape) X shapeCasts_S50000_S50000x1 = _
  refine (shapeCast_col_eq_broadcastInDim (n := 50000) (by decide) X _ bcast_S50000_S50000x1_0).trans ?_
  subst hX
  simp only [Cert.ReferenceIdeal.ReadP.val_main_v46, Cert.ReferenceIdeal.ReadP.val_main_v45, Cert.ReferenceIdeal.ReadP.val_main_v44, Cert.ReferenceIdeal.ReadP.val_main_cst_15]
  try rfl

/-- The count of edges naming each node (`arg5`'s list). -/
theorem deg3_count : W7 m ρ c (Proc.devRef .tc main_v27) = Cert.ReferenceIdeal.ReadP.val_main_v42 (F := Ideal) (m ((c.tc : Thread nD τ).loc main_arg5)) := by
  have ea := W6_arg5 m ρ c
  dsimp only [W7]
  generalize W6 m ρ c = V at ea ⊢
  simp only [hostOps0_6]
  after_results_simp
  rw [ea]
  simp only [Cert.ReferenceIdeal.ReadP.val_main_v42, Cert.ReferenceIdeal.ReadP.val_main_v40, Cert.ReferenceIdeal.ReadP.val_main_v41, Cert.ReferenceIdeal.ReadP.val_main_v39, Cert.ReferenceIdeal.ReadP.val_main_cst_13, Cert.ReferenceIdeal.ReadP.val_main_cst_12]
  try rfl
/-- The constant one the count is clipped below by. -/
theorem deg3_one : W7 m ρ c (Proc.devRef .tc main_cst_13) = Cert.ReferenceIdeal.ReadP.val_main_cst_14 (F := Ideal) := by
  dsimp only [W7]
  generalize W6 m ρ c = V
  simp only [hostOps0_6]
  after_results_simp
  try rfl
/-- The count, at least one. -/
theorem deg3_clip : W8 m ρ c (Proc.devRef .tc main_v28) = Cert.ReferenceIdeal.ReadP.val_main_v43 (F := Ideal) (m ((c.tc : Thread nD τ).loc main_arg5)) := by
  have e1 := deg3_count m ρ c
  have e2 := deg3_one m ρ c
  dsimp only [W8]
  generalize W7 m ρ c = V at e1 e2 ⊢
  simp only [hostOps0_7]
  after_results_simp
  simp only [TRef.toBuf, TRef.ofBuf, cast_eq]
  rw [e1, e2]
  simp only [Cert.ReferenceIdeal.ReadP.val_main_v43, Cert.ReferenceIdeal.ReadP.val_main_call3_v1, Cert.ReferenceIdeal.ReadP.val_main_call3_v0]
  try rfl
/-- The factor: the clipped count to the power −1/2, as a column. -/
theorem deg3 : W9 m ρ c (Proc.devRef .tc main_v31) = Cert.ReferenceIdeal.ReadP.val_main_v61 (F := Ideal) (m ((c.tc : Thread nD τ).loc main_arg5)) := by
  have e := deg3_clip m ρ c
  dsimp only [W9]
  generalize W8 m ρ c = V at e ⊢
  simp only [hostOps0_8]
  after_results_simp
  rw [e]
  generalize hX : Host.powf (F := Ideal) _ _ = X
  show shapeCast (⟨2, ![50000, 1]⟩ : Shape) X shapeCasts_S50000_S50000x1 = _
  refine (shapeCast_col_eq_broadcastInDim (n := 50000) (by decide) X _ bcast_S50000_S50000x1_0).trans ?_
  subst hX
  simp only [Cert.ReferenceIdeal.ReadP.val_main_v61, Cert.ReferenceIdeal.ReadP.val_main_v60, Cert.ReferenceIdeal.ReadP.val_main_v59, Cert.ReferenceIdeal.ReadP.val_main_cst_19]
  try rfl

/-- The count of edges naming each node (`arg6`'s list). -/
theorem deg4_count : W9 m ρ c (Proc.devRef .tc main_v35) = Cert.ReferenceIdeal.ReadP.val_main_v72 (F := Ideal) (m ((c.tc : Thread nD τ).loc main_arg6)) := by
  have ea := W8_arg6 m ρ c
  dsimp only [W9]
  generalize W8 m ρ c = V at ea ⊢
  simp only [hostOps0_8]
  after_results_simp
  rw [ea]
  simp only [Cert.ReferenceIdeal.ReadP.val_main_v72, Cert.ReferenceIdeal.ReadP.val_main_v70, Cert.ReferenceIdeal.ReadP.val_main_v71, Cert.ReferenceIdeal.ReadP.val_main_v69, Cert.ReferenceIdeal.ReadP.val_main_cst_21, Cert.ReferenceIdeal.ReadP.val_main_cst_20]
  try rfl
/-- The constant one the count is clipped below by. -/
theorem deg4_one : W9 m ρ c (Proc.devRef .tc main_cst_17) = Cert.ReferenceIdeal.ReadP.val_main_cst_22 (F := Ideal) := by
  dsimp only [W9]
  generalize W8 m ρ c = V
  simp only [hostOps0_8]
  after_results_simp
  try rfl
/-- The count, at least one. -/
theorem deg4_clip : W10 m ρ c (Proc.devRef .tc main_v36) = Cert.ReferenceIdeal.ReadP.val_main_v73 (F := Ideal) (m ((c.tc : Thread nD τ).loc main_arg6)) := by
  have e1 := deg4_count m ρ c
  have e2 := deg4_one m ρ c
  dsimp only [W10]
  generalize W9 m ρ c = V at e1 e2 ⊢
  simp only [hostOps0_9]
  after_results_simp
  simp only [TRef.toBuf, TRef.ofBuf, cast_eq]
  rw [e1, e2]
  simp only [Cert.ReferenceIdeal.ReadP.val_main_v73, Cert.ReferenceIdeal.ReadP.val_main_call4_v1, Cert.ReferenceIdeal.ReadP.val_main_call4_v0]
  try rfl
/-- The factor: the clipped count to the power −1/2, as a column. -/
theorem deg4 : W11 m ρ c (Proc.devRef .tc main_v39) = Cert.ReferenceIdeal.ReadP.val_main_v81 (F := Ideal) (m ((c.tc : Thread nD τ).loc main_arg6)) := by
  have e := deg4_clip m ρ c
  dsimp only [W11]
  generalize W10 m ρ c = V at e ⊢
  simp only [hostOps0_10]
  after_results_simp
  rw [e]
  generalize hX : Host.powf (F := Ideal) _ _ = X
  show shapeCast (⟨2, ![50000, 1]⟩ : Shape) X shapeCasts_S50000_S50000x1 = _
  refine (shapeCast_col_eq_broadcastInDim (n := 50000) (by decide) X _ bcast_S50000_S50000x1_0).trans ?_
  subst hX
  simp only [Cert.ReferenceIdeal.ReadP.val_main_v81, Cert.ReferenceIdeal.ReadP.val_main_v80, Cert.ReferenceIdeal.ReadP.val_main_v79, Cert.ReferenceIdeal.ReadP.val_main_cst_26]
  try rfl

/-- The count of edges naming each node (`arg7`'s list). -/
theorem deg5_count : W11 m ρ c (Proc.devRef .tc main_v43) = Cert.ReferenceIdeal.ReadP.val_main_v77 (F := Ideal) (m ((c.tc : Thread nD τ).loc main_arg7)) := by
  have ea := W10_arg7 m ρ c
  dsimp only [W11]
  generalize W10 m ρ c = V at ea ⊢
  simp only [hostOps0_10]
  after_results_simp
  rw [ea]
  simp only [Cert.ReferenceIdeal.ReadP.val_main_v77, Cert.ReferenceIdeal.ReadP.val_main_v75, Cert.ReferenceIdeal.ReadP.val_main_v76, Cert.ReferenceIdeal.ReadP.val_main_v74, Cert.ReferenceIdeal.ReadP.val_main_cst_24, Cert.ReferenceIdeal.ReadP.val_main_cst_23]
  try rfl
/-- The constant one the count is clipped below by. -/
theorem deg5_one : W11 m ρ c (Proc.devRef .tc main_cst_21) = Cert.ReferenceIdeal.ReadP.val_main_cst_25 (F := Ideal) := by
  dsimp only [W11]
  generalize W10 m ρ c = V
  simp only [hostOps0_10]
  after_results_simp
  try rfl
/-- The count, at least one. -/
theorem deg5_clip : W12 m ρ c (Proc.devRef .tc main_v44) = Cert.ReferenceIdeal.ReadP.val_main_v78 (F := Ideal) (m ((c.tc : Thread nD τ).loc main_arg7)) := by
  have e1 := deg5_count m ρ c
  have e2 := deg5_one m ρ c
  dsimp only [W12]
  generalize W11 m ρ c = V at e1 e2 ⊢
  simp only [hostOps0_11]
  after_results_simp
  simp only [TRef.toBuf, TRef.ofBuf, cast_eq]
  rw [e1, e2]
  simp only [Cert.ReferenceIdeal.ReadP.val_main_v78, Cert.ReferenceIdeal.ReadP.val_main_call5_v1, Cert.ReferenceIdeal.ReadP.val_main_call5_v0]
  try rfl
/-- The factor: the clipped count to the power −1/2, as a column. -/
theorem deg5 : W13 m ρ c (Proc.devRef .tc main_v47) = Cert.ReferenceIdeal.ReadP.val_main_v96 (F := Ideal) (m ((c.tc : Thread nD τ).loc main_arg7)) := by
  have e := deg5_clip m ρ c
  dsimp only [W13]
  generalize W12 m ρ c = V at e ⊢
  simp only [hostOps0_12]
  after_results_simp
  rw [e]
  generalize hX : Host.powf (F := Ideal) _ _ = X
  show shapeCast (⟨2, ![50000, 1]⟩ : Shape) X shapeCasts_S50000_S50000x1 = _
  refine (shapeCast_col_eq_broadcastInDim (n := 50000) (by decide) X _ bcast_S50000_S50000x1_0).trans ?_
  subst hX
  simp only [Cert.ReferenceIdeal.ReadP.val_main_v96, Cert.ReferenceIdeal.ReadP.val_main_v95, Cert.ReferenceIdeal.ReadP.val_main_v94, Cert.ReferenceIdeal.ReadP.val_main_cst_30]
  try rfl

/-! ## The reference program computes each degree factor once per layer

Its second layer applies the operations of the first to the same edge list, so the two stages are the same
function of the list. -/

theorem ref_v117_eq (x : (⟨Cert.ReferenceIdeal.S800000, .i32⟩ : BufTy).Contents (Elt Ideal)) :
    Cert.ReferenceIdeal.ReadP.val_main_v117 (F := Ideal) x = Cert.ReferenceIdeal.ReadP.val_main_v12 (F := Ideal) x := by
  simp only [Cert.ReferenceIdeal.ReadP.val_main_v117, Cert.ReferenceIdeal.ReadP.val_main_v116, Cert.ReferenceIdeal.ReadP.val_main_v115, Cert.ReferenceIdeal.ReadP.val_main_cst_37, Cert.ReferenceIdeal.ReadP.val_main_v109, Cert.ReferenceIdeal.ReadP.val_main_call8_v1, Cert.ReferenceIdeal.ReadP.val_main_call8_v0, Cert.ReferenceIdeal.ReadP.val_main_cst_33, Cert.ReferenceIdeal.ReadP.val_main_v108, Cert.ReferenceIdeal.ReadP.val_main_v106, Cert.ReferenceIdeal.ReadP.val_main_v107, Cert.ReferenceIdeal.ReadP.val_main_v105, Cert.ReferenceIdeal.ReadP.val_main_cst_32, Cert.ReferenceIdeal.ReadP.val_main_cst_31, Cert.ReferenceIdeal.ReadP.val_main_v12, Cert.ReferenceIdeal.ReadP.val_main_v11, Cert.ReferenceIdeal.ReadP.val_main_v10, Cert.ReferenceIdeal.ReadP.val_main_cst_5, Cert.ReferenceIdeal.ReadP.val_main_v4, Cert.ReferenceIdeal.ReadP.val_main_call0_v1, Cert.ReferenceIdeal.ReadP.val_main_call0_v0, Cert.ReferenceIdeal.ReadP.val_main_cst_1, Cert.ReferenceIdeal.ReadP.val_main_v3, Cert.ReferenceIdeal.ReadP.val_main_v1, Cert.ReferenceIdeal.ReadP.val_main_v2, Cert.ReferenceIdeal.ReadP.val_main_v0, Cert.ReferenceIdeal.ReadP.val_main_cst_0, Cert.ReferenceIdeal.ReadP.val_main_cst]

theorem ref_v132_eq (x : (⟨Cert.ReferenceIdeal.S800000, .i32⟩ : BufTy).Contents (Elt Ideal)) :
    Cert.ReferenceIdeal.ReadP.val_main_v132 (F := Ideal) x = Cert.ReferenceIdeal.ReadP.val_main_v27 (F := Ideal) x := by
  simp only [Cert.ReferenceIdeal.ReadP.val_main_v132, Cert.ReferenceIdeal.ReadP.val_main_v131, Cert.ReferenceIdeal.ReadP.val_main_v130, Cert.ReferenceIdeal.ReadP.val_main_cst_41, Cert.ReferenceIdeal.ReadP.val_main_v114, Cert.ReferenceIdeal.ReadP.val_main_call9_v1, Cert.ReferenceIdeal.ReadP.val_main_call9_v0, Cert.ReferenceIdeal.ReadP.val_main_cst_36, Cert.ReferenceIdeal.ReadP.val_main_v113, Cert.ReferenceIdeal.ReadP.val_main_v111, Cert.ReferenceIdeal.ReadP.val_main_v112, Cert.ReferenceIdeal.ReadP.val_main_v110, Cert.ReferenceIdeal.ReadP.val_main_cst_35, Cert.ReferenceIdeal.ReadP.val_main_cst_34, Cert.ReferenceIdeal.ReadP.val_main_v27, Cert.ReferenceIdeal.ReadP.val_main_v26, Cert.ReferenceIdeal.ReadP.val_main_v25, Cert.ReferenceIdeal.ReadP.val_main_cst_8, Cert.ReferenceIdeal.ReadP.val_main_v9, Cert.ReferenceIdeal.ReadP.val_main_call1_v1, Cert.ReferenceIdeal.ReadP.val_main_call1_v0, Cert.ReferenceIdeal.ReadP.val_main_cst_4, Cert.ReferenceIdeal.ReadP.val_main_v8, Cert.ReferenceIdeal.ReadP.val_main_v6, Cert.ReferenceIdeal.ReadP.val_main_v7, Cert.ReferenceIdeal.ReadP.val_main_v5, Cert.ReferenceIdeal.ReadP.val_main_cst_3, Cert.ReferenceIdeal.ReadP.val_main_cst_2]

theorem ref_v151_eq (x : (⟨Cert.ReferenceIdeal.S400000, .i32⟩ : BufTy).Contents (Elt Ideal)) :
    Cert.ReferenceIdeal.ReadP.val_main_v151 (F := Ideal) x = Cert.ReferenceIdeal.ReadP.val_main_v46 (F := Ideal) x := by
  simp only [Cert.ReferenceIdeal.ReadP.val_main_v151, Cert.ReferenceIdeal.ReadP.val_main_v150, Cert.ReferenceIdeal.ReadP.val_main_v149, Cert.ReferenceIdeal.ReadP.val_main_cst_48, Cert.ReferenceIdeal.ReadP.val_main_v143, Cert.ReferenceIdeal.ReadP.val_main_call10_v1, Cert.ReferenceIdeal.ReadP.val_main_call10_v0, Cert.ReferenceIdeal.ReadP.val_main_cst_44, Cert.ReferenceIdeal.ReadP.val_main_v142, Cert.ReferenceIdeal.ReadP.val_main_v140, Cert.ReferenceIdeal.ReadP.val_main_v141, Cert.ReferenceIdeal.ReadP.val_main_v139, Cert.ReferenceIdeal.ReadP.val_main_cst_43, Cert.ReferenceIdeal.ReadP.val_main_cst_42, Cert.ReferenceIdeal.ReadP.val_main_v46, Cert.ReferenceIdeal.ReadP.val_main_v45, Cert.ReferenceIdeal.ReadP.val_main_v44, Cert.ReferenceIdeal.ReadP.val_main_cst_15, Cert.ReferenceIdeal.ReadP.val_main_v38, Cert.ReferenceIdeal.ReadP.val_main_call2_v1, Cert.ReferenceIdeal.ReadP.val_main_call2_v0, Cert.ReferenceIdeal.ReadP.val_main_cst_11, Cert.ReferenceIdeal.ReadP.val_main_v37, Cert.ReferenceIdeal.ReadP.val_main_v35, Cert.ReferenceIdeal.ReadP.val_main_v36, Cert.ReferenceIdeal.ReadP.val_main_v34, Cert.ReferenceIdeal.ReadP.val_main_cst_10, Cert.ReferenceIdeal.ReadP.val_main_cst_9]

theorem ref_v166_eq (x : (⟨Cert.ReferenceIdeal.S400000, .i32⟩ : BufTy).Contents (Elt Ideal)) :
    Cert.ReferenceIdeal.ReadP.val_main_v166 (F := Ideal) x = Cert.ReferenceIdeal.ReadP.val_main_v61 (F := Ideal) x := by
  simp only [Cert.ReferenceIdeal.ReadP.val_main_v166, Cert.ReferenceIdeal.ReadP.val_main_v165, Cert.ReferenceIdeal.ReadP.val_main_v164, Cert.ReferenceIdeal.ReadP.val_main_cst_52, Cert.ReferenceIdeal.ReadP.val_main_v148, Cert.ReferenceIdeal.ReadP.val_main_call11_v1, Cert.ReferenceIdeal.ReadP.val_main_call11_v0, Cert.ReferenceIdeal.ReadP.val_main_cst_47, Cert.ReferenceIdeal.ReadP.val_main_v147, Cert.ReferenceIdeal.ReadP.val_main_v145, Cert.ReferenceIdeal.ReadP.val_main_v146, Cert.ReferenceIdeal.ReadP.val_main_v144, Cert.ReferenceIdeal.ReadP.val_main_cst_46, Cert.ReferenceIdeal.ReadP.val_main_cst_45, Cert.ReferenceIdeal.ReadP.val_main_v61, Cert.ReferenceIdeal.ReadP.val_main_v60, Cert.ReferenceIdeal.ReadP.val_main_v59, Cert.ReferenceIdeal.ReadP.val_main_cst_19, Cert.ReferenceIdeal.ReadP.val_main_v43, Cert.ReferenceIdeal.ReadP.val_main_call3_v1, Cert.ReferenceIdeal.ReadP.val_main_call3_v0, Cert.ReferenceIdeal.ReadP.val_main_cst_14, Cert.ReferenceIdeal.ReadP.val_main_v42, Cert.ReferenceIdeal.ReadP.val_main_v40, Cert.ReferenceIdeal.ReadP.val_main_v41, Cert.ReferenceIdeal.ReadP.val_main_v39, Cert.ReferenceIdeal.ReadP.val_main_cst_13, Cert.ReferenceIdeal.ReadP.val_main_cst_12]

/-! ## What region 0 finds

Region 0 reads, per edge type, the source features scaled by the source degree factor, gathered along the edges
and summed into the destination nodes; the destination degree factors; the weights; the biases as rows; and the
two source degree factors the second layer's scaling uses. -/

/-- The scaled source features, gathered along `arg2` and summed into the nodes `arg3` names. -/
theorem V13_v61 : V13 m ρ c main_v61 = Cert.ReferenceIdeal.ReadP.val_main_v24 (F := Ideal) (m ((c.tc : Thread nD τ).loc main_arg0)) (m ((c.tc : Thread nD τ).loc main_arg2)) (m ((c.tc : Thread nD τ).loc main_arg3)) := by
  have ed : W12 m ρ c (Proc.devRef .tc main_v7) = Cert.ReferenceIdeal.ReadP.val_main_v12 (F := Ideal) (m ((c.tc : Thread nD τ).loc main_arg2)) :=
    (((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans (W4_of m ρ c main_v7 (by decide))))))))))).trans (deg0 m ρ c)
  have ex := W12_arg0 m ρ c
  have es := W12_arg2 m ρ c
  have et := W12_arg3 m ρ c
  dsimp only [V13, W13]
  generalize W12 m ρ c = V at ed ex es et ⊢
  simp only [hostOps0_12]
  after_results_simp
  rw [ed, ex, es, et]
  simp only [extf_ideal, truncf_ideal]
  simp only [Cert.ReferenceIdeal.ReadP.val_main_v24, Cert.ReferenceIdeal.ReadP.val_main_v23, Cert.ReferenceIdeal.ReadP.val_main_v22, Cert.ReferenceIdeal.ReadP.val_main_cst_7, Cert.ReferenceIdeal.ReadP.val_main_v21, Cert.ReferenceIdeal.ReadP.val_main_v20, Cert.ReferenceIdeal.ReadP.val_main_v19, Cert.ReferenceIdeal.ReadP.val_main_v18, Cert.ReferenceIdeal.ReadP.val_main_v17, Cert.ReferenceIdeal.ReadP.val_main_c_6, Cert.ReferenceIdeal.ReadP.val_main_v16, Cert.ReferenceIdeal.ReadP.val_main_v15, Cert.ReferenceIdeal.ReadP.val_main_c, Cert.ReferenceIdeal.ReadP.val_main_v14, Cert.ReferenceIdeal.ReadP.val_main_v13]
  try rfl

/-- The scaled source features, gathered along `arg4` and summed into the nodes `arg5` names. -/
theorem V13_v75 : V13 m ρ c main_v75 = Cert.ReferenceIdeal.ReadP.val_main_v58 (F := Ideal) (m ((c.tc : Thread nD τ).loc main_arg1)) (m ((c.tc : Thread nD τ).loc main_arg4)) (m ((c.tc : Thread nD τ).loc main_arg5)) := by
  have ed : W12 m ρ c (Proc.devRef .tc main_v23) = Cert.ReferenceIdeal.ReadP.val_main_v46 (F := Ideal) (m ((c.tc : Thread nD τ).loc main_arg4)) :=
    (((W12_of m ρ c main_v23 (by decide)).trans ((W11_of m ρ c main_v23 (by decide)).trans ((W10_of m ρ c main_v23 (by decide)).trans ((W9_of m ρ c main_v23 (by decide)).trans (W8_of m ρ c main_v23 (by decide))))))).trans (deg2 m ρ c)
  have ex := W12_arg1 m ρ c
  have es := W12_arg4 m ρ c
  have et := W12_arg5 m ρ c
  dsimp only [V13, W13]
  generalize W12 m ρ c = V at ed ex es et ⊢
  simp only [hostOps0_12]
  after_results_simp
  rw [ed, ex, es, et]
  simp only [extf_ideal, truncf_ideal]
  simp only [Cert.ReferenceIdeal.ReadP.val_main_v58, Cert.ReferenceIdeal.ReadP.val_main_v57, Cert.ReferenceIdeal.ReadP.val_main_v56, Cert.ReferenceIdeal.ReadP.val_main_cst_18, Cert.ReferenceIdeal.ReadP.val_main_v55, Cert.ReferenceIdeal.ReadP.val_main_v54, Cert.ReferenceIdeal.ReadP.val_main_v53, Cert.ReferenceIdeal.ReadP.val_main_v52, Cert.ReferenceIdeal.ReadP.val_main_v51, Cert.ReferenceIdeal.ReadP.val_main_c_17, Cert.ReferenceIdeal.ReadP.val_main_v50, Cert.ReferenceIdeal.ReadP.val_main_v49, Cert.ReferenceIdeal.ReadP.val_main_c_16, Cert.ReferenceIdeal.ReadP.val_main_v48, Cert.ReferenceIdeal.ReadP.val_main_v47]
  try rfl

/-- The scaled source features, gathered along `arg6` and summed into the nodes `arg7` names. -/
theorem V13_v89 : V13 m ρ c main_v89 = Cert.ReferenceIdeal.ReadP.val_main_v93 (F := Ideal) (m ((c.tc : Thread nD τ).loc main_arg0)) (m ((c.tc : Thread nD τ).loc main_arg6)) (m ((c.tc : Thread nD τ).loc main_arg7)) := by
  have ed : W12 m ρ c (Proc.devRef .tc main_v39) = Cert.ReferenceIdeal.ReadP.val_main_v81 (F := Ideal) (m ((c.tc : Thread nD τ).loc main_arg6)) :=
    ((W12_of m ρ c main_v39 (by decide))).trans (deg4 m ρ c)
  have ex := W12_arg0 m ρ c
  have es := W12_arg6 m ρ c
  have et := W12_arg7 m ρ c
  dsimp only [V13, W13]
  generalize W12 m ρ c = V at ed ex es et ⊢
  simp only [hostOps0_12]
  after_results_simp
  rw [ed, ex, es, et]
  simp only [extf_ideal, truncf_ideal]
  simp only [Cert.ReferenceIdeal.ReadP.val_main_v93, Cert.ReferenceIdeal.ReadP.val_main_v92, Cert.ReferenceIdeal.ReadP.val_main_v91, Cert.ReferenceIdeal.ReadP.val_main_cst_29, Cert.ReferenceIdeal.ReadP.val_main_v90, Cert.ReferenceIdeal.ReadP.val_main_v89, Cert.ReferenceIdeal.ReadP.val_main_v88, Cert.ReferenceIdeal.ReadP.val_main_v87, Cert.ReferenceIdeal.ReadP.val_main_v86, Cert.ReferenceIdeal.ReadP.val_main_c_28, Cert.ReferenceIdeal.ReadP.val_main_v85, Cert.ReferenceIdeal.ReadP.val_main_v84, Cert.ReferenceIdeal.ReadP.val_main_c_27, Cert.ReferenceIdeal.ReadP.val_main_v83, Cert.ReferenceIdeal.ReadP.val_main_v82]
  try rfl

theorem V13_v15 : V13 m ρ c main_v15 = Cert.ReferenceIdeal.ReadP.val_main_v27 (F := Ideal) (m ((c.tc : Thread nD τ).loc main_arg3)) :=
  (((W13_of m ρ c main_v15 (by decide)).trans ((W12_of m ρ c main_v15 (by decide)).trans ((W11_of m ρ c main_v15 (by decide)).trans ((W10_of m ρ c main_v15 (by decide)).trans ((W9_of m ρ c main_v15 (by decide)).trans ((W8_of m ρ c main_v15 (by decide)).trans ((W7_of m ρ c main_v15 (by decide)).trans (W6_of m ρ c main_v15 (by decide)))))))))).trans (deg1 m ρ c)

theorem V13_v31 : V13 m ρ c main_v31 = Cert.ReferenceIdeal.ReadP.val_main_v61 (F := Ideal) (m ((c.tc : Thread nD τ).loc main_arg5)) :=
  (((W13_of m ρ c main_v31 (by decide)).trans ((W12_of m ρ c main_v31 (by decide)).trans ((W11_of m ρ c main_v31 (by decide)).trans (W10_of m ρ c main_v31 (by decide)))))).trans (deg3 m ρ c)

theorem V13_v47 : V13 m ρ c main_v47 = Cert.ReferenceIdeal.ReadP.val_main_v96 (F := Ideal) (m ((c.tc : Thread nD τ).loc main_arg7)) :=
  deg5 m ρ c

theorem V13_v7 : V13 m ρ c main_v7 = Cert.ReferenceIdeal.ReadP.val_main_v117 (F := Ideal) (m ((c.tc : Thread nD τ).loc main_arg2)) :=
  ((((W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans ((W5_of m ρ c main_v7 (by decide)).trans (W4_of m ρ c main_v7 (by decide)))))))))))).trans (deg0 m ρ c)).trans (ref_v117_eq _).symm

theorem V13_v23 : V13 m ρ c main_v23 = Cert.ReferenceIdeal.ReadP.val_main_v151 (F := Ideal) (m ((c.tc : Thread nD τ).loc main_arg4)) :=
  ((((W13_of m ρ c main_v23 (by decide)).trans ((W12_of m ρ c main_v23 (by decide)).trans ((W11_of m ρ c main_v23 (by decide)).trans ((W10_of m ρ c main_v23 (by decide)).trans ((W9_of m ρ c main_v23 (by decide)).trans (W8_of m ρ c main_v23 (by decide)))))))).trans (deg2 m ρ c)).trans (ref_v151_eq _).symm

theorem V13_arg9 : V13 m ρ c main_arg9 = (m ((c.tc : Thread nD τ).loc main_arg9)) := W13_arg9 m ρ c

theorem V13_arg11 : V13 m ρ c main_arg11 = (m ((c.tc : Thread nD τ).loc main_arg11)) := W13_arg11 m ρ c

theorem V13_arg13 : V13 m ρ c main_arg13 = (m ((c.tc : Thread nD τ).loc main_arg13)) := W13_arg13 m ρ c

/-- A bias vector as a row. -/
theorem V13_v90 : V13 m ρ c main_v90 = Cert.ReferenceIdeal.ReadP.val_main_v31 (F := Ideal) (m ((c.tc : Thread nD τ).loc main_arg10)) := by
  have ea := W12_arg10 m ρ c
  dsimp only [V13, W13]
  generalize W12 m ρ c = V at ea ⊢
  simp only [hostOps0_12]
  after_results_simp
  rw [ea]
  generalize (m ((c.tc : Thread nD τ).loc main_arg10)) = x
  show shapeCast (⟨2, ![1, 128]⟩ : Shape) x shapeCasts_S128_S1x128 = _
  simp only [Cert.ReferenceIdeal.ReadP.val_main_v31]
  exact shapeCast_row_eq_broadcastInDim (n := 128) _ _ _

/-- A bias vector as a row. -/
theorem V13_v91 : V13 m ρ c main_v91 = Cert.ReferenceIdeal.ReadP.val_main_v65 (F := Ideal) (m ((c.tc : Thread nD τ).loc main_arg12)) := by
  have ea := W12_arg12 m ρ c
  dsimp only [V13, W13]
  generalize W12 m ρ c = V at ea ⊢
  simp only [hostOps0_12]
  after_results_simp
  rw [ea]
  generalize (m ((c.tc : Thread nD τ).loc main_arg12)) = x
  show shapeCast (⟨2, ![1, 128]⟩ : Shape) x shapeCasts_S128_S1x128 = _
  simp only [Cert.ReferenceIdeal.ReadP.val_main_v65]
  exact shapeCast_row_eq_broadcastInDim (n := 128) _ _ _

/-- A bias vector as a row. -/
theorem V13_v92 : V13 m ρ c main_v92 = Cert.ReferenceIdeal.ReadP.val_main_v100 (F := Ideal) (m ((c.tc : Thread nD τ).loc main_arg14)) := by
  have ea := W12_arg14 m ρ c
  dsimp only [V13, W13]
  generalize W12 m ρ c = V at ea ⊢
  simp only [hostOps0_12]
  after_results_simp
  rw [ea]
  generalize (m ((c.tc : Thread nD τ).loc main_arg14)) = x
  show shapeCast (⟨2, ![1, 128]⟩ : Shape) x shapeCasts_S128_S1x128 = _
  simp only [Cert.ReferenceIdeal.ReadP.val_main_v100]
  exact shapeCast_row_eq_broadcastInDim (n := 128) _ _ _

/-! ## What region 1 finds

Region 0 leaves alone the arrays it only reads. Region 1 reads, per edge type, region 0's scaled output gathered
along the edges and summed into the destination nodes; the destination degree factors; the weights; the biases
as rows. -/

/-- Region 0 reads the destination degree factors and leaves them as they were. -/
theorem W14_main_v15 : W14 m ρ c (Proc.devRef .tc main_v15) = W13 m ρ c (Proc.devRef .tc main_v15) :=
  (W14_arr m ρ c 1).trans (((dat0 (V13 m ρ) c).arrAt_in 1 rfl _).trans (A_eq0 (V13 m ρ) c 1))
theorem W14_main_v31 : W14 m ρ c (Proc.devRef .tc main_v31) = W13 m ρ c (Proc.devRef .tc main_v31) :=
  (W14_arr m ρ c 5).trans (((dat0 (V13 m ρ) c).arrAt_in 5 rfl _).trans (A_eq0 (V13 m ρ) c 5))

/-- Region 0's scaled output, gathered along `arg2` and summed into the nodes `arg3` names. -/
theorem V15_v104
    (h0 : W14 m ρ c (Proc.devRef .tc main_v93_0) = Cert.ReferenceIdeal.ReadP.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))) :
    V15 m ρ c main_v104 = Cert.ReferenceIdeal.ReadP.val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) := by
  have es := W14_arg2 m ρ c
  have et := W14_arg3 m ρ c
  dsimp only [V15, W15]
  generalize W14 m ρ c = V at h0 es et ⊢
  simp only [hostOps1]
  after_results_simp
  rw [h0, es, et]
  simp only [extf_ideal]
  simp only [Cert.ReferenceIdeal.ReadP.val_main_v129, Cert.ReferenceIdeal.ReadP.val_main_v128, Cert.ReferenceIdeal.ReadP.val_main_v127, Cert.ReferenceIdeal.ReadP.val_main_cst_40, Cert.ReferenceIdeal.ReadP.val_main_v126, Cert.ReferenceIdeal.ReadP.val_main_v125, Cert.ReferenceIdeal.ReadP.val_main_v124, Cert.ReferenceIdeal.ReadP.val_main_v123, Cert.ReferenceIdeal.ReadP.val_main_v122, Cert.ReferenceIdeal.ReadP.val_main_c_39, Cert.ReferenceIdeal.ReadP.val_main_v121, Cert.ReferenceIdeal.ReadP.val_main_v120, Cert.ReferenceIdeal.ReadP.val_main_c_38]
  try rfl

/-- Region 0's scaled output, gathered along `arg4` and summed into the nodes `arg5` names. -/
theorem V15_v115
    (h1 : W14 m ρ c (Proc.devRef .tc main_v93_1) = Cert.ReferenceIdeal.ReadP.val_main_v153 (F := Ideal) (m ((c.tc : Thread nD τ).loc main_arg0)) (m ((c.tc : Thread nD τ).loc main_arg4)) (m ((c.tc : Thread nD τ).loc main_arg6)) (m ((c.tc : Thread nD τ).loc main_arg7)) (m ((c.tc : Thread nD τ).loc main_arg13)) (m ((c.tc : Thread nD τ).loc main_arg14))) :
    V15 m ρ c main_v115 = Cert.ReferenceIdeal.ReadP.val_main_v163 (F := Ideal) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg13)) (m ((c.tc : Thread nD τ).loc main_arg14)) := by
  have es := W14_arg4 m ρ c
  have et := W14_arg5 m ρ c
  dsimp only [V15, W15]
  generalize W14 m ρ c = V at h1 es et ⊢
  simp only [hostOps1]
  after_results_simp
  rw [h1, es, et]
  simp only [extf_ideal]
  simp only [Cert.ReferenceIdeal.ReadP.val_main_v163, Cert.ReferenceIdeal.ReadP.val_main_v162, Cert.ReferenceIdeal.ReadP.val_main_v161, Cert.ReferenceIdeal.ReadP.val_main_cst_51, Cert.ReferenceIdeal.ReadP.val_main_v160, Cert.ReferenceIdeal.ReadP.val_main_v159, Cert.ReferenceIdeal.ReadP.val_main_v158, Cert.ReferenceIdeal.ReadP.val_main_v157, Cert.ReferenceIdeal.ReadP.val_main_v156, Cert.ReferenceIdeal.ReadP.val_main_c_50, Cert.ReferenceIdeal.ReadP.val_main_v155, Cert.ReferenceIdeal.ReadP.val_main_v154, Cert.ReferenceIdeal.ReadP.val_main_c_49]
  try rfl

theorem V15_v15 : V15 m ρ c main_v15 = Cert.ReferenceIdeal.ReadP.val_main_v132 (F := Ideal) (m ((c.tc : Thread nD τ).loc main_arg3)) :=
  ((W15_of m ρ c main_v15 (by decide)).trans ((W14_main_v15 m ρ c).trans ((((W13_of m ρ c main_v15 (by decide)).trans ((W12_of m ρ c main_v15 (by decide)).trans ((W11_of m ρ c main_v15 (by decide)).trans ((W10_of m ρ c main_v15 (by decide)).trans ((W9_of m ρ c main_v15 (by decide)).trans ((W8_of m ρ c main_v15 (by decide)).trans ((W7_of m ρ c main_v15 (by decide)).trans (W6_of m ρ c main_v15 (by decide)))))))))).trans (deg1 m ρ c)))).trans (ref_v132_eq _).symm

theorem V15_v31 : V15 m ρ c main_v31 = Cert.ReferenceIdeal.ReadP.val_main_v166 (F := Ideal) (m ((c.tc : Thread nD τ).loc main_arg5)) :=
  ((W15_of m ρ c main_v31 (by decide)).trans ((W14_main_v31 m ρ c).trans ((((W13_of m ρ c main_v31 (by decide)).trans ((W12_of m ρ c main_v31 (by decide)).trans ((W11_of m ρ c main_v31 (by decide)).trans (W10_of m ρ c main_v31 (by decide)))))).trans (deg3 m ρ c)))).trans (ref_v166_eq _).symm

theorem V15_arg15 : V15 m ρ c main_arg15 = (m ((c.tc : Thread nD τ).loc main_arg15)) := W15_arg15 m ρ c

theorem V15_arg17 : V15 m ρ c main_arg17 = (m ((c.tc : Thread nD τ).loc main_arg17)) := W15_arg17 m ρ c

/-- A bias vector as a row. -/
theorem V15_v116 : V15 m ρ c main_v116 = Cert.ReferenceIdeal.ReadP.val_main_v136 (F := Ideal) (m ((c.tc : Thread nD τ).loc main_arg16)) := by
  have ea := W14_arg16 m ρ c
  dsimp only [V15, W15]
  generalize W14 m ρ c = V at ea ⊢
  simp only [hostOps1]
  after_results_simp
  rw [ea]
  generalize (m ((c.tc : Thread nD τ).loc main_arg16)) = x
  show shapeCast (⟨2, ![1, 128]⟩ : Shape) x shapeCasts_S128_S1x128 = _
  simp only [Cert.ReferenceIdeal.ReadP.val_main_v136]
  exact shapeCast_row_eq_broadcastInDim (n := 128) _ _ _

/-- A bias vector as a row. -/
theorem V15_v117 : V15 m ρ c main_v117 = Cert.ReferenceIdeal.ReadP.val_main_v170 (F := Ideal) (m ((c.tc : Thread nD τ).loc main_arg18)) := by
  have ea := W14_arg18 m ρ c
  dsimp only [V15, W15]
  generalize W14 m ρ c = V at ea ⊢
  simp only [hostOps1]
  after_results_simp
  rw [ea]
  generalize (m ((c.tc : Thread nD τ).loc main_arg18)) = x
  show shapeCast (⟨2, ![1, 128]⟩ : Shape) x shapeCasts_S128_S1x128 = _
  simp only [Cert.ReferenceIdeal.ReadP.val_main_v170]
  exact shapeCast_row_eq_broadcastInDim (n := 128) _ _ _

/-! ## What region 2 finds

Region 2 reads the mean of region 1's output over the nodes of each graph — the sum of the rows `arg8` assigns to
the graph, divided by the number of those rows, at least one —, the head's weights, and its biases as rows. -/

/-- The sum of region 1's rows per graph. -/
theorem pool_sum
    (h : W16 m ρ c (Proc.devRef .tc main_v118) = Cert.ReferenceIdeal.ReadP.val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) :
    W17 m ρ c (Proc.devRef .tc main_v121) = Cert.ReferenceIdeal.ReadP.val_main_v211 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  have e8 := W16_arg8 m ρ c
  dsimp only [W17]
  generalize W16 m ρ c = V at h e8 ⊢
  simp only [hostOps2]
  after_results_simp
  rw [h, e8]
  simp only [Cert.ReferenceIdeal.ReadP.val_main_v211, Cert.ReferenceIdeal.ReadP.val_main_v210, Cert.ReferenceIdeal.ReadP.val_main_v209, Cert.ReferenceIdeal.ReadP.val_main_cst_64]
  try rfl
/-- The number of rows per graph. -/
theorem pool_count : W17 m ρ c (Proc.devRef .tc main_v125) = Cert.ReferenceIdeal.ReadP.val_main_v215 (F := Ideal) (m ((c.tc : Thread nD τ).loc main_arg8)) := by
  have e8 := W16_arg8 m ρ c
  dsimp only [W17]
  generalize W16 m ρ c = V at e8 ⊢
  simp only [hostOps2]
  after_results_simp
  rw [e8]
  simp only [Cert.ReferenceIdeal.ReadP.val_main_v215, Cert.ReferenceIdeal.ReadP.val_main_v214, Cert.ReferenceIdeal.ReadP.val_main_v213, Cert.ReferenceIdeal.ReadP.val_main_v212, Cert.ReferenceIdeal.ReadP.val_main_cst_66, Cert.ReferenceIdeal.ReadP.val_main_cst_65]
  try rfl
theorem pool_one : W17 m ρ c (Proc.devRef .tc main_cst_40) = Cert.ReferenceIdeal.ReadP.val_main_cst_67 (F := Ideal) := by
  dsimp only [W17]
  generalize W16 m ρ c = V
  simp only [hostOps2]
  after_results_simp
  try rfl
/-- The number of rows per graph, at least one. -/
theorem pool_clip : W18 m ρ c (Proc.devRef .tc main_v126) = Cert.ReferenceIdeal.ReadP.val_main_v216 (F := Ideal) (m ((c.tc : Thread nD τ).loc main_arg8)) := by
  have e1 := pool_count m ρ c
  have e2 := pool_one m ρ c
  dsimp only [W18]
  generalize W17 m ρ c = V at e1 e2 ⊢
  simp only [hostOps2_1]
  after_results_simp
  simp only [TRef.toBuf, TRef.ofBuf, cast_eq]
  rw [e1, e2]
  simp only [Cert.ReferenceIdeal.ReadP.val_main_v216, Cert.ReferenceIdeal.ReadP.val_main_call15_v1, Cert.ReferenceIdeal.ReadP.val_main_call15_v0]
  try rfl
/-- The mean per graph. -/
theorem V19_v129
    (h : W16 m ρ c (Proc.devRef .tc main_v118) = Cert.ReferenceIdeal.ReadP.val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) :
    V19 m ρ c main_v129 = Cert.ReferenceIdeal.ReadP.val_main_v219 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  have e1 : W18 m ρ c (Proc.devRef .tc main_v121) = _ := (W18_of m ρ c main_v121 (by decide)).trans (pool_sum m ρ c h)
  have e2 := pool_clip m ρ c
  dsimp only [V19, W19]
  generalize W18 m ρ c = V at e1 e2 ⊢
  simp only [hostOps2_2]
  after_results_simp
  rw [e1, e2]
  simp only [Cert.ReferenceIdeal.ReadP.val_main_v219, Cert.ReferenceIdeal.ReadP.val_main_v218, Cert.ReferenceIdeal.ReadP.val_main_v217]
  try rfl

theorem V19_arg21 : V19 m ρ c main_arg21 = (m ((c.tc : Thread nD τ).loc main_arg21)) := W19_arg21 m ρ c

theorem V19_arg23 : V19 m ρ c main_arg23 = (m ((c.tc : Thread nD τ).loc main_arg23)) := W19_arg23 m ρ c

/-- A bias vector as a row. -/
theorem V19_v130 : V19 m ρ c main_v130 = Cert.ReferenceIdeal.ReadP.val_main_v221 (F := Ideal) (m ((c.tc : Thread nD τ).loc main_arg22)) := by
  have ea := W18_arg22 m ρ c
  dsimp only [V19, W19]
  generalize W18 m ρ c = V at ea ⊢
  simp only [hostOps2_2]
  after_results_simp
  rw [ea]
  generalize (m ((c.tc : Thread nD τ).loc main_arg22)) = x
  show shapeCast (⟨2, ![1, 128]⟩ : Shape) x shapeCasts_S128_S1x128 = _
  simp only [Cert.ReferenceIdeal.ReadP.val_main_v221]
  exact shapeCast_row_eq_broadcastInDim (n := 128) _ _ _

/-- A bias vector as a row. -/
theorem V19_v131 : V19 m ρ c main_v131 = Cert.ReferenceIdeal.ReadP.val_main_v226 (F := Ideal) (m ((c.tc : Thread nD τ).loc main_arg24)) := by
  have ea := W18_arg24 m ρ c
  dsimp only [V19, W19]
  generalize W18 m ρ c = V at ea ⊢
  simp only [hostOps2_2]
  after_results_simp
  rw [ea]
  generalize (m ((c.tc : Thread nD τ).loc main_arg24)) = x
  show shapeCast (⟨2, ![1, 1]⟩ : Shape) x shapeCasts_S1_S1x1 = _
  simp only [Cert.ReferenceIdeal.ReadP.val_main_v226]
  exact shapeCast_row_eq_broadcastInDim (n := 1) _ _ _

end Cert.KernelIdeal.Glue

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«119022_j89644557402629_2_alg».proof.Proof.LibDense
import proofs.«119022_j89644557402629_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.Spec.lean ====
/-
  The layers of a two-layer heterogeneous graph network on the extended reals, as functions of rank-2 arrays of any
  extents.

  One relation's projection is  proj A s W b = (rows of A scaled by the column s) · W + b,  the one-row bias b added
  to every row: the aggregate A of a relation, the inverse square root s of the destination degrees, the weights W.
  A layer's output at a destination type is the rectified sum of the projections of the relations that end there; the
  first layer's output is scaled once more, row by row, by the source-degree factor of the next layer's relation.
  The readout is  (max (X W1 + b1, 0)) W2 + b2.

  Each function is spelled twice: by the vector unit (shape casts that change nothing, a column or a row broadcast
  along the other axis, operands truncated to a narrower format — the identity on the extended reals —, a matmul
  into a zero accumulator, a maximum with a zero splat) and by the host (a vector broadcast to a column or a row and
  then to the whole array, a dot product, a maximum with a broadcast scalar zero).  Both spellings are the function.
  Every function is row-local: the entry at (p, q) reads row p of the aggregates and of the factors only, which is
  what reading a block of rows against the whole array needs.
-/
import proofs.«119022_j89644557402629_2_alg».proof.Proof.LibRowScale

noncomputable section

open scoped BigOperators

namespace Cert.Hetero

open Idealize.ShloMosaic Idealize.ShloMosaic.ValueIdx Cert.Dense Cert.RowScale

/-- A change to a narrower float format is the identity on the extended reals. -/
theorem truncf_id {s : Shape} {φ ψ : FTy} (x : FVec Ideal s φ) (h : ψ.bits < φ.bits) : truncf ψ x h = x := rfl

/-- A change to a wider float format is the identity on the extended reals. -/
theorem extf_id {s : Shape} {φ ψ : FTy} (x : FVec Ideal s φ) (h : φ.bits < ψ.bits) : extf ψ x h = x := rfl

/-- A one-row bias added to every row. -/
def addBias {M N : ℕ} (X : Mat M N) (b : Mat 1 N) : Mat M N := fun i => X i + b (ix2 (0 : Fin 1) (c1 i))

/-- The entrywise maximum with zero. -/
def relu {M N : ℕ} (X : Mat M N) : Mat M N := fun i => max (X i) 0

/-- The entrywise sum. -/
def add {M N : ℕ} (X Y : Mat M N) : Mat M N := fun i => X i + Y i

/-- One relation's projection: rows scaled by the degree factor, times the weights, plus the bias. -/
def proj {M K N : ℕ} (A : Mat M K) (s : Mat M 1) (W : Mat K N) (b : Mat 1 N) : Mat M N :=
  addBias (mm (scaleRows A s) W) b

theorem proj_apply {M K N : ℕ} (A : Mat M K) (s : Mat M 1) (W : Mat K N) (b : Mat 1 N) (p : Fin M) (q : Fin N) :
    proj A s W b (ix2 p q)
      = (∑ k : Fin K, A (ix2 p k) * s (ix2 p (0 : Fin 1)) * W (ix2 k q)) + b (ix2 (0 : Fin 1) q) := rfl

/-- The projection at (p, q) reads row p of the aggregate, the factor of row p, column q of the weights and entry q of
    the bias. -/
theorem proj_rows {M M' K N : ℕ} (A : Mat M K) (s : Mat M 1) (W : Mat K N) (b : Mat 1 N)
    (A' : Mat M' K) (s' : Mat M' 1) (W' : Mat K N) (b' : Mat 1 N) (p : Fin M) (p' : Fin M') (q : Fin N)
    (hA : ∀ k, A' (ix2 p' k) = A (ix2 p k)) (hs : s' (ix2 p' (0 : Fin 1)) = s (ix2 p (0 : Fin 1)))
    (hW : ∀ k, W' (ix2 k q) = W (ix2 k q)) (hb : b' (ix2 (0 : Fin 1) q) = b (ix2 (0 : Fin 1) q)) :
    proj A' s' W' b' (ix2 p' q) = proj A s W b (ix2 p q) := by
  simp only [proj_apply, hA, hs, hW, hb]

/-- A layer fed by two relations: the rectified sum of their projections. -/
def lay2 {M K N : ℕ} (A1 : Mat M K) (s1 : Mat M 1) (W1 : Mat K N) (b1 : Mat 1 N)
    (A2 : Mat M K) (s2 : Mat M 1) (W2 : Mat K N) (b2 : Mat 1 N) : Mat M N :=
  relu (add (proj A1 s1 W1 b1) (proj A2 s2 W2 b2))

theorem lay2_apply {M K N : ℕ} (A1 : Mat M K) (s1 : Mat M 1) (W1 : Mat K N) (b1 : Mat 1 N)
    (A2 : Mat M K) (s2 : Mat M 1) (W2 : Mat K N) (b2 : Mat 1 N) (p : Fin M) (q : Fin N) :
    lay2 A1 s1 W1 b1 A2 s2 W2 b2 (ix2 p q) = max (proj A1 s1 W1 b1 (ix2 p q) + proj A2 s2 W2 b2 (ix2 p q)) 0 := rfl

theorem lay2_rows {M M' K N : ℕ} (A1 : Mat M K) (s1 : Mat M 1) (W1 : Mat K N) (b1 : Mat 1 N)
    (A2 : Mat M K) (s2 : Mat M 1) (W2 : Mat K N) (b2 : Mat 1 N)
    (A1' : Mat M' K) (s1' : Mat M' 1) (W1' : Mat K N) (b1' : Mat 1 N)
    (A2' : Mat M' K) (s2' : Mat M' 1) (W2' : Mat K N) (b2' : Mat 1 N) (p : Fin M) (p' : Fin M') (q : Fin N)
    (hA1 : ∀ k, A1' (ix2 p' k) = A1 (ix2 p k)) (hs1 : s1' (ix2 p' (0 : Fin 1)) = s1 (ix2 p (0 : Fin 1)))
    (hW1 : ∀ k, W1' (ix2 k q) = W1 (ix2 k q)) (hb1 : b1' (ix2 (0 : Fin 1) q) = b1 (ix2 (0 : Fin 1) q))
    (hA2 : ∀ k, A2' (ix2 p' k) = A2 (ix2 p k)) (hs2 : s2' (ix2 p' (0 : Fin 1)) = s2 (ix2 p (0 : Fin 1)))
    (hW2 : ∀ k, W2' (ix2 k q) = W2 (ix2 k q)) (hb2 : b2' (ix2 (0 : Fin 1) q) = b2 (ix2 (0 : Fin 1) q)) :
    lay2 A1' s1' W1' b1' A2' s2' W2' b2' (ix2 p' q) = lay2 A1 s1 W1 b1 A2 s2 W2 b2 (ix2 p q) := by
  rw [lay2_apply, lay2_apply, proj_rows A1 s1 W1 b1 A1' s1' W1' b1' p p' q hA1 hs1 hW1 hb1,
    proj_rows A2 s2 W2 b2 A2' s2' W2' b2' p p' q hA2 hs2 hW2 hb2]

/-- The first layer at a destination fed by two relations, its rows then scaled by the next layer's source factor. -/
def lay1two {M K N : ℕ} (A1 : Mat M K) (s1 : Mat M 1) (W1 : Mat K N) (b1 : Mat 1 N)
    (A2 : Mat M K) (s2 : Mat M 1) (W2 : Mat K N) (b2 : Mat 1 N) (so : Mat M 1) : Mat M N :=
  scaleRows (lay2 A1 s1 W1 b1 A2 s2 W2 b2) so

theorem lay1two_apply {M K N : ℕ} (A1 : Mat M K) (s1 : Mat M 1) (W1 : Mat K N) (b1 : Mat 1 N)
    (A2 : Mat M K) (s2 : Mat M 1) (W2 : Mat K N) (b2 : Mat 1 N) (so : Mat M 1) (p : Fin M) (q : Fin N) :
    lay1two A1 s1 W1 b1 A2 s2 W2 b2 so (ix2 p q)
      = lay2 A1 s1 W1 b1 A2 s2 W2 b2 (ix2 p q) * so (ix2 p (0 : Fin 1)) := rfl

/-- The first layer at a destination fed by one relation, its rows then scaled by the next layer's source factor. -/
def lay1one {M K N : ℕ} (A : Mat M K) (s : Mat M 1) (W : Mat K N) (b : Mat 1 N) (so : Mat M 1) : Mat M N :=
  scaleRows (relu (proj A s W b)) so

theorem lay1one_apply {M K N : ℕ} (A : Mat M K) (s : Mat M 1) (W : Mat K N) (b : Mat 1 N) (so : Mat M 1)
    (p : Fin M) (q : Fin N) :
    lay1one A s W b so (ix2 p q) = max (proj A s W b (ix2 p q)) 0 * so (ix2 p (0 : Fin 1)) := rfl

theorem lay1one_rows {M M' K N : ℕ} (A : Mat M K) (s : Mat M 1) (W : Mat K N) (b : Mat 1 N) (so : Mat M 1)
    (A' : Mat M' K) (s' : Mat M' 1) (W' : Mat K N) (b' : Mat 1 N) (so' : Mat M' 1) (p : Fin M) (p' : Fin M') (q : Fin N)
    (hA : ∀ k, A' (ix2 p' k) = A (ix2 p k)) (hs : s' (ix2 p' (0 : Fin 1)) = s (ix2 p (0 : Fin 1)))
    (hW : ∀ k, W' (ix2 k q) = W (ix2 k q)) (hb : b' (ix2 (0 : Fin 1) q) = b (ix2 (0 : Fin 1) q))
    (hso : so' (ix2 p' (0 : Fin 1)) = so (ix2 p (0 : Fin 1))) :
    lay1one A' s' W' b' so' (ix2 p' q) = lay1one A s W b so (ix2 p q) := by
  rw [lay1one_apply, lay1one_apply, proj_rows A s W b A' s' W' b' p p' q hA hs hW hb, hso]

/-- The readout: a rectified dense layer followed by a dense layer. -/
def readout {M K N P : ℕ} (X : Mat M K) (W1 : Mat K N) (b1 : Mat 1 N) (W2 : Mat N P) (b2 : Mat 1 P) : Mat M P :=
  addBias (mm (relu (addBias (mm X W1) b1)) W2) b2

/-! ## The vector unit's spellings -/

/-- A row broadcast to every row and added. -/
theorem vecAddBias {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addBias X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The maximum with a zero splat. -/
theorem vecRelu {M N : ℕ} (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = _
  rw [Ideal.ofBits_zero_f32]
  rfl

/-- The entrywise sum. -/
theorem vecAdd {M N : ℕ} (X Y : FVec Ideal ⟨2, ![M, N]⟩ .f32) : addf X Y = add X Y := rfl

/-! ## The host's spellings -/

/-- A vector broadcast to one row, that row to every row, and added. -/
theorem hostAddBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addBias X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The maximum with a broadcast scalar zero. -/
theorem hostRelu {M N : ℕ} (X : FVec Ideal ⟨2, ![M, N]⟩ .f32)
    (h0 : (⟨0, ![]⟩ : Shape).BroadcastsInDim ⟨2, ![M, N]⟩ ![]) :
    maximumf X (broadcastInDim ⟨2, ![M, N]⟩ ![] h0 (constant (F := Ideal) ⟨0, ![]⟩ .f32 0x00000000#32)) = relu X := by
  funext i
  show max (X i) (broadcastInDim ⟨2, ![M, N]⟩ ![] h0 (constant (F := Ideal) ⟨0, ![]⟩ .f32 0x00000000#32) i) = _
  rw [broadcastInDim_apply ![] h0 _ i ix0 (fun a => a.elim0)]
  show max (X i) (Ideal.ofBits .f32 0x00000000#32) = _
  rw [Ideal.ofBits_zero_f32]
  rfl

end Cert.Hetero

end
-- ==== Proof.Region0.lean ====
/-
  The first layer's kernel: what its two output arrays hold after the run.

  The grid has 25 points; point t stages rows 2000 t … 2000 t + 1999 of the three aggregates and of the five degree
  columns, the whole of the three weight matrices and of the three one-row biases, and writes back rows
  2000 t … 2000 t + 1999 of both outputs.  The first output is the two-relation layer of its blocks with its rows
  scaled by a source-degree column, the second the one-relation layer scaled likewise.  Both are row-local, so each
  block written is the same rows of the layer of the whole arrays, and the 25 blocks tile the 50000 rows.
-/
import proofs.«119022_j89644557402629_2_alg».proof.Proof.Gen.KernelIdeal.Frame
import proofs.«119022_j89644557402629_2_alg».proof.Proof.Spec

set_option maxRecDepth 16384

noncomputable section

namespace Cert.KernelIdeal.LayerOne

open Idealize.ShloMosaic Idealize.ShloMosaic.TcCoe Idealize.SL.Sem Idealize.ShloMosaic.ValueIdx
open Cert.KernelIdeal Cert.KernelIdeal.Gen Cert.Dense Cert.RowScale Cert.Hetero

variable (V : (c : Dev nD) → (b : Ref sig .tc) → Buf (Elt Ideal) ((c : Thread nD τ).loc b))

theorem hz : (![0, 0] : Fin 2 → Nat) = fun _ => 0 := funext fun a => by fin_cases a <;> rfl

/-- The two-relation layer with scaled rows, at (p, q), reads row p of its aggregates and factors. -/
theorem lay1two_rows {M M' K N : ℕ} (A1 : Mat M K) (s1 : Mat M 1) (W1 : Mat K N) (b1 : Mat 1 N)
    (A2 : Mat M K) (s2 : Mat M 1) (W2 : Mat K N) (b2 : Mat 1 N) (so : Mat M 1)
    (A1' : Mat M' K) (s1' : Mat M' 1) (W1' : Mat K N) (b1' : Mat 1 N)
    (A2' : Mat M' K) (s2' : Mat M' 1) (W2' : Mat K N) (b2' : Mat 1 N) (so' : Mat M' 1) (p : Fin M) (p' : Fin M') (q : Fin N)
    (hA1 : ∀ k, A1' (ix2 p' k) = A1 (ix2 p k)) (hs1 : s1' (ix2 p' (0 : Fin 1)) = s1 (ix2 p (0 : Fin 1)))
    (hW1 : ∀ k, W1' (ix2 k q) = W1 (ix2 k q)) (hb1 : b1' (ix2 (0 : Fin 1) q) = b1 (ix2 (0 : Fin 1) q))
    (hA2 : ∀ k, A2' (ix2 p' k) = A2 (ix2 p k)) (hs2 : s2' (ix2 p' (0 : Fin 1)) = s2 (ix2 p (0 : Fin 1)))
    (hW2 : ∀ k, W2' (ix2 k q) = W2 (ix2 k q)) (hb2 : b2' (ix2 (0 : Fin 1) q) = b2 (ix2 (0 : Fin 1) q))
    (hso : so' (ix2 p' (0 : Fin 1)) = so (ix2 p (0 : Fin 1))) :
    lay1two A1' s1' W1' b1' A2' s2' W2' b2' so' (ix2 p' q) = lay1two A1 s1 W1 b1 A2 s2 W2 b2 so (ix2 p q) := by
  rw [lay1two_apply, lay1two_apply,
    lay2_rows A1 s1 W1 b1 A2 s2 W2 b2 A1' s1' W1' b1' A2' s2' W2' b2' p p' q hA1 hs1 hW1 hb1 hA2 hs2 hW2 hb2, hso]

/-- The first output's arithmetic: the two-relation layer of the loaded blocks, rows scaled by the loaded column. -/
theorem pay14_eq (x0 : Vec Ideal S2000x128 .f32) (x1 : Vec Ideal S2000x1 .f32) (x2 : Vec Ideal S128x128 .f32)
    (x3 : Vec Ideal S1x128 .f32) (x4 : Vec Ideal S2000x128 .f32) (x5 : Vec Ideal S2000x1 .f32)
    (x6 : Vec Ideal S128x128 .f32) (x7 : Vec Ideal S1x128 .f32) (x12 : Vec Ideal S2000x1 .f32) :
    k0_pay1 (k0_pay3 x0 x1 x2 x3 x4 x5 x6 x7) x12 = lay1two x0 x1 x2 x3 x4 x5 x6 x7 x12 := by
  unfold k0_pay1 k0_pay3
  simp only [shapeCast_self, truncf_id, vecScaleRows,
    matmul_zero_eq_mm dot_S2000x128_S128x128_S2000x128_1_0_0_1_n_n rfl rfl rfl rfl rfl rfl none,
    vecAddBias, vecRelu]
  rfl

/-- The second output's arithmetic: the one-relation layer of the loaded blocks, rows scaled by the loaded column. -/
theorem pay15_eq (x8 : Vec Ideal S2000x128 .f32) (x9 : Vec Ideal S2000x1 .f32) (x10 : Vec Ideal S128x128 .f32)
    (x11 : Vec Ideal S1x128 .f32) (x13 : Vec Ideal S2000x1 .f32) :
    k0_pay2 (k0_pay4 x8) (k0_pay5 x9) x10 x11 x13 = lay1one x8 x9 x10 x11 x13 := by
  unfold k0_pay2 k0_pay4 k0_pay5
  simp only [shapeCast_self, truncf_id, vecScaleRows,
    matmul_zero_eq_mm dot_S2000x128_S128x128_S2000x128_1_0_0_1_n_n rfl rfl rfl rfl rfl rfl none,
    vecAddBias, vecRelu]
  rfl

/-! ## Which block each window stages at a point -/

theorem pt0 : ∀ t : Fin cfg0.N, win0_0.index t (0 : Fin 2) = t.val ∧ win0_0.index t (1 : Fin 2) = 0 :=
  (by decide +kernel : ∀ t : Fin grid0.N, _)
theorem pt1 : ∀ t : Fin cfg0.N, win0_1.index t (0 : Fin 2) = t.val ∧ win0_1.index t (1 : Fin 2) = 0 :=
  (by decide +kernel : ∀ t : Fin grid0.N, _)
theorem pt2 : ∀ t : Fin cfg0.N, win0_2.index t (0 : Fin 2) = 0 ∧ win0_2.index t (1 : Fin 2) = 0 :=
  (by decide +kernel : ∀ t : Fin grid0.N, _)
theorem pt3 : ∀ t : Fin cfg0.N, win0_3.index t (0 : Fin 2) = 0 ∧ win0_3.index t (1 : Fin 2) = 0 :=
  (by decide +kernel : ∀ t : Fin grid0.N, _)
theorem pt4 : ∀ t : Fin cfg0.N, win0_4.index t (0 : Fin 2) = t.val ∧ win0_4.index t (1 : Fin 2) = 0 :=
  (by decide +kernel : ∀ t : Fin grid0.N, _)
theorem pt5 : ∀ t : Fin cfg0.N, win0_5.index t (0 : Fin 2) = t.val ∧ win0_5.index t (1 : Fin 2) = 0 :=
  (by decide +kernel : ∀ t : Fin grid0.N, _)
theorem pt6 : ∀ t : Fin cfg0.N, win0_6.index t (0 : Fin 2) = 0 ∧ win0_6.index t (1 : Fin 2) = 0 :=
  (by decide +kernel : ∀ t : Fin grid0.N, _)
theorem pt7 : ∀ t : Fin cfg0.N, win0_7.index t (0 : Fin 2) = 0 ∧ win0_7.index t (1 : Fin 2) = 0 :=
  (by decide +kernel : ∀ t : Fin grid0.N, _)
theorem pt8 : ∀ t : Fin cfg0.N, win0_8.index t (0 : Fin 2) = t.val ∧ win0_8.index t (1 : Fin 2) = 0 :=
  (by decide +kernel : ∀ t : Fin grid0.N, _)
theorem pt9 : ∀ t : Fin cfg0.N, win0_9.index t (0 : Fin 2) = t.val ∧ win0_9.index t (1 : Fin 2) = 0 :=
  (by decide +kernel : ∀ t : Fin grid0.N, _)
theorem pt10 : ∀ t : Fin cfg0.N, win0_10.index t (0 : Fin 2) = 0 ∧ win0_10.index t (1 : Fin 2) = 0 :=
  (by decide +kernel : ∀ t : Fin grid0.N, _)
theorem pt11 : ∀ t : Fin cfg0.N, win0_11.index t (0 : Fin 2) = 0 ∧ win0_11.index t (1 : Fin 2) = 0 :=
  (by decide +kernel : ∀ t : Fin grid0.N, _)
theorem pt12 : ∀ t : Fin cfg0.N, win0_12.index t (0 : Fin 2) = t.val ∧ win0_12.index t (1 : Fin 2) = 0 :=
  (by decide +kernel : ∀ t : Fin grid0.N, _)
theorem pt13 : ∀ t : Fin cfg0.N, win0_13.index t (0 : Fin 2) = t.val ∧ win0_13.index t (1 : Fin 2) = 0 :=
  (by decide +kernel : ∀ t : Fin grid0.N, _)
theorem pt14 : ∀ t : Fin cfg0.N, win0_14.index t (0 : Fin 2) = t.val ∧ win0_14.index t (1 : Fin 2) = 0 :=
  (by decide +kernel : ∀ t : Fin grid0.N, _)
theorem pt15 : ∀ t : Fin cfg0.N, win0_15.index t (0 : Fin 2) = t.val ∧ win0_15.index t (1 : Fin 2) = 0 :=
  (by decide +kernel : ∀ t : Fin grid0.N, _)

theorem point_lt (t : Fin cfg0.N) : t.val < 25 := Nat.lt_of_lt_of_eq t.isLt N_0

/-! ## The blocks a point stages, read where they sit in their arrays -/

theorem read0 (c : Dev nD) (t : Fin cfg0.N) (r : Fin 2000) (k : Fin 128) (hp : t.val * 2000 + r.val < 50000) :
    iblk0 V c 0 t (ix2 r k) = V c main_v61 (ix2 ⟨t.val * 2000 + r.val, hp⟩ k) := by
  obtain ⟨e0, e1⟩ := pt0 t
  show V c main_v61 (((cfg0.win 0).blk t).view.emb (ix2 r k)) = _
  refine congrArg (V c main_v61) (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * k.val = k.val; omega

theorem read1 (c : Dev nD) (t : Fin cfg0.N) (r : Fin 2000) (hp : t.val * 2000 + r.val < 50000) :
    iblk0 V c 1 t (ix2 r (0 : Fin 1)) = V c main_v15 (ix2 ⟨t.val * 2000 + r.val, hp⟩ (0 : Fin 1)) := by
  obtain ⟨e0, e1⟩ := pt1 t
  show V c main_v15 (((cfg0.win 1).blk t).view.emb (ix2 r (0 : Fin 1))) = _
  refine congrArg (V c main_v15) (funext fun a => Fin.ext ?_)
  match a with
  | ⟨0, _⟩ => show win0_1.index t (0 : Fin 2) * 2000 + 1 * r.val = t.val * 2000 + r.val; omega
  | ⟨1, _⟩ => show win0_1.index t (1 : Fin 2) * 1 + 1 * 0 = 0; omega

theorem read2 (c : Dev nD) (t : Fin cfg0.N) (k : Fin 128) (q : Fin 128) :
    iblk0 V c 2 t (ix2 k q) = V c main_arg9 (ix2 k q) := by
  obtain ⟨e0, e1⟩ := pt2 t
  show V c main_arg9 (((cfg0.win 2).blk t).view.emb (ix2 k q)) = _
  refine congrArg (V c main_arg9) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read3 (c : Dev nD) (t : Fin cfg0.N) (q : Fin 128) :
    iblk0 V c 3 t (ix2 (0 : Fin 1) q) = V c main_v90 (ix2 (0 : Fin 1) q) := by
  obtain ⟨e0, e1⟩ := pt3 t
  show V c main_v90 (((cfg0.win 3).blk t).view.emb (ix2 (0 : Fin 1) q)) = _
  refine congrArg (V c main_v90) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

theorem read4 (c : Dev nD) (t : Fin cfg0.N) (r : Fin 2000) (k : Fin 128) (hp : t.val * 2000 + r.val < 50000) :
    iblk0 V c 4 t (ix2 r k) = V c main_v75 (ix2 ⟨t.val * 2000 + r.val, hp⟩ k) := by
  obtain ⟨e0, e1⟩ := pt4 t
  show V c main_v75 (((cfg0.win 4).blk t).view.emb (ix2 r k)) = _
  refine congrArg (V c main_v75) (funext fun a => Fin.ext ?_)
  match a with
  | ⟨0, _⟩ => show win0_4.index t (0 : Fin 2) * 2000 + 1 * r.val = t.val * 2000 + r.val; omega
  | ⟨1, _⟩ => show win0_4.index t (1 : Fin 2) * 128 + 1 * k.val = k.val; omega

theorem read5 (c : Dev nD) (t : Fin cfg0.N) (r : Fin 2000) (hp : t.val * 2000 + r.val < 50000) :
    iblk0 V c 5 t (ix2 r (0 : Fin 1)) = V c main_v31 (ix2 ⟨t.val * 2000 + r.val, hp⟩ (0 : Fin 1)) := by
  obtain ⟨e0, e1⟩ := pt5 t
  show V c main_v31 (((cfg0.win 5).blk t).view.emb (ix2 r (0 : Fin 1))) = _
  refine congrArg (V c main_v31) (funext fun a => Fin.ext ?_)
  match a with
  | ⟨0, _⟩ => show win0_5.index t (0 : Fin 2) * 2000 + 1 * r.val = t.val * 2000 + r.val; omega
  | ⟨1, _⟩ => show win0_5.index t (1 : Fin 2) * 1 + 1 * 0 = 0; omega

theorem read6 (c : Dev nD) (t : Fin cfg0.N) (k : Fin 128) (q : Fin 128) :
    iblk0 V c 6 t (ix2 k q) = V c main_arg11 (ix2 k q) := by
  obtain ⟨e0, e1⟩ := pt6 t
  show V c main_arg11 (((cfg0.win 6).blk t).view.emb (ix2 k q)) = _
  refine congrArg (V c main_arg11) (funext fun a => Fin.ext ?_)
  match a with
  | ⟨0, _⟩ => show win0_6.index t (0 : Fin 2) * 128 + 1 * k.val = k.val; omega
  | ⟨1, _⟩ => show win0_6.index t (1 : Fin 2) * 128 + 1 * q.val = q.val; omega

theorem read7 (c : Dev nD) (t : Fin cfg0.N) (q : Fin 128) :
    iblk0 V c 7 t (ix2 (0 : Fin 1) q) = V c main_v91 (ix2 (0 : Fin 1) q) := by
  obtain ⟨e0, e1⟩ := pt7 t
  show V c main_v91 (((cfg0.win 7).blk t).view.emb (ix2 (0 : Fin 1) q)) = _
  refine congrArg (V c main_v91) (funext fun a => Fin.ext ?_)
  match a with
  | ⟨0, _⟩ => show win0_7.index t (0 : Fin 2) * 1 + 1 * 0 = 0; omega
  | ⟨1, _⟩ => show win0_7.index t (1 : Fin 2) * 128 + 1 * q.val = q.val; omega

theorem read8 (c : Dev nD) (t : Fin cfg0.N) (r : Fin 2000) (k : Fin 128) (hp : t.val * 2000 + r.val < 50000) :
    iblk0 V c 8 t (ix2 r k) = V c main_v89 (ix2 ⟨t.val * 2000 + r.val, hp⟩ k) := by
  obtain ⟨e0, e1⟩ := pt8 t
  show V c main_v89 (((cfg0.win 8).blk t).view.emb (ix2 r k)) = _
  refine congrArg (V c main_v89) (funext fun a => Fin.ext ?_)
  match a with
  | ⟨0, _⟩ => show win0_8.index t (0 : Fin 2) * 2000 + 1 * r.val = t.val * 2000 + r.val; omega
  | ⟨1, _⟩ => show win0_8.index t (1 : Fin 2) * 128 + 1 * k.val = k.val; omega

theorem read9 (c : Dev nD) (t : Fin cfg0.N) (r : Fin 2000) (hp : t.val * 2000 + r.val < 50000) :
    iblk0 V c 9 t (ix2 r (0 : Fin 1)) = V c main_v47 (ix2 ⟨t.val * 2000 + r.val, hp⟩ (0 : Fin 1)) := by
  obtain ⟨e0, e1⟩ := pt9 t
  show V c main_v47 (((cfg0.win 9).blk t).view.emb (ix2 r (0 : Fin 1))) = _
  refine congrArg (V c main_v47) (funext fun a => Fin.ext ?_)
  match a with
  | ⟨0, _⟩ => show win0_9.index t (0 : Fin 2) * 2000 + 1 * r.val = t.val * 2000 + r.val; omega
  | ⟨1, _⟩ => show win0_9.index t (1 : Fin 2) * 1 + 1 * 0 = 0; omega

theorem read10 (c : Dev nD) (t : Fin cfg0.N) (k : Fin 128) (q : Fin 128) :
    iblk0 V c 10 t (ix2 k q) = V c main_arg13 (ix2 k q) := by
  obtain ⟨e0, e1⟩ := pt10 t
  show V c main_arg13 (((cfg0.win 10).blk t).view.emb (ix2 k q)) = _
  refine congrArg (V c main_arg13) (funext fun a => Fin.ext ?_)
  match a with
  | ⟨0, _⟩ => show win0_10.index t (0 : Fin 2) * 128 + 1 * k.val = k.val; omega
  | ⟨1, _⟩ => show win0_10.index t (1 : Fin 2) * 128 + 1 * q.val = q.val; omega

theorem read11 (c : Dev nD) (t : Fin cfg0.N) (q : Fin 128) :
    iblk0 V c 11 t (ix2 (0 : Fin 1) q) = V c main_v92 (ix2 (0 : Fin 1) q) := by
  obtain ⟨e0, e1⟩ := pt11 t
  show V c main_v92 (((cfg0.win 11).blk t).view.emb (ix2 (0 : Fin 1) q)) = _
  refine congrArg (V c main_v92) (funext fun a => Fin.ext ?_)
  match a with
  | ⟨0, _⟩ => show win0_11.index t (0 : Fin 2) * 1 + 1 * 0 = 0; omega
  | ⟨1, _⟩ => show win0_11.index t (1 : Fin 2) * 128 + 1 * q.val = q.val; omega

theorem read12 (c : Dev nD) (t : Fin cfg0.N) (r : Fin 2000) (hp : t.val * 2000 + r.val < 50000) :
    iblk0 V c 12 t (ix2 r (0 : Fin 1)) = V c main_v7 (ix2 ⟨t.val * 2000 + r.val, hp⟩ (0 : Fin 1)) := by
  obtain ⟨e0, e1⟩ := pt12 t
  show V c main_v7 (((cfg0.win 12).blk t).view.emb (ix2 r (0 : Fin 1))) = _
  refine congrArg (V c main_v7) (funext fun a => Fin.ext ?_)
  match a with
  | ⟨0, _⟩ => show win0_12.index t (0 : Fin 2) * 2000 + 1 * r.val = t.val * 2000 + r.val; omega
  | ⟨1, _⟩ => show win0_12.index t (1 : Fin 2) * 1 + 1 * 0 = 0; omega

theorem read13 (c : Dev nD) (t : Fin cfg0.N) (r : Fin 2000) (hp : t.val * 2000 + r.val < 50000) :
    iblk0 V c 13 t (ix2 r (0 : Fin 1)) = V c main_v23 (ix2 ⟨t.val * 2000 + r.val, hp⟩ (0 : Fin 1)) := by
  obtain ⟨e0, e1⟩ := pt13 t
  show V c main_v23 (((cfg0.win 13).blk t).view.emb (ix2 r (0 : Fin 1))) = _
  refine congrArg (V c main_v23) (funext fun a => Fin.ext ?_)
  match a with
  | ⟨0, _⟩ => show win0_13.index t (0 : Fin 2) * 2000 + 1 * r.val = t.val * 2000 + r.val; omega
  | ⟨1, _⟩ => show win0_13.index t (1 : Fin 2) * 1 + 1 * 0 = 0; omega

/-- What point t writes back to output 14 is rows 2000 t … 2000 t + 1999 of the layer of the whole arrays. -/
theorem flushed14_eq (c : Dev nD) (t : Fin cfg0.N) :
    (dat0 V c).flushed 14 t = ((cfg0.win 14).blk t).view.read (Elt Ideal)
      (lay1two (V c main_v61) (V c main_v15) (V c main_arg9) (V c main_v90) (V c main_v75) (V c main_v31) (V c main_arg11) (V c main_v91) (V c main_v7)) := by
  show (cfg0.win 14).cut (grid0.coords t) ((dat0 V c).after 14 t) = _
  rw [after0_14]
  unfold out0_14
  rw [View.canon_unit_zero hz]
  simp only [View.ld_unit_zero (S := S2000x128) hz, View.ld_unit_zero (S := S2000x1) hz,
    View.ld_unit_zero (S := S128x128) hz, View.ld_unit_zero (S := S1x128) hz]
  rw [pay14_eq]
  obtain ⟨e0, e1⟩ := pt14 t
  have ht := point_lt t
  funext j
  obtain ⟨r, q, rfl⟩ : ∃ (r : Fin 2000) (q : Fin 128), j = ix2 r q := ⟨j 0, j 1, eq_ix2 j⟩
  have hp : t.val * 2000 + r.val < 50000 := by have := r.isLt; omega
  have hemb : ((cfg0.win 14).blk t).view.emb (ix2 r q) = ix2 ⟨t.val * 2000 + r.val, hp⟩ q := by
    funext a; apply Fin.ext
    match a with
    | ⟨0, _⟩ => show win0_14.index t (0 : Fin 2) * 2000 + 1 * r.val = t.val * 2000 + r.val; omega
    | ⟨1, _⟩ => show win0_14.index t (1 : Fin 2) * 128 + 1 * q.val = q.val; omega
  show lay1two (iblk0 V c 0 t) (iblk0 V c 1 t) (iblk0 V c 2 t) (iblk0 V c 3 t) (iblk0 V c 4 t) (iblk0 V c 5 t) (iblk0 V c 6 t) (iblk0 V c 7 t) (iblk0 V c 12 t) (ix2 r q)
    = lay1two (V c main_v61) (V c main_v15) (V c main_arg9) (V c main_v90) (V c main_v75) (V c main_v31) (V c main_arg11) (V c main_v91) (V c main_v7) (((cfg0.win 14).blk t).view.emb (ix2 r q))
  rw [hemb]
  exact lay1two_rows (V c main_v61) (V c main_v15) (V c main_arg9) (V c main_v90) (V c main_v75) (V c main_v31) (V c main_arg11) (V c main_v91) (V c main_v7)
    (iblk0 V c 0 t) (iblk0 V c 1 t) (iblk0 V c 2 t) (iblk0 V c 3 t) (iblk0 V c 4 t) (iblk0 V c 5 t) (iblk0 V c 6 t) (iblk0 V c 7 t) (iblk0 V c 12 t) ⟨t.val * 2000 + r.val, hp⟩ r q
    (fun k => read0 V c t r k hp) (read1 V c t r hp) (fun k => read2 V c t k q) (read3 V c t q)
    (fun k => read4 V c t r k hp) (read5 V c t r hp) (fun k => read6 V c t k q) (read7 V c t q) (read12 V c t r hp)

theorem mem_blk14 (t : Fin cfg0.N) (i : S50000x128.Idx) :
    i ∈ ((cfg0.win 14).blk t).view.set ↔ ∀ a : Fin 2, win0_14.index t a * S2000x128.size a ≤ (i a).val
      ∧ (i a).val < win0_14.index t a * S2000x128.size a + S2000x128.size a := by
  show i ∈ ((View.whole main_v93_0).slice (win0_14.rect t)).set ↔ _
  rw [View.set_slice_whole, Rect.mem_set_unit]
  exact Iff.rfl

theorem cover14 (i : S50000x128.Idx) :
    ∃ t : Fin cfg0.N, (cfg0.win 14).flush t = true ∧ i ∈ ((cfg0.win 14).blk t).view.set := by
  have hi0 : (i 0).val < 50000 := (i 0).isLt
  have hi1 : (i 1).val < 128 := (i 1).isLt
  have hN : (i 0).val / 2000 < cfg0.N := Nat.lt_of_lt_of_eq (by omega : (i 0).val / 2000 < 25) N_0.symm
  obtain ⟨e0, e1⟩ := pt14 ⟨(i 0).val / 2000, hN⟩
  refine ⟨⟨(i 0).val / 2000, hN⟩, flush0_14 _, ?_⟩
  rw [mem_blk14]
  intro a
  match a with
  | ⟨0, _⟩ =>
    show win0_14.index ⟨(i 0).val / 2000, hN⟩ (0 : Fin 2) * 2000 ≤ (i 0).val
      ∧ (i 0).val < win0_14.index ⟨(i 0).val / 2000, hN⟩ (0 : Fin 2) * 2000 + 2000
    have e0' : win0_14.index ⟨(i 0).val / 2000, hN⟩ (0 : Fin 2) = (i 0).val / 2000 := e0
    omega
  | ⟨1, _⟩ =>
    show win0_14.index ⟨(i 0).val / 2000, hN⟩ (1 : Fin 2) * 128 ≤ (i 1).val
      ∧ (i 1).val < win0_14.index ⟨(i 0).val / 2000, hN⟩ (1 : Fin 2) * 128 + 128
    omega

/-- What point t writes back to output 15 is rows 2000 t … 2000 t + 1999 of the layer of the whole arrays. -/
theorem flushed15_eq (c : Dev nD) (t : Fin cfg0.N) :
    (dat0 V c).flushed 15 t = ((cfg0.win 15).blk t).view.read (Elt Ideal)
      (lay1one (V c main_v89) (V c main_v47) (V c main_arg13) (V c main_v92) (V c main_v23)) := by
  show (cfg0.win 15).cut (grid0.coords t) ((dat0 V c).after 15 t) = _
  rw [after0_15]
  unfold out0_15
  rw [View.canon_unit_zero hz]
  simp only [View.ld_unit_zero (S := S2000x128) hz, View.ld_unit_zero (S := S2000x1) hz,
    View.ld_unit_zero (S := S128x128) hz, View.ld_unit_zero (S := S1x128) hz]
  rw [pay15_eq]
  obtain ⟨e0, e1⟩ := pt15 t
  have ht := point_lt t
  funext j
  obtain ⟨r, q, rfl⟩ : ∃ (r : Fin 2000) (q : Fin 128), j = ix2 r q := ⟨j 0, j 1, eq_ix2 j⟩
  have hp : t.val * 2000 + r.val < 50000 := by have := r.isLt; omega
  have hemb : ((cfg0.win 15).blk t).view.emb (ix2 r q) = ix2 ⟨t.val * 2000 + r.val, hp⟩ q := by
    funext a; apply Fin.ext
    match a with
    | ⟨0, _⟩ => show win0_15.index t (0 : Fin 2) * 2000 + 1 * r.val = t.val * 2000 + r.val; omega
    | ⟨1, _⟩ => show win0_15.index t (1 : Fin 2) * 128 + 1 * q.val = q.val; omega
  show lay1one (iblk0 V c 8 t) (iblk0 V c 9 t) (iblk0 V c 10 t) (iblk0 V c 11 t) (iblk0 V c 13 t) (ix2 r q)
    = lay1one (V c main_v89) (V c main_v47) (V c main_arg13) (V c main_v92) (V c main_v23) (((cfg0.win 15).blk t).view.emb (ix2 r q))
  rw [hemb]
  exact lay1one_rows (V c main_v89) (V c main_v47) (V c main_arg13) (V c main_v92) (V c main_v23)
    (iblk0 V c 8 t) (iblk0 V c 9 t) (iblk0 V c 10 t) (iblk0 V c 11 t) (iblk0 V c 13 t) ⟨t.val * 2000 + r.val, hp⟩ r q
    (fun k => read8 V c t r k hp) (read9 V c t r hp) (fun k => read10 V c t k q) (read11 V c t q) (read13 V c t r hp)

theorem mem_blk15 (t : Fin cfg0.N) (i : S50000x128.Idx) :
    i ∈ ((cfg0.win 15).blk t).view.set ↔ ∀ a : Fin 2, win0_15.index t a * S2000x128.size a ≤ (i a).val
      ∧ (i a).val < win0_15.index t a * S2000x128.size a + S2000x128.size a := by
  show i ∈ ((View.whole main_v93_1).slice (win0_15.rect t)).set ↔ _
  rw [View.set_slice_whole, Rect.mem_set_unit]
  exact Iff.rfl

theorem cover15 (i : S50000x128.Idx) :
    ∃ t : Fin cfg0.N, (cfg0.win 15).flush t = true ∧ i ∈ ((cfg0.win 15).blk t).view.set := by
  have hi0 : (i 0).val < 50000 := (i 0).isLt
  have hi1 : (i 1).val < 128 := (i 1).isLt
  have hN : (i 0).val / 2000 < cfg0.N := Nat.lt_of_lt_of_eq (by omega : (i 0).val / 2000 < 25) N_0.symm
  obtain ⟨e0, e1⟩ := pt15 ⟨(i 0).val / 2000, hN⟩
  refine ⟨⟨(i 0).val / 2000, hN⟩, flush0_15 _, ?_⟩
  rw [mem_blk15]
  intro a
  match a with
  | ⟨0, _⟩ =>
    show win0_15.index ⟨(i 0).val / 2000, hN⟩ (0 : Fin 2) * 2000 ≤ (i 0).val
      ∧ (i 0).val < win0_15.index ⟨(i 0).val / 2000, hN⟩ (0 : Fin 2) * 2000 + 2000
    have e0' : win0_15.index ⟨(i 0).val / 2000, hN⟩ (0 : Fin 2) = (i 0).val / 2000 := e0
    omega
  | ⟨1, _⟩ =>
    show win0_15.index ⟨(i 0).val / 2000, hN⟩ (1 : Fin 2) * 128 ≤ (i 1).val
      ∧ (i 1).val < win0_15.index ⟨(i 0).val / 2000, hN⟩ (1 : Fin 2) * 128 + 128
    omega

/-- THE FIRST OUTPUT ARRAY after the region. -/
theorem value14 (c : Dev nD) :
    (dat0 V c).arrAt 14 cfg0.N
      = lay1two (V c main_v61) (V c main_v15) (V c main_arg9) (V c main_v90)
          (V c main_v75) (V c main_v31) (V c main_arg11) (V c main_v91) (V c main_v7) :=
  (dat0 V c).arrAt_eq_of_cover 14 _ (fun t _ => flushed14_eq V c t) cover14

/-- THE SECOND OUTPUT ARRAY after the region. -/
theorem value15 (c : Dev nD) :
    (dat0 V c).arrAt 15 cfg0.N
      = lay1one (V c main_v89) (V c main_v47) (V c main_arg13) (V c main_v92) (V c main_v23) :=
  (dat0 V c).arrAt_eq_of_cover 15 _ (fun t _ => flushed15_eq V c t) cover15

end Cert.KernelIdeal.LayerOne

end
-- ==== Proof.Region1.lean ====
/-
  The second layer's kernel: what its output array holds after the run.

  The grid has 25 points; point t stages rows 2000 t … 2000 t + 1999 of the two aggregates and of the two degree
  columns, the whole of both weight matrices and of both one-row biases, and writes back rows 2000 t … 2000 t + 1999
  of the output.  The body computes the two-relation layer of its blocks.  That layer is row-local, so the block it
  writes is the same rows of the layer of the whole arrays; the 25 blocks tile the 50000 rows, so the output array
  ends as the layer of the whole arrays.
-/
import proofs.«119022_j89644557402629_2_alg».proof.Proof.Gen.KernelIdeal.Frame
import proofs.«119022_j89644557402629_2_alg».proof.Proof.Spec

set_option maxRecDepth 16384

noncomputable section

namespace Cert.KernelIdeal.LayerTwo

open Idealize.ShloMosaic Idealize.ShloMosaic.TcCoe Idealize.SL.Sem Idealize.ShloMosaic.ValueIdx
open Cert.KernelIdeal Cert.KernelIdeal.Gen Cert.Dense Cert.RowScale Cert.Hetero

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the two-relation layer of the blocks it loads. -/
theorem pay_eq (x0 : Vec Ideal S2000x128 .f32) (x1 : Vec Ideal S2000x1 .f32) (x2 : Vec Ideal S128x128 .f32)
    (x3 : Vec Ideal S1x128 .f32) (x4 : Vec Ideal S2000x128 .f32) (x5 : Vec Ideal S2000x1 .f32)
    (x6 : Vec Ideal S128x128 .f32) (x7 : Vec Ideal S1x128 .f32) :
    k1_pay1 x0 x1 x2 x3 x4 x5 x6 x7 = lay2 x0 x1 x2 x3 x4 x5 x6 x7 := by
  unfold k1_pay1
  simp only [shapeCast_self, truncf_id, vecScaleRows,
    matmul_zero_eq_mm dot_S2000x128_S128x128_S2000x128_1_0_0_1_n_n rfl rfl rfl rfl rfl rfl none,
    vecAddBias, vecRelu]
  rfl

/-- Which block each window stages at a point: the row blocks move with the point, the weights and biases stay. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_8.index t (0 : Fin 2) = t.val ∧ win1_8.index t (1 : Fin 2) = 0 :=
  (by decide +kernel : ∀ t : Fin grid1.N, _)

theorem idx_fixed : ∀ t : Fin cfg1.N,
    win1_2.index t (0 : Fin 2) = 0 ∧ win1_2.index t (1 : Fin 2) = 0
    ∧ win1_3.index t (0 : Fin 2) = 0 ∧ win1_3.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem point_lt (t : Fin cfg1.N) : t.val < 25 := Nat.lt_of_lt_of_eq t.isLt N_1

/-! ## The blocks a point stages, read where they sit in their arrays -/

theorem read0 (c : Dev nD) (t : Fin cfg1.N) (r : Fin 2000) (k : Fin 128) (hp : t.val * 2000 + r.val < 50000) :
    iblk1 V c 0 t (ix2 r k) = V c main_v104 (ix2 ⟨t.val * 2000 + r.val, hp⟩ k) := by
  obtain ⟨e0, e1, -⟩ := idx_rows t
  show V c main_v104 (((cfg1.win 0).blk t).view.emb (ix2 r k)) = _
  refine congrArg (V c main_v104) (funext fun a => Fin.ext ?_)
  match a with
  | ⟨0, _⟩ => show win1_0.index t (0 : Fin 2) * 2000 + 1 * r.val = t.val * 2000 + r.val; omega
  | ⟨1, _⟩ => show win1_0.index t (1 : Fin 2) * 128 + 1 * k.val = k.val; omega

theorem read1 (c : Dev nD) (t : Fin cfg1.N) (r : Fin 2000) (hp : t.val * 2000 + r.val < 50000) :
    iblk1 V c 1 t (ix2 r (0 : Fin 1)) = V c main_v15 (ix2 ⟨t.val * 2000 + r.val, hp⟩ (0 : Fin 1)) := by
  obtain ⟨-, -, e0, e1, -⟩ := idx_rows t
  show V c main_v15 (((cfg1.win 1).blk t).view.emb (ix2 r (0 : Fin 1))) = _
  refine congrArg (V c main_v15) (funext fun a => Fin.ext ?_)
  match a with
  | ⟨0, _⟩ => show win1_1.index t (0 : Fin 2) * 2000 + 1 * r.val = t.val * 2000 + r.val; omega
  | ⟨1, _⟩ => show win1_1.index t (1 : Fin 2) * 1 + 1 * 0 = 0; omega

theorem read2 (c : Dev nD) (t : Fin cfg1.N) (k : Fin 128) (q : Fin 128) :
    iblk1 V c 2 t (ix2 k q) = V c main_arg15 (ix2 k q) := by
  obtain ⟨e0, e1, -⟩ := idx_fixed t
  show V c main_arg15 (((cfg1.win 2).blk t).view.emb (ix2 k q)) = _
  refine congrArg (V c main_arg15) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem read3 (c : Dev nD) (t : Fin cfg1.N) (q : Fin 128) :
    iblk1 V c 3 t (ix2 (0 : Fin 1) q) = V c main_v116 (ix2 (0 : Fin 1) q) := by
  obtain ⟨-, -, e0, e1, -⟩ := idx_fixed t
  show V c main_v116 (((cfg1.win 3).blk t).view.emb (ix2 (0 : Fin 1) q)) = _
  refine congrArg (V c main_v116) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem read4 (c : Dev nD) (t : Fin cfg1.N) (r : Fin 2000) (k : Fin 128) (hp : t.val * 2000 + r.val < 50000) :
    iblk1 V c 4 t (ix2 r k) = V c main_v115 (ix2 ⟨t.val * 2000 + r.val, hp⟩ k) := by
  obtain ⟨-, -, -, -, e0, e1, -⟩ := idx_rows t
  show V c main_v115 (((cfg1.win 4).blk t).view.emb (ix2 r k)) = _
  refine congrArg (V c main_v115) (funext fun a => Fin.ext ?_)
  match a with
  | ⟨0, _⟩ => show win1_4.index t (0 : Fin 2) * 2000 + 1 * r.val = t.val * 2000 + r.val; omega
  | ⟨1, _⟩ => show win1_4.index t (1 : Fin 2) * 128 + 1 * k.val = k.val; omega

theorem read5 (c : Dev nD) (t : Fin cfg1.N) (r : Fin 2000) (hp : t.val * 2000 + r.val < 50000) :
    iblk1 V c 5 t (ix2 r (0 : Fin 1)) = V c main_v31 (ix2 ⟨t.val * 2000 + r.val, hp⟩ (0 : Fin 1)) := by
  obtain ⟨-, -, -, -, -, -, e0, e1, -⟩ := idx_rows t
  show V c main_v31 (((cfg1.win 5).blk t).view.emb (ix2 r (0 : Fin 1))) = _
  refine congrArg (V c main_v31) (funext fun a => Fin.ext ?_)
  match a with
  | ⟨0, _⟩ => show win1_5.index t (0 : Fin 2) * 2000 + 1 * r.val = t.val * 2000 + r.val; omega
  | ⟨1, _⟩ => show win1_5.index t (1 : Fin 2) * 1 + 1 * 0 = 0; omega

theorem read6 (c : Dev nD) (t : Fin cfg1.N) (k : Fin 128) (q : Fin 128) :
    iblk1 V c 6 t (ix2 k q) = V c main_arg17 (ix2 k q) := by
  obtain ⟨-, -, -, -, e0, e1, -⟩ := idx_fixed t
  show V c main_arg17 (((cfg1.win 6).blk t).view.emb (ix2 k q)) = _
  refine congrArg (V c main_arg17) (funext fun a => Fin.ext ?_)
  match a with
  | ⟨0, _⟩ => show win1_6.index t (0 : Fin 2) * 128 + 1 * k.val = k.val; omega
  | ⟨1, _⟩ => show win1_6.index t (1 : Fin 2) * 128 + 1 * q.val = q.val; omega

theorem read7 (c : Dev nD) (t : Fin cfg1.N) (q : Fin 128) :
    iblk1 V c 7 t (ix2 (0 : Fin 1) q) = V c main_v117 (ix2 (0 : Fin 1) q) := by
  obtain ⟨-, -, -, -, -, -, e0, e1⟩ := idx_fixed t
  show V c main_v117 (((cfg1.win 7).blk t).view.emb (ix2 (0 : Fin 1) q)) = _
  refine congrArg (V c main_v117) (funext fun a => Fin.ext ?_)
  match a with
  | ⟨0, _⟩ => show win1_7.index t (0 : Fin 2) * 1 + 1 * 0 = 0; omega
  | ⟨1, _⟩ => show win1_7.index t (1 : Fin 2) * 128 + 1 * q.val = q.val; omega

/-- What point t writes back is rows 2000 t … 2000 t + 1999 of the layer of the whole arrays. -/
theorem flushed_eq (c : Dev nD) (t : Fin cfg1.N) :
    (dat1 V c).flushed 8 t = ((cfg1.win 8).blk t).view.read (Elt Ideal)
      (lay2 (V c main_v104) (V c main_v15) (V c main_arg15) (V c main_v116)
        (V c main_v115) (V c main_v31) (V c main_arg17) (V c main_v117)) := by
  show (cfg1.win 8).cut (grid1.coords t) ((dat1 V c).after 8 t) = _
  rw [after1_8]
  unfold out1_8
  rw [View.canon_unit_zero hz]
  simp only [View.ld_unit_zero (S := S2000x128) hz, View.ld_unit_zero (S := S2000x1) hz,
    View.ld_unit_zero (S := S128x128) hz, View.ld_unit_zero (S := S1x128) hz]
  rw [pay_eq]
  obtain ⟨-, -, -, -, -, -, -, -, e0, e1⟩ := idx_rows t
  have ht := point_lt t
  funext j
  obtain ⟨r, q, rfl⟩ : ∃ (r : Fin 2000) (q : Fin 128), j = ix2 r q := ⟨j 0, j 1, eq_ix2 j⟩
  have hp : t.val * 2000 + r.val < 50000 := by have := r.isLt; omega
  have hemb : ((cfg1.win 8).blk t).view.emb (ix2 r q) = ix2 ⟨t.val * 2000 + r.val, hp⟩ q := by
    funext a; apply Fin.ext
    match a with
    | ⟨0, _⟩ => show win1_8.index t (0 : Fin 2) * 2000 + 1 * r.val = t.val * 2000 + r.val; omega
    | ⟨1, _⟩ => show win1_8.index t (1 : Fin 2) * 128 + 1 * q.val = q.val; omega
  show lay2 (iblk1 V c 0 t) (iblk1 V c 1 t) (iblk1 V c 2 t) (iblk1 V c 3 t) (iblk1 V c 4 t) (iblk1 V c 5 t)
      (iblk1 V c 6 t) (iblk1 V c 7 t) (ix2 r q)
    = lay2 (V c main_v104) (V c main_v15) (V c main_arg15) (V c main_v116) (V c main_v115) (V c main_v31)
      (V c main_arg17) (V c main_v117) (((cfg1.win 8).blk t).view.emb (ix2 r q))
  rw [hemb]
  exact lay2_rows (V c main_v104) (V c main_v15) (V c main_arg15) (V c main_v116) (V c main_v115) (V c main_v31)
    (V c main_arg17) (V c main_v117) (iblk1 V c 0 t) (iblk1 V c 1 t) (iblk1 V c 2 t) (iblk1 V c 3 t)
    (iblk1 V c 4 t) (iblk1 V c 5 t) (iblk1 V c 6 t) (iblk1 V c 7 t) ⟨t.val * 2000 + r.val, hp⟩ r q
    (fun k => read0 V c t r k hp) (read1 V c t r hp) (fun k => read2 V c t k q) (read3 V c t q)
    (fun k => read4 V c t r k hp) (read5 V c t r hp) (fun k => read6 V c t k q) (read7 V c t q)

/-- An index is in point t's block of the output iff each coordinate is in the block's range. -/
theorem mem_blk (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v118).slice (win1_8.rect t)).set ↔ _
  rw [View.set_slice_whole, Rect.mem_set_unit]
  exact Iff.rfl

/-- Row r of the output is in the block of point r / 2000. -/
theorem cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : (i 0).val / 2000 < cfg1.N := Nat.lt_of_lt_of_eq (by omega : (i 0).val / 2000 < 25) N_1.symm
  obtain ⟨-, -, -, -, -, -, -, -, e0, e1⟩ := idx_rows ⟨(i 0).val / 2000, hN⟩
  refine ⟨⟨(i 0).val / 2000, hN⟩, flush1_8 _, ?_⟩
  rw [mem_blk]
  intro a
  match a with
  | ⟨0, _⟩ =>
    show win1_8.index ⟨(i 0).val / 2000, hN⟩ (0 : Fin 2) * 2000 ≤ (i 0).val
      ∧ (i 0).val < win1_8.index ⟨(i 0).val / 2000, hN⟩ (0 : Fin 2) * 2000 + 2000
    have e0' : win1_8.index ⟨(i 0).val / 2000, hN⟩ (0 : Fin 2) = (i 0).val / 2000 := e0
    omega
  | ⟨1, _⟩ =>
    show win1_8.index ⟨(i 0).val / 2000, hN⟩ (1 : Fin 2) * 128 ≤ (i 1).val
      ∧ (i 1).val < win1_8.index ⟨(i 0).val / 2000, hN⟩ (1 : Fin 2) * 128 + 128
    omega

/-- THE OUTPUT ARRAY after the region: the two-relation layer of the arrays the region finds. -/
theorem value (c : Dev nD) :
    (dat1 V c).arrAt 8 cfg1.N
      = lay2 (V c main_v104) (V c main_v15) (V c main_arg15) (V c main_v116)
          (V c main_v115) (V c main_v31) (V c main_arg17) (V c main_v117) :=
  (dat1 V c).arrAt_eq_of_cover 8 _ (fun t _ => flushed_eq V c t) (cover)

end Cert.KernelIdeal.LayerTwo

end
-- ==== Proof.Region2.lean ====
/-
  The readout kernel: what its output array holds after the run.

  The grid has one point, which stages every operand whole and writes the whole output back.  The body computes the
  readout  (max (X W1 + b1, 0)) W2 + b2  of what it loads, so the output array ends as the readout of the arrays the
  region finds.
-/
import proofs.«119022_j89644557402629_2_alg».proof.Proof.Gen.KernelIdeal.Frame
import proofs.«119022_j89644557402629_2_alg».proof.Proof.Spec

set_option maxRecDepth 16384

noncomputable section

namespace Cert.KernelIdeal.Readout

open Idealize.ShloMosaic Idealize.ShloMosaic.TcCoe Idealize.SL.Sem Idealize.ShloMosaic.ValueIdx
open Cert.KernelIdeal Cert.KernelIdeal.Gen Cert.Dense Cert.RowScale Cert.Hetero

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the readout of what it loads. -/
theorem pay_eq (x0 : Vec Ideal S16x128 .f32) (x1 : Vec Ideal S128x128 .f32) (x2 : Vec Ideal S1x128 .f32)
    (x3 : Vec Ideal S128x1 .f32) (x4 : Vec Ideal S1x1 .f32) :
    k2_pay1 x0 x1 x2 x3 x4 = readout x0 x1 x2 x3 x4 := by
  unfold k2_pay1
  simp only [shapeCast_self, truncf_id,
    matmul_zero_eq_mm dot_S16x128_S128x128_S16x128_1_0_0_1_n_n rfl rfl rfl rfl rfl rfl none,
    matmul_zero_eq_mm dot_S16x128_S128x1_S16x1_1_0_0_1_n_n rfl rfl rfl rfl rfl rfl none,
    vecAddBias, vecRelu]
  rfl

/-! ## The one point stages every array whole -/

theorem pt0 : ∀ t : Fin cfg2.N, win2_0.index t (0 : Fin 2) = 0 ∧ win2_0.index t (1 : Fin 2) = 0 :=
  (by decide +kernel : ∀ t : Fin grid2.N, _)
theorem pt1 : ∀ t : Fin cfg2.N, win2_1.index t (0 : Fin 2) = 0 ∧ win2_1.index t (1 : Fin 2) = 0 :=
  (by decide +kernel : ∀ t : Fin grid2.N, _)
theorem pt2 : ∀ t : Fin cfg2.N, win2_2.index t (0 : Fin 2) = 0 ∧ win2_2.index t (1 : Fin 2) = 0 :=
  (by decide +kernel : ∀ t : Fin grid2.N, _)
theorem pt3 : ∀ t : Fin cfg2.N, win2_3.index t (0 : Fin 2) = 0 ∧ win2_3.index t (1 : Fin 2) = 0 :=
  (by decide +kernel : ∀ t : Fin grid2.N, _)
theorem pt4 : ∀ t : Fin cfg2.N, win2_4.index t (0 : Fin 2) = 0 ∧ win2_4.index t (1 : Fin 2) = 0 :=
  (by decide +kernel : ∀ t : Fin grid2.N, _)
theorem pt5 : ∀ t : Fin cfg2.N, win2_5.index t (0 : Fin 2) = 0 ∧ win2_5.index t (1 : Fin 2) = 0 :=
  (by decide +kernel : ∀ t : Fin grid2.N, _)

theorem blk0 (c : Dev nD) (t : Fin cfg2.N) : iblk2 V c 0 t = V c main_v129 := by
  obtain ⟨e0, e1⟩ := pt0 t
  funext j
  show V c main_v129 (((cfg2.win 0).blk t).view.emb j) = V c main_v129 j
  refine congrArg (V c main_v129) (funext fun a => Fin.ext ?_)
  match a with
  | ⟨0, _⟩ => show win2_0.index t (0 : Fin 2) * 16 + 1 * (j 0).val = (j 0).val; omega
  | ⟨1, _⟩ => show win2_0.index t (1 : Fin 2) * 128 + 1 * (j 1).val = (j 1).val; omega

theorem blk1 (c : Dev nD) (t : Fin cfg2.N) : iblk2 V c 1 t = V c main_arg21 := by
  obtain ⟨e0, e1⟩ := pt1 t
  funext j
  show V c main_arg21 (((cfg2.win 1).blk t).view.emb j) = V c main_arg21 j
  refine congrArg (V c main_arg21) (funext fun a => Fin.ext ?_)
  match a with
  | ⟨0, _⟩ => show win2_1.index t (0 : Fin 2) * 128 + 1 * (j 0).val = (j 0).val; omega
  | ⟨1, _⟩ => show win2_1.index t (1 : Fin 2) * 128 + 1 * (j 1).val = (j 1).val; omega

theorem blk2 (c : Dev nD) (t : Fin cfg2.N) : iblk2 V c 2 t = V c main_v130 := by
  obtain ⟨e0, e1⟩ := pt2 t
  funext j
  show V c main_v130 (((cfg2.win 2).blk t).view.emb j) = V c main_v130 j
  refine congrArg (V c main_v130) (funext fun a => Fin.ext ?_)
  match a with
  | ⟨0, _⟩ => show win2_2.index t (0 : Fin 2) * 1 + 1 * (j 0).val = (j 0).val; omega
  | ⟨1, _⟩ => show win2_2.index t (1 : Fin 2) * 128 + 1 * (j 1).val = (j 1).val; omega

theorem blk3 (c : Dev nD) (t : Fin cfg2.N) : iblk2 V c 3 t = V c main_arg23 := by
  obtain ⟨e0, e1⟩ := pt3 t
  funext j
  show V c main_arg23 (((cfg2.win 3).blk t).view.emb j) = V c main_arg23 j
  refine congrArg (V c main_arg23) (funext fun a => Fin.ext ?_)
  match a with
  | ⟨0, _⟩ => show win2_3.index t (0 : Fin 2) * 128 + 1 * (j 0).val = (j 0).val; omega
  | ⟨1, _⟩ => show win2_3.index t (1 : Fin 2) * 1 + 1 * (j 1).val = (j 1).val; omega

theorem blk4 (c : Dev nD) (t : Fin cfg2.N) : iblk2 V c 4 t = V c main_v131 := by
  obtain ⟨e0, e1⟩ := pt4 t
  funext j
  show V c main_v131 (((cfg2.win 4).blk t).view.emb j) = V c main_v131 j
  refine congrArg (V c main_v131) (funext fun a => Fin.ext ?_)
  match a with
  | ⟨0, _⟩ => show win2_4.index t (0 : Fin 2) * 1 + 1 * (j 0).val = (j 0).val; omega
  | ⟨1, _⟩ => show win2_4.index t (1 : Fin 2) * 1 + 1 * (j 1).val = (j 1).val; omega

/-- What the point writes back is the readout of the whole arrays. -/
theorem flushed_eq (c : Dev nD) (t : Fin cfg2.N) :
    (dat2 V c).flushed 5 t = ((cfg2.win 5).blk t).view.read (Elt Ideal)
      (readout (V c main_v129) (V c main_arg21) (V c main_v130) (V c main_arg23) (V c main_v131)) := by
  show (cfg2.win 5).cut (grid2.coords t) ((dat2 V c).after 5 t) = _
  rw [after2_5]
  unfold out2_5
  rw [View.canon_unit_zero hz]
  simp only [View.ld_unit_zero (S := S16x128) hz, View.ld_unit_zero (S := S128x128) hz,
    View.ld_unit_zero (S := S1x128) hz, View.ld_unit_zero (S := S128x1) hz, View.ld_unit_zero (S := S1x1) hz]
  rw [pay_eq, blk0 V c t, blk1 V c t, blk2 V c t, blk3 V c t, blk4 V c t]
  obtain ⟨e0, e1⟩ := pt5 t
  funext j
  show readout (V c main_v129) (V c main_arg21) (V c main_v130) (V c main_arg23) (V c main_v131) j
    = readout (V c main_v129) (V c main_arg21) (V c main_v130) (V c main_arg23) (V c main_v131)
        (((cfg2.win 5).blk t).view.emb j)
  refine congrArg _ (funext fun a => Fin.ext ?_)
  match a with
  | ⟨0, _⟩ => show (j 0).val = win2_5.index t (0 : Fin 2) * 16 + 1 * (j 0).val; omega
  | ⟨1, _⟩ => show (j 1).val = win2_5.index t (1 : Fin 2) * 1 + 1 * (j 1).val; omega

theorem mem_blk (t : Fin cfg2.N) (i : S16x1.Idx) :
    i ∈ ((cfg2.win 5).blk t).view.set ↔ ∀ a : Fin 2, win2_5.index t a * S16x1.size a ≤ (i a).val
      ∧ (i a).val < win2_5.index t a * S16x1.size a + S16x1.size a := by
  show i ∈ ((View.whole main_v132).slice (win2_5.rect t)).set ↔ _
  rw [View.set_slice_whole, Rect.mem_set_unit]
  exact Iff.rfl

theorem cover (i : S16x1.Idx) :
    ∃ t : Fin cfg2.N, (cfg2.win 5).flush t = true ∧ i ∈ ((cfg2.win 5).blk t).view.set := by
  have hi0 : (i 0).val < 16 := (i 0).isLt
  have hi1 : (i 1).val < 1 := (i 1).isLt
  have hN : 0 < cfg2.N := Nat.lt_of_lt_of_eq (by omega : 0 < 1) N_2.symm
  obtain ⟨e0, e1⟩ := pt5 ⟨0, hN⟩
  refine ⟨⟨0, hN⟩, flush2_5 _, ?_⟩
  rw [mem_blk]
  intro a
  match a with
  | ⟨0, _⟩ =>
    show win2_5.index ⟨0, hN⟩ (0 : Fin 2) * 16 ≤ (i 0).val ∧ (i 0).val < win2_5.index ⟨0, hN⟩ (0 : Fin 2) * 16 + 16
    omega
  | ⟨1, _⟩ =>
    show win2_5.index ⟨0, hN⟩ (1 : Fin 2) * 1 ≤ (i 1).val ∧ (i 1).val < win2_5.index ⟨0, hN⟩ (1 : Fin 2) * 1 + 1
    omega

/-- THE OUTPUT ARRAY after the region: the readout of the arrays the region finds. -/
theorem value (c : Dev nD) :
    (dat2 V c).arrAt 5 cfg2.N
      = readout (V c main_v129) (V c main_arg21) (V c main_v130) (V c main_arg23) (V c main_v131) :=
  (dat2 V c).arrAt_eq_of_cover 5 _ (fun t _ => flushed_eq V c t) cover

end Cert.KernelIdeal.Readout

end
-- ==== Proof.RefStages.lean ====
/-
  The reference's layers, read as the layer functions of their operands.

  The reference spells a relation's projection as: the aggregate multiplied by the degree column broadcast along the
  rows, a dot product with the weights, the one-row bias broadcast to every row and added; a layer as the sum of its
  projections and the maximum with a broadcast scalar zero; the first layer's outputs multiplied once more by a
  broadcast degree column.  Each is the layer function of the same operands.
-/
import proofs.«119022_j89644557402629_2_alg».proof.Proof.RefReadP
import proofs.«119022_j89644557402629_2_alg».proof.Proof.Spec

set_option maxRecDepth 16384

noncomputable section

namespace Cert.ReferenceIdeal.Stages

open Idealize.ShloMosaic Idealize.ShloMosaic.ValueIdx
open Cert.ReferenceIdeal Cert.ReferenceIdeal.ReadP Cert.Dense Cert.RowScale Cert.Hetero

/-- A one-column array broadcast along the rows and multiplied in scales the rows. -/
theorem hostScaleCol {M N : ℕ} (G : FVec Ideal ⟨2, ![M, N]⟩ .f32) (s : FVec Ideal ⟨2, ![M, 1]⟩ .f32)
    (h : (⟨2, ![M, 1]⟩ : Shape).BroadcastsInDim ⟨2, ![M, N]⟩ ![0, 1]) :
    mulf G (broadcastInDim ⟨2, ![M, N]⟩ ![0, 1] h s) = scaleRows G s := by
  funext i
  obtain ⟨p, q, rfl⟩ : ∃ (p : Fin M) (q : Fin N), i = ix2 p q := ⟨i 0, i 1, eq_ix2 i⟩
  show G (ix2 p q) * broadcastInDim ⟨2, ![M, N]⟩ ![0, 1] h s (ix2 p q) = _
  rw [broadcastInDim_apply ![0, 1] h _ (ix2 p q) (ix2 p (0 : Fin 1)) (fun a => by
        match a with
        | ⟨0, _⟩ =>
          show p.val = if M = 1 then 0 else p.val
          split
          · have := p.isLt; omega
          · rfl
        | ⟨1, _⟩ => rfl)]
  rfl

/-- A one-row array broadcast to every row and added. -/
theorem hostAddRow {M N : ℕ} (X : FVec Ideal ⟨2, ![M, N]⟩ .f32) (b : FVec Ideal ⟨2, ![1, N]⟩ .f32)
    (h : (⟨2, ![1, N]⟩ : Shape).BroadcastsInDim ⟨2, ![M, N]⟩ ![0, 1]) :
    addf X (broadcastInDim ⟨2, ![M, N]⟩ ![0, 1] h b) = addBias X b := by
  funext i
  obtain ⟨p, q, rfl⟩ : ∃ (p : Fin M) (q : Fin N), i = ix2 p q := ⟨i 0, i 1, eq_ix2 i⟩
  show X (ix2 p q) + broadcastInDim ⟨2, ![M, N]⟩ ![0, 1] h b (ix2 p q) = _
  rw [broadcastInDim_apply ![0, 1] h _ (ix2 p q) (ix2 (0 : Fin 1) q) (fun a => by
        match a with
        | ⟨0, _⟩ => rfl
        | ⟨1, _⟩ =>
          show q.val = if N = 1 then 0 else q.val
          split
          · have := q.isLt; omega
          · rfl)]
  rfl

/-- The first layer at the first node type, scaled for the next layer's gather. -/
theorem first_two (x0 x1 : (⟨S50000x128, .f32⟩ : BufTy).Contents (Elt Ideal)) (x2 x3 : (⟨S800000, .i32⟩ : BufTy).Contents (Elt Ideal)) (x4 x5 : (⟨S400000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    (val_main_v119 (F := Ideal) x0 x1 x2 x3 x4 x5 x9 x10 x11 x12) = lay1two (val_main_v24 (F := Ideal) x0 x2 x3) (val_main_v27 (F := Ideal) x3) x9 (val_main_v31 (F := Ideal) x10)
      (val_main_v58 (F := Ideal) x1 x4 x5) (val_main_v61 (F := Ideal) x5) x11 (val_main_v65 (F := Ideal) x12) (val_main_v117 (F := Ideal) x2) := by
  simp only [val_main_v119, val_main_v118, val_main_v103, val_main_v68, val_main_v33, val_main_v32, val_main_v30, val_main_v29, val_main_v28, val_main_v67, val_main_v66, val_main_v64, val_main_v63, val_main_v62, val_main_call6_v0, val_main_call6_cst]
  simp only [hostDot_eq_mm dot_S50000x128_S128x128_S50000x128_1_0_0_1_n_n rfl rfl rfl rfl rfl rfl none]
  rw [hostScaleCol, hostScaleCol, hostScaleCol, hostAddRow, hostAddRow, hostRelu, vecAdd]
  unfold lay1two lay2 proj
  rfl

/-- The first layer at the second node type, scaled for the next layer's gather. -/
theorem first_one (x0 : (⟨S50000x128, .f32⟩ : BufTy).Contents (Elt Ideal)) (x4 x6 x7 : (⟨S400000, .i32⟩ : BufTy).Contents (Elt Ideal)) (x13 : (⟨S128x128, .f32⟩ : BufTy).Contents (Elt Ideal)) (x14 : (⟨S128, .f32⟩ : BufTy).Contents (Elt Ideal)) :
    (val_main_v153 (F := Ideal) x0 x4 x6 x7 x13 x14) = lay1one (val_main_v93 (F := Ideal) x0 x6 x7) (val_main_v96 (F := Ideal) x7) x13 (val_main_v100 (F := Ideal) x14) (val_main_v151 (F := Ideal) x4) := by
  simp only [val_main_v153, val_main_v152, val_main_v104, val_main_v102, val_main_v101, val_main_v99, val_main_v98, val_main_v97, val_main_call7_v0, val_main_call7_cst]
  simp only [hostDot_eq_mm dot_S50000x128_S128x128_S50000x128_1_0_0_1_n_n rfl rfl rfl rfl rfl rfl none]
  rw [hostScaleCol, hostScaleCol, hostAddRow, hostRelu]
  unfold lay1one proj
  rfl

/-- The second layer at the first node type. -/
theorem second (x0 x1 : (⟨S50000x128, .f32⟩ : BufTy).Contents (Elt Ideal)) (x2 x3 : (⟨S800000, .i32⟩ : BufTy).Contents (Elt Ideal)) (x4 x5 x6 x7 : (⟨S400000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    (val_main_v208 (F := Ideal) x0 x1 x2 x3 x4 x5 x6 x7 x9 x10 x11 x12 x13 x14 x15 x16 x17 x18) = lay2 (val_main_v129 (F := Ideal) x0 x1 x2 x3 x4 x5 x9 x10 x11 x12) (val_main_v132 (F := Ideal) x3) x15 (val_main_v136 (F := Ideal) x16)
      (val_main_v163 (F := Ideal) x0 x4 x5 x6 x7 x13 x14) (val_main_v166 (F := Ideal) x5) x17 (val_main_v170 (F := Ideal) x18) := by
  simp only [val_main_v208, val_main_v173, val_main_v138, val_main_v137, val_main_v135, val_main_v134, val_main_v133, val_main_v172, val_main_v171, val_main_v169, val_main_v168, val_main_v167, val_main_call14_v0, val_main_call14_cst]
  simp only [hostDot_eq_mm dot_S50000x128_S128x128_S50000x128_1_0_0_1_n_n rfl rfl rfl rfl rfl rfl none]
  rw [hostScaleCol, hostScaleCol, hostAddRow, hostAddRow, hostRelu, vecAdd]
  unfold lay2 proj
  rfl

/-- The readout. -/
theorem last (x0 x1 : (⟨S50000x128, .f32⟩ : BufTy).Contents (Elt Ideal)) (x2 x3 : (⟨S800000, .i32⟩ : BufTy).Contents (Elt Ideal)) (x4 x5 x6 x7 : (⟨S400000, .i32⟩ : BufTy).Contents (Elt Ideal)) (x8 : (⟨S50000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x1, .f32⟩ : BufTy).Contents (Elt Ideal)) (x24 : (⟨S1, .f32⟩ : BufTy).Contents (Elt Ideal)) :
    (val_main_v228 (F := Ideal) x0 x1 x2 x3 x4 x5 x6 x7 x8 x9 x10 x11 x12 x13 x14 x15 x16 x17 x18 x21 x22 x23 x24) = readout (val_main_v219 (F := Ideal) x0 x1 x2 x3 x4 x5 x6 x7 x8 x9 x10 x11 x12 x13 x14 x15 x16 x17 x18) x21 (val_main_v221 (F := Ideal) x22) x23 (val_main_v226 (F := Ideal) x24) := by
  simp only [val_main_v228, val_main_v227, val_main_v225, val_main_v224, val_main_v223, val_main_v222, val_main_v220, val_main_call16_v0, val_main_call16_cst]
  simp only [hostDot_eq_mm dot_S16x128_S128x128_S16x128_1_0_0_1_n_n rfl rfl rfl rfl rfl rfl none,
    hostDot_eq_mm dot_S16x128_S128x1_S16x1_1_0_0_1_n_n rfl rfl rfl rfl rfl rfl none]
  rw [hostAddRow, hostAddRow, hostRelu]
  unfold readout
  rfl

end Cert.ReferenceIdeal.Stages

end
-- ==== Proof.KernelChain.lean ====
/-
  The kernel's result as the reference's last stage of the arguments.

  Region by region: a region's output array is the layer function of the arrays the region finds (Region0, Region1,
  Region2); each of those arrays is a stage of the reference at the arguments (KernelHost), given that the previous
  region's outputs are; and the reference's host spelling of the layer is the same layer function of those stages
  (RefStages).  So each region's output is the reference's corresponding stage, and the last one is the result.
-/
import proofs.«119022_j89644557402629_2_alg».proof.Proof.KernelRun
import proofs.«119022_j89644557402629_2_alg».proof.Proof.KernelHost
import proofs.«119022_j89644557402629_2_alg».proof.Proof.Region0
import proofs.«119022_j89644557402629_2_alg».proof.Proof.Region1
import proofs.«119022_j89644557402629_2_alg».proof.Proof.Region2
import proofs.«119022_j89644557402629_2_alg».proof.Proof.RefStages

set_option maxRecDepth 16384

noncomputable section

namespace Cert.KernelIdeal.Chain

open Idealize.ShloMosaic Idealize.ShloMosaic.TcCoe Idealize.SL.Sem
open Cert.KernelIdeal Cert.KernelIdeal.Gen Cert.KernelIdeal.Glue

variable (m : (ℓ : Loc nD τ sig) → Buf (Elt Ideal) ℓ) (ρ : Dev nD → PrngReg) (c : Dev nD)

/-- The first layer's output at the first node type is the reference's scaled first-layer stage. -/
theorem out_first : W14 m ρ c (Proc.devRef .tc main_v93_0)
    = Cert.ReferenceIdeal.ReadP.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) := by
  refine (W14_arr m ρ c 14).trans ?_
  rw [Cert.KernelIdeal.LayerOne.value14 (V13 m ρ) c, V13_v61 m ρ c, V13_v15 m ρ c, V13_arg9 m ρ c, V13_v90 m ρ c,
    V13_v75 m ρ c, V13_v31 m ρ c, V13_arg11 m ρ c, V13_v91 m ρ c, V13_v7 m ρ c]
  exact (Cert.ReferenceIdeal.Stages.first_two (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12))).symm

/-- The first layer's output at the second node type is the reference's scaled first-layer stage. -/
theorem out_second : W14 m ρ c (Proc.devRef .tc main_v93_1)
    = Cert.ReferenceIdeal.ReadP.val_main_v153 (F := Ideal) (m ((c.tc : Thread nD τ).loc main_arg0)) (m ((c.tc : Thread nD τ).loc main_arg4)) (m ((c.tc : Thread nD τ).loc main_arg6)) (m ((c.tc : Thread nD τ).loc main_arg7)) (m ((c.tc : Thread nD τ).loc main_arg13)) (m ((c.tc : Thread nD τ).loc main_arg14)) := by
  refine (W14_arr m ρ c 15).trans ?_
  rw [Cert.KernelIdeal.LayerOne.value15 (V13 m ρ) c, V13_v89 m ρ c, V13_v47 m ρ c, V13_arg13 m ρ c, V13_v92 m ρ c,
    V13_v23 m ρ c]
  exact (Cert.ReferenceIdeal.Stages.first_one (m ((c.tc : Thread nD τ).loc main_arg0)) (m ((c.tc : Thread nD τ).loc main_arg4)) (m ((c.tc : Thread nD τ).loc main_arg6)) (m ((c.tc : Thread nD τ).loc main_arg7)) (m ((c.tc : Thread nD τ).loc main_arg13)) (m ((c.tc : Thread nD τ).loc main_arg14))).symm

/-- The second layer's output is the reference's second-layer stage. -/
theorem out_mid : W16 m ρ c (Proc.devRef .tc main_v118)
    = Cert.ReferenceIdeal.ReadP.val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (W16_arr m ρ c 8).trans ?_
  rw [Cert.KernelIdeal.LayerTwo.value (V15 m ρ) c, V15_v104 m ρ c (out_first m ρ c), V15_v15 m ρ c, V15_arg15 m ρ c,
    V15_v116 m ρ c, V15_v115 m ρ c (out_second m ρ c), V15_v31 m ρ c, V15_arg17 m ρ c, V15_v117 m ρ c]
  exact (Cert.ReferenceIdeal.Stages.second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))).symm

/-- THE RESULT: the readout kernel's output is the reference's last stage of the arguments. -/
theorem result : W20 m ρ c (Proc.devRef .tc main_v132)
    = Cert.ReferenceIdeal.ReadP.val_main_v228 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg21)) (m ((c.tc : Thread nD τ).loc main_arg22)) (m ((c.tc : Thread nD τ).loc main_arg23)) (m ((c.tc : Thread nD τ).loc main_arg24)) := by
  refine (W20_arr m ρ c 5).trans ?_
  rw [Cert.KernelIdeal.Readout.value (V19 m ρ) c, V19_v129 m ρ c (out_mid m ρ c), V19_arg21 m ρ c, V19_v130 m ρ c,
    V19_arg23 m ρ c, V19_v131 m ρ c]
  exact (Cert.ReferenceIdeal.Stages.last (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg21)) (m ((c.tc : Thread nD τ).loc main_arg22)) (m ((c.tc : Thread nD τ).loc main_arg23)) (m ((c.tc : Thread nD τ).loc main_arg24))).symm

end Cert.KernelIdeal.Chain

end
-- ==== Proof.lean ====
/-
  The kernel is a two-layer heterogeneous graph network over two node types and three relations, followed by a mean
  pooling per graph and a two-layer readout.  Per relation a layer gathers the source features scaled by the inverse
  square root of the clamped source degree, sums them per destination, scales by the inverse square root of the
  clamped destination degree, multiplies by the relation's weights and adds its bias; the relations ending at a node
  type are summed and rectified.  The kernel computes the gathers, the scatter-sums, the degrees and the pooling on
  the host, exactly as the reference does, and the dense part of each layer and the readout in three tiled
  vector-unit kernels; the reference computes everything on the host.

  On the extended reals the two programs are the same function of the arguments: every host operation outside the
  three kernels is the reference's own operation on the same operands (a change of float format is the identity; a
  vector reshaped to a column or a row is the vector broadcast to it), and each kernel's output array is the layer
  function of the arrays it reads (modules Region0, Region1, Region2), which is what the reference's host spelling of
  that layer computes (module RefStages).  No law beyond the definitions is used, so the precondition is never
  opened.  Module KernelChain composes the stages on the kernel's side.
-/
import proofs.«119022_j89644557402629_2_alg».proof.Defs
import proofs.«119022_j89644557402629_2_alg».proof.Proof.Gen.Kernel
import proofs.«119022_j89644557402629_2_alg».proof.Proof.Gen.Kernel.Frame
import proofs.«119022_j89644557402629_2_alg».proof.Proof.Gen.KernelIdeal
import proofs.«119022_j89644557402629_2_alg».proof.Proof.Gen.KernelIdeal.Frame
import proofs.«119022_j89644557402629_2_alg».proof.Proof.Gen.ReferenceIdeal
import proofs.«119022_j89644557402629_2_alg».proof.Proof.Gen.Pre_finite_inputs
import proofs.«119022_j89644557402629_2_alg».proof.Proof.RefRunP
import proofs.«119022_j89644557402629_2_alg».proof.Proof.RefReadP
import proofs.«119022_j89644557402629_2_alg».proof.Proof.KernelChain
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_k : Cert.frame_Kernel :=
  fun m ρ _ => Cert.Kernel.Gen.frame m ρ

/-- The idealized kernel runs and leaves its arguments as launched. -/
theorem frame_ki : Cert.frame_KernelIdeal :=
  fun m ρ _ => Cert.KernelIdeal.Gen.frame m ρ

/-- The idealized reference runs and leaves its arguments as launched: its run with the result dropped. -/
theorem frame_ri : Cert.frame_ReferenceIdeal :=
  fun m ρ _ => (θ_run Cert.ReferenceIdeal.defs _ _).mono (fun _ h c => (h c).2)
    (Cert.ReferenceIdeal.ValueP.run (F := Ideal) m ρ)

/-- Both idealized programs end with the reference's last stage of the arguments. -/
theorem algebraic : Cert.algebraic_KernelIdeal_ReferenceIdeal := by
  intro m ρ m' ρ' _ hagree
  refine ⟨fun c => Cert.ReferenceIdeal.ReadP.val_main_v228 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22))
    (m ((c.tc : Thread Cert.KernelIdeal.nD Cert.KernelIdeal.τ).loc Cert.KernelIdeal.main_arg23))
    (m ((c.tc : Thread Cert.KernelIdeal.nD Cert.KernelIdeal.τ).loc Cert.KernelIdeal.main_arg24)), ?_, ?_⟩
  · exact (θ_run Cert.KernelIdeal.defs _ _).mono
      (fun _ h c => ⟨(h c).1.trans (Cert.KernelIdeal.Chain.result m ρ c), (h c).2⟩)
      (Cert.KernelIdeal.Glue.run_result m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20, h21, h22, h23, h24⟩ := hagree c
    rw [Cert.ReferenceIdeal.ReadP.val_main_v228_eq, h0, h1, h2, h3, h4, h5, h6, h7, h8, h9, h10, h11, h12, h13, h14, h15, h16, h17, h18, h21, h22, h23, h24]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
